-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x200000 : Shape := ⟨2, ![2, 200000]⟩
abbrev S100000 : Shape := ⟨1, ![100000]⟩
abbrev S512x512 : Shape := ⟨2, ![512, 512]⟩
abbrev S512 : Shape := ⟨1, ![512]⟩
abbrev S_ : Shape := ⟨0, ![]⟩
abbrev S512x7 : Shape := ⟨2, ![512, 7]⟩
abbrev S7 : Shape := ⟨1, ![7]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S_S_d : S_.ReducesTo [] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part5 {F : FTy → Type} [FloatOps F] (main_arg20 : FVec F S512x7 .f32) (main_arg21 : FVec F S7 .f32) (main_v82 : IVec S_ 1) (main_v83 : FVec F S512 .f32) (main_v84 : FVec F S512 .f32) : IVec S_ 1 :=
  let main_v85 : IVec S512 1 := cmpf .olt main_v83 main_v84
  let main_c_33 : IVec S_ 1 := constantI S_ 1 1#1
  let main_v86 : IVec S_ 1 := (fun x v => Host.reduce IntOp.andi x v reducesTo_S512_S_d0 h_S_) main_v85 main_c_33
  let main_v87 : IVec S_ 1 := andi main_v82 main_v86
  let main_v88 : FVec F S512x7 .f32 := Host.absf main_arg20
  let main_cst_34 : FVec F S_ .f32 := constant S_ .f32 0x7F800000#32
  let main_v89 : FVec F S512x7 .f32 := broadcastInDim S512x7 ![] bcast_S_S512x7 main_cst_34
  let main_v90 : IVec S512x7 1 := cmpf .olt main_v88 main_v89
  let main_c_35 : IVec S_ 1 := constantI S_ 1 1#1
  let main_v91 : IVec S_ 1 := (fun x v => Host.reduce IntOp.andi x v reducesTo_S512x7_S_d0_1 h_S_) main_v90 main_c_35
  let main_v92 : IVec S_ 1 := andi main_v87 main_v91
  let main_v93 : FVec F S7 .f32 := Host.absf main_arg21
  let main_cst_36 : FVec F S_ .f32 := constant S_ .f32 0x7F800000#32
  let main_v94 : FVec F S7 .f32 := broadcastInDim S7 ![] bcast_S_S7 main_cst_36
  let main_v95 : IVec S7 1 := cmpf .olt main_v93 main_v94
  let main_c_37 : IVec S_ 1 := constantI S_ 1 1#1
  let main_v96 : IVec S_ 1 := (fun x v => Host.reduce IntOp.andi x v reducesTo_S7_S_d0 h_S_) main_v95 main_c_37
  let main_v97 : IVec S_ 1 := andi main_v92 main_v96
  main_v97

def fn_part4 {F : FTy → Type} [FloatOps F] (main_arg16 : FVec F S512x512 .f32) (main_arg17 : FVec F S512 .f32) (main_arg18 : FVec F S512x512 .f32) (main_arg19 : FVec F S512 .f32) (main_arg20 : FVec F S512x7 .f32) (main_arg21 : FVec F S7 .f32) (main_v67 : IVec S_ 1) : IVec S_ 1 :=
  let main_v68 : FVec F S512x512 .f32 := Host.absf main_arg16
  let main_cst_26 : FVec F S_ .f32 := constant S_ .f32 0x7F800000#32
  let main_v69 : FVec F S512x512 .f32 := broadcastInDim S512x512 ![] bcast_S_S512x512 main_cst_26
  let main_v70 : IVec S512x512 1 := cmpf .olt main_v68 main_v69
  let main_c_27 : IVec S_ 1 := constantI S_ 1 1#1
  let main_v71 : IVec S_ 1 := (fun x v => Host.reduce IntOp.andi x v reducesTo_S512x512_S_d0_1 h_S_) main_v70 main_c_27
  let main_v72 : IVec S_ 1 := andi main_v67 main_v71
  let main_v73 : FVec F S512 .f32 := Host.absf main_arg17
  let main_cst_28 : FVec F S_ .f32 := constant S_ .f32 0x7F800000#32
  let main_v74 : FVec F S512 .f32 := broadcastInDim S512 ![] bcast_S_S512 main_cst_28
  let main_v75 : IVec S512 1 := cmpf .olt main_v73 main_v74
  let main_c_29 : IVec S_ 1 := constantI S_ 1 1#1
  let main_v76 : IVec S_ 1 := (fun x v => Host.reduce IntOp.andi x v reducesTo_S512_S_d0 h_S_) main_v75 main_c_29
  let main_v77 : IVec S_ 1 := andi main_v72 main_v76
  let main_v78 : FVec F S512x512 .f32 := Host.absf main_arg18
  let main_cst_30 : FVec F S_ .f32 := constant S_ .f32 0x7F800000#32
  let main_v79 : FVec F S512x512 .f32 := broadcastInDim S512x512 ![] bcast_S_S512x512 main_cst_30
  let main_v80 : IVec S512x512 1 := cmpf .olt main_v78 main_v79
  let main_c_31 : IVec S_ 1 := constantI S_ 1 1#1
  let main_v81 : IVec S_ 1 := (fun x v => Host.reduce IntOp.andi x v reducesTo_S512x512_S_d0_1 h_S_) main_v80 main_c_31
  let main_v82 : IVec S_ 1 := andi main_v77 main_v81
  let main_v83 : FVec F S512 .f32 := Host.absf main_arg19
  let main_cst_32 : FVec F S_ .f32 := constant S_ .f32 0x7F800000#32
  let main_v84 : FVec F S512 .f32 := broadcastInDim S512 ![] bcast_S_S512 main_cst_32
  fn_part5 (F := F) main_arg20 main_arg21 main_v82 main_v83 main_v84

def fn_part3 {F : FTy → Type} [FloatOps F] (main_arg13 : FVec F S512 .f32) (main_arg14 : FVec F S512 .f32) (main_arg15 : FVec F S512 .f32) (main_arg16 : FVec F S512x512 .f32) (main_arg17 : FVec F S512 .f32) (main_arg18 : FVec F S512x512 .f32) (main_arg19 : FVec F S512 .f32) (main_arg20 : FVec F S512x7 .f32) (main_arg21 : FVec F S7 .f32) (main_v47 : IVec S_ 1) (main_v50 : IVec S512x512 1) : IVec S_ 1 :=
  let main_c_19 : IVec S_ 1 := constantI S_ 1 1#1
  let main_v51 : IVec S_ 1 := (fun x v => Host.reduce IntOp.andi x v reducesTo_S512x512_S_d0_1 h_S_) main_v50 main_c_19
  let main_v52 : IVec S_ 1 := andi main_v47 main_v51
  let main_v53 : FVec F S512 .f32 := Host.absf main_arg13
  let main_cst_20 : FVec F S_ .f32 := constant S_ .f32 0x7F800000#32
  let main_v54 : FVec F S512 .f32 := broadcastInDim S512 ![] bcast_S_S512 main_cst_20
  let main_v55 : IVec S512 1 := cmpf .olt main_v53 main_v54
  let main_c_21 : IVec S_ 1 := constantI S_ 1 1#1
  let main_v56 : IVec S_ 1 := (fun x v => Host.reduce IntOp.andi x v reducesTo_S512_S_d0 h_S_) main_v55 main_c_21
  let main_v57 : IVec S_ 1 := andi main_v52 main_v56
  let main_v58 : FVec F S512 .f32 := Host.absf main_arg14
  let main_cst_22 : FVec F S_ .f32 := constant S_ .f32 0x7F800000#32
  let main_v59 : FVec F S512 .f32 := broadcastInDim S512 ![] bcast_S_S512 main_cst_22
  let main_v60 : IVec S512 1 := cmpf .olt main_v58 main_v59
  let main_c_23 : IVec S_ 1 := constantI S_ 1 1#1
  let main_v61 : IVec S_ 1 := (fun x v => Host.reduce IntOp.andi x v reducesTo_S512_S_d0 h_S_) main_v60 main_c_23
  let main_v62 : IVec S_ 1 := andi main_v57 main_v61
  let main_v63 : FVec F S512 .f32 := Host.absf main_arg15
  let main_cst_24 : FVec F S_ .f32 := constant S_ .f32 0x7F800000#32
  let main_v64 : FVec F S512 .f32 := broadcastInDim S512 ![] bcast_S_S512 main_cst_24
  let main_v65 : IVec S512 1 := cmpf .olt main_v63 main_v64
  let main_c_25 : IVec S_ 1 := constantI S_ 1 1#1
  let main_v66 : IVec S_ 1 := (fun x v => Host.reduce IntOp.andi x v reducesTo_S512_S_d0 h_S_) main_v65 main_c_25
  let main_v67 : IVec S_ 1 := andi main_v62 main_v66
  fn_part4 (F := F) main_arg16 main_arg17 main_arg18 main_arg19 main_arg20 main_arg21 main_v67

def fn_part2 {F : FTy → Type} [FloatOps F] (main_arg9 : FVec F S_ .f32) (main_arg10 : FVec F S512x512 .f32) (main_arg11 : FVec F S512 .f32) (main_arg12 : FVec F S512x512 .f32) (main_arg13 : FVec F S512 .f32) (main_arg14 : FVec F S512 .f32) (main_arg15 : FVec F S512 .f32) (main_arg16 : FVec F S512x512 .f32) (main_arg17 : FVec F S512 .f32) (main_arg18 : FVec F S512x512 .f32) (main_arg19 : FVec F S512 .f32) (main_arg20 : FVec F S512x7 .f32) (main_arg21 : FVec F S7 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S512x512 .f32 := Host.absf main_arg10
  let main_cst_14 : FVec F S_ .f32 := constant S_ .f32 0x7F800000#32
  let main_v39 : FVec F S512x512 .f32 := broadcastInDim S512x512 ![] bcast_S_S512x512 main_cst_14
  let main_v40 : IVec S512x512 1 := cmpf .olt main_v38 main_v39
  let main_c_15 : IVec S_ 1 := constantI S_ 1 1#1
  let main_v41 : IVec S_ 1 := (fun x v => Host.reduce IntOp.andi x v reducesTo_S512x512_S_d0_1 h_S_) main_v40 main_c_15
  let main_v42 : IVec S_ 1 := andi main_v37 main_v41
  let main_v43 : FVec F S512 .f32 := Host.absf main_arg11
  let main_cst_16 : FVec F S_ .f32 := constant S_ .f32 0x7F800000#32
  let main_v44 : FVec F S512 .f32 := broadcastInDim S512 ![] bcast_S_S512 main_cst_16
  let main_v45 : IVec S512 1 := cmpf .olt main_v43 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v42 main_v46
  let main_v48 : FVec F S512x512 .f32 := Host.absf main_arg12
  let main_cst_18 : FVec F S_ .f32 := constant S_ .f32 0x7F800000#32
  let main_v49 : FVec F S512x512 .f32 := broadcastInDim S512x512 ![] bcast_S_S512x512 main_cst_18
  let main_v50 : IVec S512x512 1 := cmpf .olt main_v48 main_v49
  fn_part3 (F := F) main_arg13 main_arg14 main_arg15 main_arg16 main_arg17 main_arg18 main_arg19 main_arg20 main_arg21 main_v47 main_v50

def fn_part1 {F : FTy → Type} [FloatOps F] (main_arg6 : FVec F S512 .f32) (main_arg7 : FVec F S512x512 .f32) (main_arg8 : FVec F S512 .f32) (main_arg9 : FVec F S_ .f32) (main_arg10 : FVec F S512x512 .f32) (main_arg11 : FVec F S512 .f32) (main_arg12 : FVec F S512x512 .f32) (main_arg13 : FVec F S512 .f32) (main_arg14 : FVec F S512 .f32) (main_arg15 : FVec F S512 .f32) (main_arg16 : FVec F S512x512 .f32) (main_arg17 : FVec F S512 .f32) (main_arg18 : FVec F S512x512 .f32) (main_arg19 : FVec F S512 .f32) (main_arg20 : FVec F S512x7 .f32) (main_arg21 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x512 .f32) (main_arg1 : FVec F S50000x512 .f32) (main_arg2 : IVec S2x200000 32) (main_arg3 : IVec S100000 32) (main_arg4 : FVec F S512x512 .f32) (main_arg5 : FVec F S512 .f32) (main_arg6 : FVec F S512 .f32) (main_arg7 : FVec F S512x512 .f32) (main_arg8 : FVec F S512 .f32) (main_arg9 : FVec F S_ .f32) (main_arg10 : FVec F S512x512 .f32) (main_arg11 : FVec F S512 .f32) (main_arg12 : FVec F S512x512 .f32) (main_arg13 : FVec F S512 .f32) (main_arg14 : FVec F S512 .f32) (main_arg15 : FVec F S512 .f32) (main_arg16 : FVec F S512x512 .f32) (main_arg17 : FVec F S512 .f32) (main_arg18 : FVec F S512x512 .f32) (main_arg19 : FVec F S512 .f32) (main_arg20 : FVec F S512x7 .f32) (main_arg21 : FVec F S7 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x512 : Shape := ⟨2, ![50000, 512]⟩
abbrev S2x200000 : Shape := ⟨2, ![2, 200000]⟩
abbrev S100000 : Shape := ⟨1, ![100000]⟩
abbrev S512x512 : Shape := ⟨2, ![512, 512]⟩
abbrev S512 : Shape := ⟨1, ![512]⟩
abbrev S_ : Shape := ⟨0, ![]⟩
abbrev S512x7 : Shape := ⟨2, ![512, 7]⟩
abbrev S7 : Shape := ⟨1, ![7]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S1000x512 : Shape := ⟨2, ![1000, 512]⟩
abbrev S1x512 : Shape := ⟨2, ![1, 512]⟩
abbrev S100000x1 : Shape := ⟨2, ![100000, 1]⟩
abbrev S2x100000 : Shape := ⟨2, ![2, 100000]⟩
abbrev S1x100000 : Shape := ⟨2, ![1, 100000]⟩
abbrev S100000x512 : Shape := ⟨2, ![100000, 512]⟩
abbrev S1x7 : Shape := ⟨2, ![1, 7]⟩
abbrev S100000x7 : Shape := ⟨2, ![100000, 7]⟩
abbrev S2000x512 : Shape := ⟨2, ![2000, 512]⟩
abbrev S2000x7 : Shape := ⟨2, ![2000, 7]⟩

abbrev nBuf : Space → Nat
  | .hbm => 165
  | .vmem => 51
  | .smem => 0
  | _ => 0

abbrev hbmTy0_0 (i : Nat) : BufTy := match i % 128 with
  | 0 => ⟨S50000x512, .f32⟩
  | 1 => ⟨S50000x512, .f32⟩
  | 2 => ⟨S2x200000, .i32⟩
  | 3 => ⟨S100000, .i32⟩
  | 4 => ⟨S512x512, .f32⟩
  | 5 => ⟨S512, .f32⟩
  | 6 => ⟨S512, .f32⟩
  | 7 => ⟨S512x512, .f32⟩
  | 8 => ⟨S512, .f32⟩
  | 9 => ⟨S_, .f32⟩
  | 10 => ⟨S512x512, .f32⟩
  | 11 => ⟨S512, .f32⟩
  | 12 => ⟨S512x512, .f32⟩
  | 13 => ⟨S512, .f32⟩
  | 14 => ⟨S512, .f32⟩
  | 15 => ⟨S512, .f32⟩
  | 16 => ⟨S512x512, .f32⟩
  | 17 => ⟨S512, .f32⟩
  | 18 => ⟨S512x512, .f32⟩
  | 19 => ⟨S512, .f32⟩
  | 20 => ⟨S512x7, .f32⟩
  | 21 => ⟨S7, .f32⟩
  | 22 => ⟨S1x200000, .i32⟩
  | 23 => ⟨S200000, .i32⟩
  | 24 => ⟨S1x200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x512, .f32⟩
  | 35 => ⟨S_, .f32⟩
  | 36 => ⟨S50000x512, .f32⟩
  | 37 => ⟨S200000x1, .i32⟩
  | 38 => ⟨S50000x512, .f32⟩
  | 39 => ⟨S50000x512, .f32⟩
  | 40 => ⟨S50000x512, .f32⟩
  | 41 => ⟨S_, .f32⟩
  | 42 => ⟨S512, .f32⟩
  | 43 => ⟨S_, .f32⟩
  | 44 => ⟨S512, .f32⟩
  | 45 => ⟨S512, .f32⟩
  | 46 => ⟨S_, .i32⟩
  | 47 => ⟨S_, .f32⟩
  | 48 => ⟨S512, .f32⟩
  | 49 => ⟨S1x512, .f32⟩
  | 50 => ⟨S_, .f32⟩
  | 51 => ⟨S1x512, .f32⟩
  | 52 => ⟨S1x512, .f32⟩
  | 53 => ⟨S50000x512, .f32⟩
  | 54 => ⟨S50000x512, .f32⟩
  | 55 => ⟨S50000x512, .f32⟩
  | 56 => ⟨S_, .f32⟩
  | 57 => ⟨S_, .f32⟩
  | 58 => ⟨S_, .f32⟩
  | 59 => ⟨S_, .f32⟩
  | 60 => ⟨S512, .f32⟩
  | 61 => ⟨S512, .f32⟩
  | 62 => ⟨S512, .f32⟩
  | 63 => ⟨S_, .f32⟩
  | 64 => ⟨S_, .i1⟩
  | 65 => ⟨S_, .f32⟩
  | 66 => ⟨S_, .f32⟩
  | 67 => ⟨S512, .f32⟩
  | 68 => ⟨S512, .f32⟩
  | 69 => ⟨S1x512, .f32⟩
  | 70 => ⟨S1x512, .f32⟩
  | 71 => ⟨S1x512, .f32⟩
  | 72 => ⟨S1x512, .f32⟩
  | 73 => ⟨S50000x512, .f32⟩
  | 74 => ⟨S1x512, .f32⟩
  | 75 => ⟨S50000x512, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x512, .f32⟩
  | 85 => ⟨S_, .f32⟩
  | 86 => ⟨S_, .f32⟩
  | 87 => ⟨S50000x512, .f32⟩
  | 88 => ⟨S50000x512, .f32⟩
  | 89 => ⟨S_, .f32⟩
  | 90 => ⟨S50000x512, .f32⟩
  | 91 => ⟨S200000x1, .i32⟩
  | 92 => ⟨S50000x512, .f32⟩
  | 93 => ⟨S50000x512, .f32⟩
  | 94 => ⟨S1x512, .f32⟩
  | 95 => ⟨S1x512, .f32⟩
  | 96 => ⟨S50000x512, .f32⟩
  | 97 => ⟨S_, .f32⟩
  | 98 => ⟨S512, .f32⟩
  | 99 => ⟨S_, .f32⟩
  | 100 => ⟨S512, .f32⟩
  | 101 => ⟨S512, .f32⟩
  | 102 => ⟨S_, .i32⟩
  | 103 => ⟨S_, .f32⟩
  | 104 => ⟨S512, .f32⟩
  | 105 => ⟨S1x512, .f32⟩
  | 106 => ⟨S_, .f32⟩
  | 107 => ⟨S1x512, .f32⟩
  | 108 => ⟨S1x512, .f32⟩
  | 109 => ⟨S50000x512, .f32⟩
  | 110 => ⟨S50000x512, .f32⟩
  | 111 => ⟨S50000x512, .f32⟩
  | 112 => ⟨S_, .f32⟩
  | 113 => ⟨S_, .f32⟩
  | 114 => ⟨S_, .f32⟩
  | 115 => ⟨S_, .f32⟩
  | 116 => ⟨S512, .f32⟩
  | 117 => ⟨S512, .f32⟩
  | 118 => ⟨S512, .f32⟩
  | 119 => ⟨S_, .f32⟩
  | 120 => ⟨S_, .i1⟩
  | 121 => ⟨S_, .f32⟩
  | 122 => ⟨S_, .f32⟩
  | 123 => ⟨S512, .f32⟩
  | 124 => ⟨S512, .f32⟩
  | 125 => ⟨S1x512, .f32⟩
  | 126 => ⟨S1x512, .f32⟩
  | 127 => ⟨S1x512, .f32⟩
  | _ => ⟨S50000x512, .f32⟩

abbrev hbmTy0_1 (i : Nat) : BufTy := match i % 128 with
  | 0 => ⟨S1x512, .f32⟩
  | 1 => ⟨S1x512, .f32⟩
  | 2 => ⟨S1x512, .f32⟩
  | 3 => ⟨S50000x512, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S2x100000, .i32⟩
  | 13 => ⟨S1x100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x512, .f32⟩
  | 24 => ⟨S1x100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x512, .f32⟩
  | 35 => ⟨S1x7, .f32⟩
  | 36 => ⟨S100000x7, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S512x512, .f32⟩
  | .local _ .vmem, ⟨18, _⟩ => ⟨S1x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S512x512, .f32⟩
  | .local _ .vmem, ⟨24, _⟩ => ⟨S1x512, .f32⟩
  | .local _ .vmem, ⟨25, _⟩ => ⟨S512x512, .f32⟩
  | .local _ .vmem, ⟨26, _⟩ => ⟨S1x512, .f32⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S512x512, .f32⟩
  | .local _ .vmem, ⟨36, _⟩ => ⟨S1x512, .f32⟩
  | .local _ .vmem, ⟨37, _⟩ => ⟨S512x512, .f32⟩
  | .local _ .vmem, ⟨38, _⟩ => ⟨S1x512, .f32⟩
  | .local _ .vmem, ⟨39, _⟩ => ⟨S1000x512, .f32⟩
  | .local _ .vmem, ⟨40, _⟩ => ⟨S1000x512, .f32⟩
  | .local _ .vmem, ⟨41, _⟩ => ⟨S1000x512, .f32⟩
  | .local _ .vmem, ⟨42, _⟩ => ⟨S1000x512, .f32⟩
  | .local _ .vmem, ⟨43, _⟩ => ⟨S2000x512, .f32⟩
  | .local _ .vmem, ⟨44, _⟩ => ⟨S2000x512, .f32⟩
  | .local _ .vmem, ⟨45, _⟩ => ⟨S2000x512, .f32⟩
  | .local _ .vmem, ⟨46, _⟩ => ⟨S2000x512, .f32⟩
  | .local _ .vmem, ⟨47, _⟩ => ⟨S512x7, .f32⟩
  | .local _ .vmem, ⟨48, _⟩ => ⟨S1x7, .f32⟩
  | .local _ .vmem, ⟨49, _⟩ => ⟨S2000x7, .f32⟩
  | .local _ .vmem, ⟨50, _⟩ => ⟨S2000x7, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_4 : Ref sig .tc := ⟨.hbm, 76, rfl⟩
abbrev main_v27 : Ref sig .tc := ⟨.hbm, 77, rfl⟩
abbrev main_v28 : Ref sig .tc := ⟨.hbm, 78, rfl⟩
abbrev main_c_5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_7 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_8 : Ref sig .tc := ⟨.hbm, 97, rfl⟩
abbrev main_v44 : Ref sig .tc := ⟨.hbm, 98, rfl⟩
abbrev main_cst_9 : Ref sig .tc := ⟨.hbm, 99, rfl⟩
abbrev main_v45 : Ref sig .tc := ⟨.hbm, 100, rfl⟩
abbrev main_v46 : Ref sig .tc := ⟨.hbm, 101, rfl⟩
abbrev main_c_10 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_cst_3 : Ref sig .tc := ⟨.hbm, 119, rfl⟩
abbrev main_call1_v12 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_c_11 : Ref sig .tc := ⟨.hbm, 132, rfl⟩
abbrev main_v55 : Ref sig .tc := ⟨.hbm, 133, rfl⟩
abbrev main_v56 : Ref sig .tc := ⟨.hbm, 134, rfl⟩
abbrev main_c_12 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_c_13 : Ref sig .tc := ⟨.hbm, 143, rfl⟩
abbrev main_v64 : Ref sig .tc := ⟨.hbm, 144, rfl⟩
abbrev main_v65 : Ref sig .tc := ⟨.hbm, 145, rfl⟩
abbrev main_c_14 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_c_15 : Ref sig .tc := ⟨.hbm, 154, rfl⟩
abbrev main_v73 : Ref sig .tc := ⟨.hbm, 155, rfl⟩
abbrev main_v74 : Ref sig .tc := ⟨.hbm, 156, rfl⟩
abbrev main_c_16 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg8_0 : Ref sig .tc := ⟨.vmem, 38, rfl⟩
abbrev cc4_stg9_0 : Ref sig .tc := ⟨.vmem, 39, rfl⟩
abbrev cc4_stg9_1 : Ref sig .tc := ⟨.vmem, 40, rfl⟩
abbrev cc4_stg10_0 : Ref sig .tc := ⟨.vmem, 41, rfl⟩
abbrev cc4_stg10_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37
abbrev cc4_sem8_0 : DmaSem sig := 38
abbrev cc4_sem9_0 : DmaSem sig := 39
abbrev cc4_sem9_1 : DmaSem sig := 40
abbrev cc4_sem10_0 : DmaSem sig := 41
abbrev cc4_sem10_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem4_1 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1000x512 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x7 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x7 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x7 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S50000x512 : S_.BroadcastsInDim S50000x512 (![] : Fin 0 → Fin S50000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  shapeCasts_S7_S1x7 : S7.ShapeCasts S1x7
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x7_S512x7_0_0 : ∀ a, (![0, 0] : Fin 2 → Nat) a + S512x7.size a ≤ S512x7.size a
  h_S512x7 : 0 < S512x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S1000x512_S512x512_S1000x512_1_0_0_1_n_n_wf : DotDims.WF S1000x512 S512x512 S1000x512 [1] [0] [0] [1] [] []
  gather_S2x200000_S100000x1_S2x100000_0_1_n_n_1_1_21_wf : GatherDims.WF S2x200000 S100000x1 S2x100000 [0] [1] [] [1] [] 1 ![2, 1]
  gather_S50000x512_S100000x1_S100000x512_1_0_n_n_0_1_1512_wf : GatherDims.WF S50000x512 S100000x1 S100000x512 [1] [0] [] [0] [] 1 ![1, 512]
  dot_S2000x512_S512x7_S2000x7_1_0_0_1_n_n_wf : DotDims.WF S2000x512 S512x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S50000x512.size a
  hwx0_3 : ∀ i : grid0.Coords, EltTy.bits .f32 = 32 ∨ (Rect.block (s := S50000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x512.size a ≤ S50000x512.size a
  hwx2_3 : ∀ i : grid2.Coords, EltTy.bits .f32 = 32 ∨ (Rect.block (s := S50000x512) S1000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S50000x512.size a
  hwx3_0 : ∀ i : grid3.Coords, EltTy.bits .f32 = 32 ∨ (Rect.block (s := S50000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x512.size a ≤ S50000x512.size a
  hwx3_5 : ∀ i : grid3.Coords, EltTy.bits .f32 = 32 ∨ (Rect.block (s := S50000x512) S1000x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S50000x512.size a
  hwx4_0 : ∀ i : grid4.Coords, EltTy.bits .f32 = 32 ∨ (Rect.block (s := S50000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S512x512.size a
  hwx4_5 : ∀ i : grid4.Coords, EltTy.bits .f32 = 32 ∨ (Rect.block (s := S512x512) S512x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x512.size a ≤ S512x512.size a
  hwx4_7 : ∀ i : grid4.Coords, EltTy.bits .f32 = 32 ∨ (Rect.block (s := S512x512) S512x512.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x512.size a ≤ S1x512.size a
  hwx4_8 : ∀ i : grid4.Coords, EltTy.bits .f32 = 32 ∨ (Rect.block (s := S1x512) S1x512.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x512.size a ≤ S50000x512.size a
  hwx4_9 : ∀ i : grid4.Coords, EltTy.bits .f32 = 32 ∨ (Rect.block (s := S50000x512) S1000x512.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1000x512.size a ≤ S50000x512.size a
  hwx4_10 : ∀ i : grid4.Coords, EltTy.bits .f32 = 32 ∨ (Rect.block (s := S50000x512) S1000x512.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S100000x512.size a
  hwx5_0 : ∀ i : grid5.Coords, EltTy.bits .f32 = 32 ∨ (Rect.block (s := S100000x512) S2000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x512.size a ≤ S100000x512.size a
  hwx5_1 : ∀ i : grid5.Coords, EltTy.bits .f32 = 32 ∨ (Rect.block (s := S100000x512) S2000x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x7.size a ≤ S512x7.size a
  hwx5_2 : ∀ i : grid5.Coords, EltTy.bits .f32 = 32 ∨ (Rect.block (s := S512x7) S512x7.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x7.size a ≤ S1x7.size a
  hwx5_3 : ∀ i : grid5.Coords, EltTy.bits .f32 = 32 ∨ (Rect.block (s := S1x7) S1x7.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x7.size a ≤ S100000x7.size a
  hwx5_4 : ∀ i : grid5.Coords, EltTy.bits .f32 = 32 ∨ (Rect.block (s := S100000x7) S2000x7.size (cc5_transform_4 i) (hinb5_4 i)).WholeWords (EltTy.packing .f32)

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S2x200000_S100000x1_S2x100000_0_1_n_n_1_1_21 : GatherDims S2x200000 S100000x1 S2x100000 where
  offsetDims := [0]
  collapsedSliceDims := [1]
  operandBatchingDims := []
  startIndicesBatchingDims := []
  startIndexMap := [1]
  indexVectorDim := 1
  sliceSizes := ![2, 1]
  wf := gather_S2x200000_S100000x1_S2x100000_0_1_n_n_1_1_21_wf
def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S2000x512_S512x7_S2000x7_1_0_0_1_n_n : DotDims S2000x512 S512x7 S2000x7 where
  lhsContracting := [1]
  rhsContracting := [0]
  lhsNonContracting := [0]
  rhsNonContracting := [1]
  lhsBatch := []
  rhsBatch := []
  wf := dot_S2000x512_S512x7_S2000x7_1_0_0_1_n_n_wf

abbrev win0_0 : Pipeline.Window sig grid0 :=
  Pipeline.Window.ofSpec (Memref.whole main_v14) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v43) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S512x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v52) S1x512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg18) S512x512.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v53) S1x512.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v24) S1000x512.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v54) S1000x512.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v70) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S2000x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg20) S512x7.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x7.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S2000x7.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x200000 : Shape := ⟨2, ![2, 200000]⟩
abbrev S100000 : Shape := ⟨1, ![100000]⟩
abbrev S512x512 : Shape := ⟨2, ![512, 512]⟩
abbrev S512 : Shape := ⟨1, ![512]⟩
abbrev S_ : Shape := ⟨0, ![]⟩
abbrev S512x7 : Shape := ⟨2, ![512, 7]⟩
abbrev S7 : Shape := ⟨1, ![7]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S1x512 : Shape := ⟨2, ![1, 512]⟩
abbrev S100000x1 : Shape := ⟨2, ![100000, 1]⟩
abbrev S2x100000 : Shape := ⟨2, ![2, 100000]⟩
abbrev S1x100000 : Shape := ⟨2, ![1, 100000]⟩
abbrev S100000x512 : Shape := ⟨2, ![100000, 512]⟩
abbrev S100000x7 : Shape := ⟨2, ![100000, 7]⟩
abbrev S1x7 : Shape := ⟨2, ![1, 7]⟩

abbrev nBuf : Space → Nat
  | .hbm => 217
  | .vmem => 0
  | .smem => 0
  | _ => 0

abbrev hbmTy0_0 (i : Nat) : BufTy := match i % 128 with
  | 0 => ⟨S50000x512, .f32⟩
  | 1 => ⟨S50000x512, .f32⟩
  | 2 => ⟨S2x200000, .i32⟩
  | 3 => ⟨S100000, .i32⟩
  | 4 => ⟨S512x512, .f32⟩
  | 5 => ⟨S512, .f32⟩
  | 6 => ⟨S512, .f32⟩
  | 7 => ⟨S512x512, .f32⟩
  | 8 => ⟨S512, .f32⟩
  | 9 => ⟨S_, .f32⟩
  | 10 => ⟨S512x512, .f32⟩
  | 11 => ⟨S512, .f32⟩
  | 12 => ⟨S512x512, .f32⟩
  | 13 => ⟨S512, .f32⟩
  | 14 => ⟨S512, .f32⟩
  | 15 => ⟨S512, .f32⟩
  | 16 => ⟨S512x512, .f32⟩
  | 17 => ⟨S512, .f32⟩
  | 18 => ⟨S512x512, .f32⟩
  | 19 => ⟨S512, .f32⟩
  | 20 => ⟨S512x7, .f32⟩
  | 21 => ⟨S7, .f32⟩
  | 22 => ⟨S1x200000, .i32⟩
  | 23 => ⟨S200000, .i32⟩
  | 24 => ⟨S1x200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x512, .f32⟩
  | 35 => ⟨S_, .f32⟩
  | 36 => ⟨S50000x512, .f32⟩
  | 37 => ⟨S200000x1, .i32⟩
  | 38 => ⟨S50000x512, .f32⟩
  | 39 => ⟨S50000x512, .f32⟩
  | 40 => ⟨S50000x512, .f32⟩
  | 41 => ⟨S50000x512, .f32⟩
  | 42 => ⟨S_, .f32⟩
  | 43 => ⟨S512, .f32⟩
  | 44 => ⟨S_, .f32⟩
  | 45 => ⟨S512, .f32⟩
  | 46 => ⟨S512, .f32⟩
  | 47 => ⟨S_, .i32⟩
  | 48 => ⟨S_, .f32⟩
  | 49 => ⟨S512, .f32⟩
  | 50 => ⟨S1x512, .f32⟩
  | 51 => ⟨S_, .f32⟩
  | 52 => ⟨S1x512, .f32⟩
  | 53 => ⟨S1x512, .f32⟩
  | 54 => ⟨S50000x512, .f32⟩
  | 55 => ⟨S50000x512, .f32⟩
  | 56 => ⟨S50000x512, .f32⟩
  | 57 => ⟨S_, .f32⟩
  | 58 => ⟨S_, .f32⟩
  | 59 => ⟨S_, .f32⟩
  | 60 => ⟨S_, .f32⟩
  | 61 => ⟨S512, .f32⟩
  | 62 => ⟨S512, .f32⟩
  | 63 => ⟨S512, .f32⟩
  | 64 => ⟨S_, .f32⟩
  | 65 => ⟨S_, .i1⟩
  | 66 => ⟨S_, .f32⟩
  | 67 => ⟨S_, .f32⟩
  | 68 => ⟨S512, .f32⟩
  | 69 => ⟨S512, .f32⟩
  | 70 => ⟨S1x512, .f32⟩
  | 71 => ⟨S50000x512, .f32⟩
  | 72 => ⟨S50000x512, .f32⟩
  | 73 => ⟨S_, .f32⟩
  | 74 => ⟨S512, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S1x512, .f32⟩
  | 81 => ⟨S50000x512, .f32⟩
  | 82 => ⟨S50000x512, .f32⟩
  | 83 => ⟨S1x512, .f32⟩
  | 84 => ⟨S50000x512, .f32⟩
  | 85 => ⟨S50000x512, .f32⟩
  | 86 => ⟨S_, .f32⟩
  | 87 => ⟨S50000x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .f32⟩
  | 94 => ⟨S_, .f32⟩
  | 95 => ⟨S50000x512, .f32⟩
  | 96 => ⟨S50000x512, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000x512, .f32⟩
  | 106 => ⟨S_, .f32⟩
  | 107 => ⟨S50000x512, .f32⟩
  | 108 => ⟨S200000x1, .i32⟩
  | 109 => ⟨S50000x512, .f32⟩
  | 110 => ⟨S50000x512, .f32⟩
  | 111 => ⟨S50000x512, .f32⟩
  | 112 => ⟨S1x512, .f32⟩
  | 113 => ⟨S50000x512, .f32⟩
  | 114 => ⟨S50000x512, .f32⟩
  | 115 => ⟨S_, .f32⟩
  | 116 => ⟨S50000x512, .f32⟩
  | 117 => ⟨S50000x512, .f32⟩
  | 118 => ⟨S50000x512, .f32⟩
  | 119 => ⟨S1x512, .f32⟩
  | 120 => ⟨S50000x512, .f32⟩
  | 121 => ⟨S50000x512, .f32⟩
  | 122 => ⟨S_, .f32⟩
  | 123 => ⟨S50000x512, .f32⟩
  | 124 => ⟨S50000x512, .f32⟩
  | 125 => ⟨S_, .f32⟩
  | 126 => ⟨S512, .f32⟩
  | 127 => ⟨S_, .f32⟩
  | _ => ⟨S50000x512, .f32⟩

abbrev hbmTy0_1 (i : Nat) : BufTy := match i % 128 with
  | 0 => ⟨S512, .f32⟩
  | 1 => ⟨S512, .f32⟩
  | 2 => ⟨S_, .i32⟩
  | 3 => ⟨S_, .f32⟩
  | 4 => ⟨S512, .f32⟩
  | 5 => ⟨S1x512, .f32⟩
  | 6 => ⟨S_, .f32⟩
  | 7 => ⟨S1x512, .f32⟩
  | 8 => ⟨S1x512, .f32⟩
  | 9 => ⟨S50000x512, .f32⟩
  | 10 => ⟨S50000x512, .f32⟩
  | 11 => ⟨S50000x512, .f32⟩
  | 12 => ⟨S_, .f32⟩
  | 13 => ⟨S_, .f32⟩
  | 14 => ⟨S_, .f32⟩
  | 15 => ⟨S_, .f32⟩
  | 16 => ⟨S512, .f32⟩
  | 17 => ⟨S512, .f32⟩
  | 18 => ⟨S512, .f32⟩
  | 19 => ⟨S_, .f32⟩
  | 20 => ⟨S_, .i1⟩
  | 21 => ⟨S_, .f32⟩
  | 22 => ⟨S_, .f32⟩
  | 23 => ⟨S512, .f32⟩
  | 24 => ⟨S512, .f32⟩
  | 25 => ⟨S1x512, .f32⟩
  | 26 => ⟨S50000x512, .f32⟩
  | 27 => ⟨S50000x512, .f32⟩
  | 28 => ⟨S_, .f32⟩
  | 29 => ⟨S512, .f32⟩
  | 30 => ⟨S512, .f32⟩
  | 31 => ⟨S512, .f32⟩
  | 32 => ⟨S1x512, .f32⟩
  | 33 => ⟨S50000x512, .f32⟩
  | 34 => ⟨S50000x512, .f32⟩
  | 35 => ⟨S1x512, .f32⟩
  | 36 => ⟨S50000x512, .f32⟩
  | 37 => ⟨S50000x512, .f32⟩
  | 38 => ⟨S1x512, .f32⟩
  | 39 => ⟨S50000x512, .f32⟩
  | 40 => ⟨S50000x512, .f32⟩
  | 41 => ⟨S50000x512, .f32⟩
  | 42 => ⟨S1x512, .f32⟩
  | 43 => ⟨S50000x512, .f32⟩
  | 44 => ⟨S50000x512, .f32⟩
  | 45 => ⟨S_, .f32⟩
  | 46 => ⟨S50000x512, .f32⟩
  | 47 => ⟨S50000x512, .f32⟩
  | 48 => ⟨S50000x512, .f32⟩
  | 49 => ⟨S1x512, .f32⟩
  | 50 => ⟨S50000x512, .f32⟩
  | 51 => ⟨S50000x512, .f32⟩
  | 52 => ⟨S50000x512, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S2x100000, .i32⟩
  | 62 => ⟨S1x100000, .i32⟩
  | 63 => ⟨S100000, .i32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x512, .f32⟩
  | 73 => ⟨S1x100000, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x512, .f32⟩
  | 84 => ⟨S100000x512, .f32⟩
  | 85 => ⟨S100000x7, .f32⟩
  | 86 => ⟨S1x7, .f32⟩
  | 87 => ⟨S100000x7, .f32⟩
  | 88 => ⟨S100000x7, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_4 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_call1_cst : Ref sig .tc := ⟨.hbm, 86, rfl⟩
abbrev main_call1_v0 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_5 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c_6 : Ref sig .tc := ⟨.hbm, 97, rfl⟩
abbrev main_v44 : Ref sig .tc := ⟨.hbm, 98, rfl⟩
abbrev main_v45 : Ref sig .tc := ⟨.hbm, 99, rfl⟩
abbrev main_c_7 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_8 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_call2_cst : Ref sig .tc := ⟨.hbm, 115, rfl⟩
abbrev main_call2_v0 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_call3_cst : Ref sig .tc := ⟨.hbm, 122, rfl⟩
abbrev main_call3_v0 : Ref sig .tc := ⟨.hbm, 123, rfl⟩
abbrev main_v64 : Ref sig .tc := ⟨.hbm, 124, rfl⟩
abbrev main_cst_9 : Ref sig .tc := ⟨.hbm, 125, rfl⟩
abbrev main_v65 : Ref sig .tc := ⟨.hbm, 126, rfl⟩
abbrev main_cst_10 : Ref sig .tc := ⟨.hbm, 127, rfl⟩
abbrev main_v66 : Ref sig .tc := ⟨.hbm, 128, rfl⟩
abbrev main_v67 : Ref sig .tc := ⟨.hbm, 129, rfl⟩
abbrev main_c_11 : Ref sig .tc := ⟨.hbm, 130, rfl⟩
abbrev main_call4_cst : Ref sig .tc := ⟨.hbm, 131, rfl⟩
abbrev main_call4_v0 : Ref sig .tc := ⟨.hbm, 132, rfl⟩
abbrev main_call4_v1 : Ref sig .tc := ⟨.hbm, 133, rfl⟩
abbrev main_call4_cst_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_v7 : Ref sig .tc := ⟨.hbm, 140, rfl⟩
abbrev main_call4_cst_1 : Ref sig .tc := ⟨.hbm, 141, rfl⟩
abbrev main_call4_v8 : Ref sig .tc := ⟨.hbm, 142, rfl⟩
abbrev main_call4_cst_2 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_cst_3 : Ref sig .tc := ⟨.hbm, 147, rfl⟩
abbrev main_call4_v12 : Ref sig .tc := ⟨.hbm, 148, rfl⟩
abbrev main_call4_cst_4 : Ref sig .tc := ⟨.hbm, 149, rfl⟩
abbrev main_call4_call0_v0 : Ref sig .tc := ⟨.hbm, 150, rfl⟩
abbrev main_call4_call0_v1 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_cst_12 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_call5_cst : Ref sig .tc := ⟨.hbm, 173, rfl⟩
abbrev main_call5_v0 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_c_13 : Ref sig .tc := ⟨.hbm, 181, rfl⟩
abbrev main_v94 : Ref sig .tc := ⟨.hbm, 182, rfl⟩
abbrev main_v95 : Ref sig .tc := ⟨.hbm, 183, rfl⟩
abbrev main_c_14 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_c_15 : Ref sig .tc := ⟨.hbm, 192, rfl⟩
abbrev main_v103 : Ref sig .tc := ⟨.hbm, 193, rfl⟩
abbrev main_v104 : Ref sig .tc := ⟨.hbm, 194, rfl⟩
abbrev main_c_16 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_c_17 : Ref sig .tc := ⟨.hbm, 203, rfl⟩
abbrev main_v112 : Ref sig .tc := ⟨.hbm, 204, rfl⟩
abbrev main_v113 : Ref sig .tc := ⟨.hbm, 205, rfl⟩
abbrev main_c_18 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S50000x512 : S_.BroadcastsInDim S50000x512 (![] : Fin 0 → Fin S50000x512.rank)
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S50000x512_S512x512_S50000x512_1_0_0_1_n_n_wf : DotDims.WF S50000x512 S512x512 S50000x512 [1] [0] [0] [1] [] []
  gather_S2x200000_S100000x1_S2x100000_0_1_n_n_1_1_21_wf : GatherDims.WF S2x200000 S100000x1 S2x100000 [0] [1] [] [1] [] 1 ![2, 1]
  gather_S50000x512_S100000x1_S100000x512_1_0_n_n_0_1_1512_wf : GatherDims.WF S50000x512 S100000x1 S100000x512 [1] [0] [] [0] [] 1 ![1, 512]
  dot_S100000x512_S512x7_S100000x7_1_0_0_1_n_n_wf : DotDims.WF S100000x512 S512x7 S100000x7 [1] [0] [0] [1] [] []

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S2x200000_S100000x1_S2x100000_0_1_n_n_1_1_21 : GatherDims S2x200000 S100000x1 S2x100000 where
  offsetDims := [0]
  collapsedSliceDims := [1]
  operandBatchingDims := []
  startIndicesBatchingDims := []
  startIndexMap := [1]
  indexVectorDim := 1
  sliceSizes := ![2, 1]
  wf := gather_S2x200000_S100000x1_S2x100000_0_1_n_n_1_1_21_wf
def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S100000x512_S512x7_S100000x7_1_0_0_1_n_n : DotDims S100000x512 S512x7 S100000x7 where
  lhsContracting := [1]
  rhsContracting := [0]
  lhsNonContracting := [0]
  rhsNonContracting := [1]
  lhsBatch := []
  rhsBatch := []
  wf := dot_S100000x512_S512x7_S100000x7_1_0_0_1_n_n_wf

class Facts : Prop extends Facts₀ where

variable [Facts]
-- ==== Proof.KernelRun.lean ====
/-
  The idealized kernel's run with its result named.

  The program is sixteen segments: ten stretches of host operations and six pipelined regions.  The
  contents of the TensorCore's buffers at the boundaries between them form a chain W0, W1, …, W16 from the
  launch memory: a host stretch replaces its results by its operations' values, a region replaces its
  output array by what its fifty points write back.  Every weakly fair execution terminates, and in the
  final state every unscoped buffer holds the last boundary's contents W16; read at the result buffer
  this names the result, and at the argument buffers it gives back the launch contents.
-/
import proofs.«178183_j60533269069967_1_alg».proof.Proof.Gen.KernelIdeal.Frame

set_option maxRecDepth 16384

noncomputable section

namespace Cert.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result buffer ends at
    the last boundary's contents and the arguments end as launched. -/
theorem run_result : θ_run defs (onTc (τ := τ) (main (F := F))) ⟨m, fun _ => 0, ρ⟩ (fun r => ∀ c : Dev nD,
      r.2.mem ((c.tc : Thread nD τ).loc main_v81) = W16 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v81 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c)⟩)

end Cert.KValue

end
-- ==== Proof.Spec.lean ====
/-
  The network, stage by stage, as functions of whole arrays on the extended reals.

  A graph of 50000 nodes with 512 features per node, 200000 directed edges (a source row and a
  destination row of node numbers) and 100000 training edges (numbers of edges).  Written with
  X for a node-feature matrix, W for a weight matrix, b for a bias row:

    segsum X      row i is the sum, over the edges whose destination is i, of row (source) of X
    dense0        (A · W) + R                          a product and a residual
    dense2        (X · W) + b                          a product and a bias row
    meanOf, varOf the column means, and the column means of the squared deviations
    bnorm         ((X - mean) · rsqrt(var + 1e-5)) · gamma + beta, column by column
    relu          max(X, 0)
    link          ((HS ∘ HD) · W) + b                  the elementwise product of two gathered
                                                       row sets, then a 512 × 7 product

  Every function below is the composition of the host operations that compute the stage; the
  whole network is their composition in out.
-/
import proofs.«178183_j60533269069967_1_alg».proof.ReferenceIdeal
import proofs.«178183_j60533269069967_1_alg».proof.Proof.Gen.ReferenceIdeal
import Idealize.ShloMosaic.PureOps.Ideal

noncomputable section

namespace Cert.Spec

open Cert.ReferenceIdeal Cert.ReferenceIdeal.Gen Idealize.ShloMosaic

/-- Node features, 50000 × 512. -/
abbrev FN := FVec Ideal S50000x512 .f32
/-- A weight matrix, 512 × 512. -/
abbrev FW := FVec Ideal S512x512 .f32
/-- A row of 512 entries. -/
abbrev FB := FVec Ideal S512 .f32
/-- A scalar. -/
abbrev FS := FVec Ideal S_ .f32
/-- The edge list: row 0 the sources, row 1 the destinations. -/
abbrev IE := IVec S2x200000 32
/-- One node number per edge. -/
abbrev IL := IVec S200000 32
/-- One number per training edge. -/
abbrev IT := IVec S100000 32
/-- The two endpoints of every training edge. -/
abbrev I2T := IVec S2x100000 32
/-- One feature row per training edge, 100000 × 512. -/
abbrev FT := FVec Ideal S100000x512 .f32
/-- The last weight matrix, 512 × 7. -/
abbrev FW7 := FVec Ideal S512x7 .f32
/-- A row of 7 entries. -/
abbrev FB7 := FVec Ideal S7 .f32
/-- The result, 100000 × 7. -/
abbrev FO := FVec Ideal S100000x7 .f32

/-! ## Edges -/

/-- The source of every edge: row 0 of the edge list. -/
def srcRaw (E : IE) : IL :=
  fun i => shapeCast S200000 (extractStridedSlice S1x200000 ![0, 0] E slices_S2x200000_S1x200000_0_0) shapeCasts_S1x200000_S200000 i

/-- The destination of every edge: row 1 of the edge list. -/
def dstRaw (E : IE) : IL :=
  fun i => shapeCast S200000 (extractStridedSlice S1x200000 ![1, 0] E slices_S2x200000_S1x200000_1_0) shapeCasts_S1x200000_S200000 i

/-- A negative number counts from the end: n is added to it. -/
def wrapL (n : BitVec 32) (x : IL) : IL :=
  select (cmpi .slt x (broadcastInDim S200000 ![] bcast_S_S200000 (constantI S_ 32 0#32)))
    (addi x (broadcastInDim S200000 ![] bcast_S_S200000 (constantI S_ 32 n))) x

/-- The numbers as a column of one-entry index vectors. -/
def colL (x : IL) : IVec S200000x1 32 :=
  broadcastInDim S200000x1 ![0] bcast_S200000_S200000x1_0 x

/-- The zero matrix. -/
def zerosN : FN := broadcastInDim S50000x512 ![] bcast_S_S50000x512 (constant (F := Ideal) S_ .f32 0x00000000#32)

/-- Row i: the sum over the edges into i of the source's row of X. -/
def segsum (X : FN) (E : IE) : FN :=
  Host.scatterAdd (F := Ideal) scatter_S50000x512_S200000x1_S200000x512_1_0_0_1 zerosN (colL (dstRaw E))
    (Host.gather gather_S50000x512_S200000x1_S200000x512_1_0_n_n_0_1_1512 X (colL (wrapL 50000#32 (srcRaw E))))

/-! ## Dense stages -/

/-- A row of 512 repeated down the 50000 rows. -/
def rowB (b : FB) : FN :=
  broadcastInDim S50000x512 ![0, 1] bcast_S1x512_S50000x512_0_1 (broadcastInDim S1x512 ![1] bcast_S512_S1x512_1 b)

/-- max(X, 0). -/
def relu (X : FN) : FN :=
  maximumf X (broadcastInDim S50000x512 ![] bcast_S_S50000x512 (constant (F := Ideal) S_ .f32 0x00000000#32))

/-- G plus the sum of its neighbours' rows. -/
def aggS (G : FN) (E : IE) : FN := addf G (segsum G E)

/-- (A · W) + R. -/
def dense0 (A : FN) (W : FW) (R : FN) : FN :=
  addf (Host.dotGeneral (F := Ideal) dot_S50000x512_S512x512_S50000x512_1_0_0_1_n_n none A W) R

/-- (X · W) + b, the row b added to every row. -/
def dense2 (X : FN) (W : FW) (b : FB) : FN :=
  addf (Host.dotGeneral (F := Ideal) dot_S50000x512_S512x512_S50000x512_1_0_0_1_n_n none X W) (rowB b)

/-- The column means: each column's sum over the 50000 rows, divided by 50000. -/
def meanOf (X : FN) : FB :=
  Host.divf (F := Ideal) (Host.reduceAdd (F := Ideal) X (constant (F := Ideal) S_ .f32 0x00000000#32) reducesTo_S50000x512_S512_d0 h_S_)
    (broadcastInDim S512 ![] bcast_S_S512 (constant (F := Ideal) S_ .f32 0x47435000#32))

/-- The divisor of the variance: 50000 minus the (zero) degrees-of-freedom correction. -/
def varCount : FS := subf (constant (F := Ideal) S_ .f32 0x47435000#32) (sitofp (F := Ideal) .f32 (constantI S_ 32 0#32))

/-- X minus its column means (the means formed as a 1 × 512 row and repeated). -/
def centred (X : FN) : FN :=
  subf X (broadcastInDim S50000x512 ![0, 1] bcast_S1x512_S50000x512_0_1
    (Host.divf (F := Ideal)
      (broadcastInDim S1x512 ![1] bcast_S512_S1x512_1
        (Host.reduceAdd (F := Ideal) X (constant (F := Ideal) S_ .f32 0x00000000#32) reducesTo_S50000x512_S512_d0 h_S_))
      (broadcastInDim S1x512 ![] bcast_S_S1x512 (constant (F := Ideal) S_ .f32 0x47435000#32))))

/-- The column variances: the column sums of the squared deviations divided by the count, where the
    count is positive (and the not-a-number word otherwise). -/
def varOf (X : FN) : FB :=
  select (broadcastInDim S512 ![] bcast_S_S512 (cmpf (F := Ideal) .ogt varCount (constant (F := Ideal) S_ .f32 0x00000000#32)))
    (Host.divf (F := Ideal)
      (Host.reduceAdd (F := Ideal) (mulf (centred X) (centred X)) (constant (F := Ideal) S_ .f32 0x00000000#32) reducesTo_S50000x512_S512_d0 h_S_)
      (broadcastInDim S512 ![] bcast_S_S512 varCount))
    (broadcastInDim S512 ![] bcast_S_S512 (id (constant (F := Ideal) S_ .f32 0x7FC00000#32)))

/-- ((X - mean) · rsqrt(var + 1e-5)) · gamma + beta, column by column. -/
def bnorm (X : FN) (mu var g b : FB) : FN :=
  addf (mulf (mulf (subf X (rowB mu))
      (rowB (Host.rsqrt (F := Ideal) (addf var (broadcastInDim S512 ![] bcast_S_S512 (constant (F := Ideal) S_ .f32 0x3727C5AC#32))))))
    (rowB g)) (rowB b)

/-- The normalisation followed by max(·, 0). -/
def bnRelu (X : FN) (mu var g b : FB) : FN := relu (bnorm X mu var g b)

/-- (1 + eps) · H plus the sum of the neighbours' rows of H. -/
def agg2 (H : FN) (eps : FS) (E : IE) : FN :=
  addf (mulf (broadcastInDim S50000x512 ![] bcast_S_S50000x512 (addf (constant (F := Ideal) S_ .f32 0x3F800000#32) eps)) H) (segsum H E)

/-- Two dense layers, each followed by max(·, 0). -/
def mlp3 (A : FN) (W1 : FW) (b1 : FB) (W2 : FW) (b2 : FB) : FN := relu (dense2 (relu (dense2 A W1 b1)) W2 b2)

/-- The normalisation, a dense layer with max(·, 0), a dense layer, and the residual R. -/
def bnLinLin (X : FN) (mu var g b : FB) (W1 : FW) (b1 : FB) (W2 : FW) (b2 : FB) (R : FN) : FN :=
  addf (dense2 (relu (dense2 (bnorm X mu var g b) W1 b1)) W2 b2) R

/-! ## Link prediction -/

/-- A negative number counts from the end: n is added to it. -/
def wrapT (n : BitVec 32) (x : IT) : IT :=
  select (cmpi .slt x (broadcastInDim S100000 ![] bcast_S_S100000 (constantI S_ 32 0#32)))
    (addi x (broadcastInDim S100000 ![] bcast_S_S100000 (constantI S_ 32 n))) x

/-- The numbers as a column of one-entry index vectors. -/
def colT (x : IT) : IVec S100000x1 32 :=
  broadcastInDim S100000x1 ![0] bcast_S100000_S100000x1_0 x

/-- The two endpoints of every training edge: the edge list's columns at the training edges. -/
def nid (E : IE) (T : IT) : I2T :=
  Host.gather gather_S2x200000_S100000x1_S2x100000_0_1_n_n_1_1_21 E (colT (wrapT 200000#32 T))

/-- The first endpoints. -/
def nidRow0 (N : I2T) : IT :=
  fun i => shapeCast S100000 (extractStridedSlice S1x100000 ![0, 0] N slices_S2x100000_S1x100000_0_0) shapeCasts_S1x100000_S100000 i

/-- The second endpoints. -/
def nidRow1 (N : I2T) : IT :=
  fun i => shapeCast S100000 (extractStridedSlice S1x100000 ![1, 0] N slices_S2x100000_S1x100000_1_0) shapeCasts_S1x100000_S100000 i

/-- The rows of H at the given node numbers. -/
def rowsAt (H : FN) (idx : IT) : FT :=
  Host.gather gather_S50000x512_S100000x1_S100000x512_1_0_n_n_0_1_1512 H (colT (wrapT 50000#32 idx))

/-- ((HS ∘ HD) · W) + b. -/
def link (HS HD : FT) (W : FW7) (b : FB7) : FO :=
  addf (Host.dotGeneral (F := Ideal) dot_S100000x512_S512x7_S100000x7_1_0_0_1_n_n none (mulf HS HD) W)
    (broadcastInDim S100000x7 ![0, 1] bcast_S1x7_S100000x7_0_1 (broadcastInDim S1x7 ![1] bcast_S7_S1x7_1 b))

/-! ## The network -/

/-- The subgraph branch before its normalisation. -/
def subPre (graph : FN) (E : IE) (Wsub : FW) : FN := dense0 (aggS graph E) Wsub graph

/-- The subgraph branch. -/
def subX (graph : FN) (E : IE) (Wsub : FW) (g b : FB) : FN :=
  bnRelu (subPre graph E Wsub) (meanOf (subPre graph E Wsub)) (varOf (subPre graph E Wsub)) g b

/-- The feature branch up to its normalisation. -/
def h2 (x : FN) (E : IE) (fcxW : FW) (fcxb : FB) (eps : FS) (gW1 : FW) (gb1 : FB) (gW2 : FW) (gb2 : FB) : FN :=
  mlp3 (agg2 (dense2 x fcxW fcxb) eps E) gW1 gb1 gW2 gb2

/-- The node embeddings. -/
def hfin (x graph : FN) (E : IE) (Wsub : FW) (bn1g bn1b : FB) (fcxW : FW) (fcxb : FB) (eps : FS)
    (gW1 : FW) (gb1 : FB) (gW2 : FW) (gb2 : FB) (gbng gbnb : FB) (l1W : FW) (l1b : FB) (l2W : FW) (l2b : FB) : FN :=
  bnLinLin (h2 x E fcxW fcxb eps gW1 gb1 gW2 gb2) (meanOf (h2 x E fcxW fcxb eps gW1 gb1 gW2 gb2))
    (varOf (h2 x E fcxW fcxb eps gW1 gb1 gW2 gb2)) gbng gbnb l1W l1b l2W l2b (subX graph E Wsub bn1g bn1b)

/-- The scores of the training edges. -/
def out (x graph : FN) (E : IE) (T : IT) (Wsub : FW) (bn1g bn1b : FB) (fcxW : FW) (fcxb : FB) (eps : FS)
    (gW1 : FW) (gb1 : FB) (gW2 : FW) (gb2 : FB) (gbng gbnb : FB) (l1W : FW) (l1b : FB) (l2W : FW) (l2b : FB)
    (fc2W : FW7) (fc2b : FB7) : FO :=
  link (rowsAt (hfin x graph E Wsub bn1g bn1b fcxW fcxb eps gW1 gb1 gW2 gb2 gbng gbnb l1W l1b l2W l2b) (nidRow0 (nid E T)))
    (rowsAt (hfin x graph E Wsub bn1g bn1b fcxW fcxb eps gW1 gb1 gW2 gb2 gbng gbnb l1W l1b l2W l2b) (nidRow1 (nid E T)))
    fc2W fc2b

end Cert.Spec

end
-- ==== Proof.KernelHost.lean ====
/-
  The kernel program's host stretches, each read as the specification's stage of what it finds.

  Between its six pipelined regions the kernel's program runs the same host operations as the reference:
  the gather of source rows and the scatter-add into destination rows, the column means and variances,
  the endpoint gathers; and it reshapes each 512-entry row to the 1 × 512 array a region takes.  Each
  lemma here is stated over ARBITRARY contents W of the buffers when the stretch begins: the stretch's
  result is the specification's function of the buffers it reads.
-/
import proofs.«178183_j60533269069967_1_alg».proof.Proof.Gen.KernelIdeal.Frame
import proofs.«178183_j60533269069967_1_alg».proof.Proof.Spec
import Idealize.ShloMosaic.Lib.StableHlo.Run
import Idealize.ShloMosaic.Lib.ValueIdx
import Idealize.ShloMosaic.Lib.ValueLayout

noncomputable section

namespace Cert.KValue.Host

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-! ## The first stretch: the subgraph aggregation -/

/-- Each node's row of the graph features plus the rows of the nodes with an edge into it. -/
theorem aggS_eq : after (hostOps0 (F := Ideal)) W (Proc.devRef .tc main_v14) = Cert.Spec.aggS (W (Proc.devRef .tc main_arg1)) (W (Proc.devRef .tc main_arg2)) := by
  after_results_simp
  rfl

/-- The edges' sources stay available for the second aggregation. -/
theorem src_eq : after (hostOps0 (F := Ideal)) W (Proc.devRef .tc main_v1) = Cert.Spec.srcRaw (W (Proc.devRef .tc main_arg2)) := by
  after_results_simp
  rfl

/-- The edges' destinations stay available for the second aggregation. -/
theorem dst_eq : after (hostOps0 (F := Ideal)) W (Proc.devRef .tc main_v3) = Cert.Spec.dstRaw (W (Proc.devRef .tc main_arg2)) := by
  after_results_simp
  rfl

/-! ## The column statistics of the subgraph branch -/

/-- The column means of the first region's result. -/
theorem mean1_eq : after (hostOps1 (F := Ideal)) W (Proc.devRef .tc main_v18) = Cert.Spec.meanOf (W (Proc.devRef .tc main_v15)) := by
  after_results_simp
  rfl

/-- The zero correction the variance is called with. -/
theorem ddof1_eq : after (hostOps1 (F := Ideal)) W (Proc.devRef .tc main_c_3) = constantI S_ 32 0#32 := by
  after_results_simp

/-- The column variances of the first region's result, the correction being zero. -/
theorem var1_eq (hc : W (Proc.devRef .tc main_c_3) = constantI S_ 32 0#32) :
    after (hostOps1_1 (F := Ideal)) W (Proc.devRef .tc main_v19) = Cert.Spec.varOf (W (Proc.devRef .tc main_v15)) := by
  after_results_simp
  rw [hc]
  rfl

/-- The means as a 1 × 512 row. -/
theorem row_mean1 (q : Fin 512) : after (hostOps1_2 (F := Ideal)) W (Proc.devRef .tc main_v20) (ix2 (0 : Fin 1) q) = W (Proc.devRef .tc main_v18) (ix1 q) := by
  have e : after (hostOps1_2 (F := Ideal)) W (Proc.devRef .tc main_v20) = fun i => shapeCast S1x512 (W (Proc.devRef .tc main_v18)) shapeCasts_S512_S1x512 i := by
    after_results_simp
    rfl
  rw [e]
  exact shapeCast_a_1a_apply (W (Proc.devRef .tc main_v18)) shapeCasts_S512_S1x512 0 q

/-- The variances as a 1 × 512 row. -/
theorem row_var1 (q : Fin 512) : after (hostOps1_2 (F := Ideal)) W (Proc.devRef .tc main_v21) (ix2 (0 : Fin 1) q) = W (Proc.devRef .tc main_v19) (ix1 q) := by
  have e : after (hostOps1_2 (F := Ideal)) W (Proc.devRef .tc main_v21) = fun i => shapeCast S1x512 (W (Proc.devRef .tc main_v19)) shapeCasts_S512_S1x512 i := by
    after_results_simp
    rfl
  rw [e]
  exact shapeCast_a_1a_apply (W (Proc.devRef .tc main_v19)) shapeCasts_S512_S1x512 0 q

/-- The scale as a 1 × 512 row. -/
theorem row_g1 (q : Fin 512) : after (hostOps1_2 (F := Ideal)) W (Proc.devRef .tc main_v22) (ix2 (0 : Fin 1) q) = W (Proc.devRef .tc main_arg5) (ix1 q) := by
  have e : after (hostOps1_2 (F := Ideal)) W (Proc.devRef .tc main_v22) = fun i => shapeCast S1x512 (W (Proc.devRef .tc main_arg5)) shapeCasts_S512_S1x512 i := by
    after_results_simp
    rfl
  rw [e]
  exact shapeCast_a_1a_apply (W (Proc.devRef .tc main_arg5)) shapeCasts_S512_S1x512 0 q

/-- The shift as a 1 × 512 row. -/
theorem row_b1 (q : Fin 512) : after (hostOps1_2 (F := Ideal)) W (Proc.devRef .tc main_v23) (ix2 (0 : Fin 1) q) = W (Proc.devRef .tc main_arg6) (ix1 q) := by
  have e : after (hostOps1_2 (F := Ideal)) W (Proc.devRef .tc main_v23) = fun i => shapeCast S1x512 (W (Proc.devRef .tc main_arg6)) shapeCasts_S512_S1x512 i := by
    after_results_simp
    rfl
  rw [e]
  exact shapeCast_a_1a_apply (W (Proc.devRef .tc main_arg6)) shapeCasts_S512_S1x512 0 q

/-! ## The feature branch -/

/-- The first bias as a 1 × 512 row. -/
theorem row_fcxb (q : Fin 512) : after (hostOps2 (F := Ideal)) W (Proc.devRef .tc main_v25) (ix2 (0 : Fin 1) q) = W (Proc.devRef .tc main_arg8) (ix1 q) := by
  have e : after (hostOps2 (F := Ideal)) W (Proc.devRef .tc main_v25) = fun i => shapeCast S1x512 (W (Proc.devRef .tc main_arg8)) shapeCasts_S512_S1x512 i := by
    after_results_simp
    rfl
  rw [e]
  exact shapeCast_a_1a_apply (W (Proc.devRef .tc main_arg8)) shapeCasts_S512_S1x512 0 q

/-- (1 + eps) times each node's row plus the rows of the nodes with an edge into it, the edges' sources and
    destinations being those the first stretch left. -/
theorem agg2_eq (E : Cert.Spec.IE) (hs : W (Proc.devRef .tc main_v1) = Cert.Spec.srcRaw E) (hd : W (Proc.devRef .tc main_v3) = Cert.Spec.dstRaw E) :
    after (hostOps3 (F := Ideal)) W (Proc.devRef .tc main_v40) = Cert.Spec.agg2 (W (Proc.devRef .tc main_v26)) (W (Proc.devRef .tc main_arg9)) E := by
  after_results_simp
  rw [hs, hd]
  rfl

/-- The second bias as a 1 × 512 row. -/
theorem row_gb1 (q : Fin 512) : after (hostOps3 (F := Ideal)) W (Proc.devRef .tc main_v41) (ix2 (0 : Fin 1) q) = W (Proc.devRef .tc main_arg11) (ix1 q) := by
  have e : after (hostOps3 (F := Ideal)) W (Proc.devRef .tc main_v41) = fun i => shapeCast S1x512 (W (Proc.devRef .tc main_arg11)) shapeCasts_S512_S1x512 i := by
    after_results_simp
    rfl
  rw [e]
  exact shapeCast_a_1a_apply (W (Proc.devRef .tc main_arg11)) shapeCasts_S512_S1x512 0 q

/-- The third bias as a 1 × 512 row. -/
theorem row_gb2 (q : Fin 512) : after (hostOps3 (F := Ideal)) W (Proc.devRef .tc main_v42) (ix2 (0 : Fin 1) q) = W (Proc.devRef .tc main_arg13) (ix1 q) := by
  have e : after (hostOps3 (F := Ideal)) W (Proc.devRef .tc main_v42) = fun i => shapeCast S1x512 (W (Proc.devRef .tc main_arg13)) shapeCasts_S512_S1x512 i := by
    after_results_simp
    rfl
  rw [e]
  exact shapeCast_a_1a_apply (W (Proc.devRef .tc main_arg13)) shapeCasts_S512_S1x512 0 q

/-- The column means of the fourth region's result. -/
theorem mean2_eq : after (hostOps4 (F := Ideal)) W (Proc.devRef .tc main_v46) = Cert.Spec.meanOf (W (Proc.devRef .tc main_v43)) := by
  after_results_simp
  rfl

/-- The zero correction the variance is called with. -/
theorem ddof2_eq : after (hostOps4 (F := Ideal)) W (Proc.devRef .tc main_c_10) = constantI S_ 32 0#32 := by
  after_results_simp

/-- The column variances of the fourth region's result, the correction being zero. -/
theorem var2_eq (hc : W (Proc.devRef .tc main_c_10) = constantI S_ 32 0#32) :
    after (hostOps4_1 (F := Ideal)) W (Proc.devRef .tc main_v47) = Cert.Spec.varOf (W (Proc.devRef .tc main_v43)) := by
  after_results_simp
  rw [hc]
  rfl

/-- The means as a 1 × 512 row. -/
theorem row_mean2 (q : Fin 512) : after (hostOps4_2 (F := Ideal)) W (Proc.devRef .tc main_v48) (ix2 (0 : Fin 1) q) = W (Proc.devRef .tc main_v46) (ix1 q) := by
  have e : after (hostOps4_2 (F := Ideal)) W (Proc.devRef .tc main_v48) = fun i => shapeCast S1x512 (W (Proc.devRef .tc main_v46)) shapeCasts_S512_S1x512 i := by
    after_results_simp
    rfl
  rw [e]
  exact shapeCast_a_1a_apply (W (Proc.devRef .tc main_v46)) shapeCasts_S512_S1x512 0 q

/-- The variances as a 1 × 512 row. -/
theorem row_var2 (q : Fin 512) : after (hostOps4_2 (F := Ideal)) W (Proc.devRef .tc main_v49) (ix2 (0 : Fin 1) q) = W (Proc.devRef .tc main_v47) (ix1 q) := by
  have e : after (hostOps4_2 (F := Ideal)) W (Proc.devRef .tc main_v49) = fun i => shapeCast S1x512 (W (Proc.devRef .tc main_v47)) shapeCasts_S512_S1x512 i := by
    after_results_simp
    rfl
  rw [e]
  exact shapeCast_a_1a_apply (W (Proc.devRef .tc main_v47)) shapeCasts_S512_S1x512 0 q

/-- The scale as a 1 × 512 row. -/
theorem row_g2 (q : Fin 512) : after (hostOps4_2 (F := Ideal)) W (Proc.devRef .tc main_v50) (ix2 (0 : Fin 1) q) = W (Proc.devRef .tc main_arg14) (ix1 q) := by
  have e : after (hostOps4_2 (F := Ideal)) W (Proc.devRef .tc main_v50) = fun i => shapeCast S1x512 (W (Proc.devRef .tc main_arg14)) shapeCasts_S512_S1x512 i := by
    after_results_simp
    rfl
  rw [e]
  exact shapeCast_a_1a_apply (W (Proc.devRef .tc main_arg14)) shapeCasts_S512_S1x512 0 q

/-- The shift as a 1 × 512 row. -/
theorem row_b2 (q : Fin 512) : after (hostOps4_2 (F := Ideal)) W (Proc.devRef .tc main_v51) (ix2 (0 : Fin 1) q) = W (Proc.devRef .tc main_arg15) (ix1 q) := by
  have e : after (hostOps4_2 (F := Ideal)) W (Proc.devRef .tc main_v51) = fun i => shapeCast S1x512 (W (Proc.devRef .tc main_arg15)) shapeCasts_S512_S1x512 i := by
    after_results_simp
    rfl
  rw [e]
  exact shapeCast_a_1a_apply (W (Proc.devRef .tc main_arg15)) shapeCasts_S512_S1x512 0 q

/-- The fourth bias as a 1 × 512 row. -/
theorem row_l1b (q : Fin 512) : after (hostOps4_2 (F := Ideal)) W (Proc.devRef .tc main_v52) (ix2 (0 : Fin 1) q) = W (Proc.devRef .tc main_arg17) (ix1 q) := by
  have e : after (hostOps4_2 (F := Ideal)) W (Proc.devRef .tc main_v52) = fun i => shapeCast S1x512 (W (Proc.devRef .tc main_arg17)) shapeCasts_S512_S1x512 i := by
    after_results_simp
    rfl
  rw [e]
  exact shapeCast_a_1a_apply (W (Proc.devRef .tc main_arg17)) shapeCasts_S512_S1x512 0 q

/-- The fifth bias as a 1 × 512 row. -/
theorem row_l2b (q : Fin 512) : after (hostOps4_2 (F := Ideal)) W (Proc.devRef .tc main_v53) (ix2 (0 : Fin 1) q) = W (Proc.devRef .tc main_arg19) (ix1 q) := by
  have e : after (hostOps4_2 (F := Ideal)) W (Proc.devRef .tc main_v53) = fun i => shapeCast S1x512 (W (Proc.devRef .tc main_arg19)) shapeCasts_S512_S1x512 i := by
    after_results_simp
    rfl
  rw [e]
  exact shapeCast_a_1a_apply (W (Proc.devRef .tc main_arg19)) shapeCasts_S512_S1x512 0 q

/-! ## Link prediction -/

/-- The embeddings' rows at the first endpoints of the training edges. -/
theorem hs_eq : after (hostOps5 (F := Ideal)) W (Proc.devRef .tc main_v70)
    = Cert.Spec.rowsAt (W (Proc.devRef .tc main_v54)) (Cert.Spec.nidRow0 (Cert.Spec.nid (W (Proc.devRef .tc main_arg2)) (W (Proc.devRef .tc main_arg3)))) := by
  after_results_simp
  rfl

/-- The embeddings' rows at the second endpoints of the training edges. -/
theorem hd_eq : after (hostOps5 (F := Ideal)) W (Proc.devRef .tc main_v79)
    = Cert.Spec.rowsAt (W (Proc.devRef .tc main_v54)) (Cert.Spec.nidRow1 (Cert.Spec.nid (W (Proc.devRef .tc main_arg2)) (W (Proc.devRef .tc main_arg3)))) := by
  after_results_simp
  rfl

/-- The last bias as a 1 × 7 row. -/
theorem row_fc2b (q : Fin 7) : after (hostOps5 (F := Ideal)) W (Proc.devRef .tc main_v80) (ix2 (0 : Fin 1) q) = W (Proc.devRef .tc main_arg21) (ix1 q) := by
  have e : after (hostOps5 (F := Ideal)) W (Proc.devRef .tc main_v80) = fun i => shapeCast S1x7 (W (Proc.devRef .tc main_arg21)) shapeCasts_S7_S1x7 i := by
    after_results_simp
    rfl
  rw [e]
  exact shapeCast_a_1a_apply (W (Proc.devRef .tc main_arg21)) shapeCasts_S7_S1x7 0 q

end Cert.KValue.Host

end
-- ==== Proof.KernelFold.lean ====
/-
  The kernel program's result is the specification's function of its arguments.

  The buffer contents at the sixteen boundaries of the kernel's program are followed from the launch
  memory: a host stretch's result is the specification's stage of what it reads (the host stretches'
  lemmas), a region's output array is the specification's dense stage of its input arrays (the six
  region facts, taken here as hypotheses), and a buffer that a segment neither computes nor overwrites
  keeps its contents across it.  Composed in program order these give the node embeddings and, from them,
  the scores of the training edges.
-/
import proofs.«178183_j60533269069967_1_alg».proof.Proof.KernelHost

set_option maxRecDepth 16384

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- A host stretch leaves alone a buffer none of its operations writes. -/
macro "keep_host" : tactic => `(tactic| (
  refine StableHlo.after_of_forall_not_mem _ _ (List.forall_iff_forall_mem.mp ?_)
  simp only [Cert.KernelIdeal.Gen.hostOps0, Cert.KernelIdeal.Gen.hostOps1, Cert.KernelIdeal.Gen.hostOps1_1, Cert.KernelIdeal.Gen.hostOps1_2,
    Cert.KernelIdeal.Gen.hostOps2, Cert.KernelIdeal.Gen.hostOps3, Cert.KernelIdeal.Gen.hostOps4, Cert.KernelIdeal.Gen.hostOps4_1,
    Cert.KernelIdeal.Gen.hostOps4_2, Cert.KernelIdeal.Gen.hostOps5, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## Buffers carried unchanged across the segments between where they are set and where they are read -/

namespace Keep

theorem k_arg4_1 : W1 m ρ c (Proc.devRef .tc main_arg4) = m ((c : Thread nD τ).loc main_arg4) :=
  calc W1 m ρ c (Proc.devRef .tc main_arg4)
    _ = W0 m ρ c (Proc.devRef .tc main_arg4) := (by keep_host)
    _ = m ((c : Thread nD τ).loc main_arg4) := rfl

theorem k_arg1_1 : W1 m ρ c (Proc.devRef .tc main_arg1) = m ((c : Thread nD τ).loc main_arg1) :=
  calc W1 m ρ c (Proc.devRef .tc main_arg1)
    _ = W0 m ρ c (Proc.devRef .tc main_arg1) := (by keep_host)
    _ = m ((c : Thread nD τ).loc main_arg1) := rfl

theorem k15_3 : W3 m ρ c (Proc.devRef .tc main_v15) = W2 m ρ c (Proc.devRef .tc main_v15) :=
  calc W3 m ρ c (Proc.devRef .tc main_v15)
    _ = W2 m ρ c (Proc.devRef .tc main_v15) := (by keep_host)

theorem k15_5 : W5 m ρ c (Proc.devRef .tc main_v15) = W2 m ρ c (Proc.devRef .tc main_v15) :=
  calc W5 m ρ c (Proc.devRef .tc main_v15)
    _ = W4 m ρ c (Proc.devRef .tc main_v15) := (by keep_host)
    _ = W3 m ρ c (Proc.devRef .tc main_v15) := (by keep_host)
    _ = W2 m ρ c (Proc.devRef .tc main_v15) := (by keep_host)

theorem k18_4 : W4 m ρ c (Proc.devRef .tc main_v18) = W3 m ρ c (Proc.devRef .tc main_v18) :=
  calc W4 m ρ c (Proc.devRef .tc main_v18)
    _ = W3 m ρ c (Proc.devRef .tc main_v18) := (by keep_host)

theorem k_arg5_4 : W4 m ρ c (Proc.devRef .tc main_arg5) = m ((c : Thread nD τ).loc main_arg5) :=
  calc W4 m ρ c (Proc.devRef .tc main_arg5)
    _ = W3 m ρ c (Proc.devRef .tc main_arg5) := (by keep_host)
    _ = W2 m ρ c (Proc.devRef .tc main_arg5) := (by keep_host)
    _ = W1 m ρ c (Proc.devRef .tc main_arg5) := (W2_of_ne m ρ c main_arg5 (by decide))
    _ = W0 m ρ c (Proc.devRef .tc main_arg5) := (by keep_host)
    _ = m ((c : Thread nD τ).loc main_arg5) := rfl

theorem k_arg6_4 : W4 m ρ c (Proc.devRef .tc main_arg6) = m ((c : Thread nD τ).loc main_arg6) :=
  calc W4 m ρ c (Proc.devRef .tc main_arg6)
    _ = W3 m ρ c (Proc.devRef .tc main_arg6) := (by keep_host)
    _ = W2 m ρ c (Proc.devRef .tc main_arg6) := (by keep_host)
    _ = W1 m ρ c (Proc.devRef .tc main_arg6) := (W2_of_ne m ρ c main_arg6 (by decide))
    _ = W0 m ρ c (Proc.devRef .tc main_arg6) := (by keep_host)
    _ = m ((c : Thread nD τ).loc main_arg6) := rfl

theorem k_arg8_6 : W6 m ρ c (Proc.devRef .tc main_arg8) = m ((c : Thread nD τ).loc main_arg8) :=
  calc W6 m ρ c (Proc.devRef .tc main_arg8)
    _ = W5 m ρ c (Proc.devRef .tc main_arg8) := (W6_of_ne m ρ c main_arg8 (by decide))
    _ = W4 m ρ c (Proc.devRef .tc main_arg8) := (by keep_host)
    _ = W3 m ρ c (Proc.devRef .tc main_arg8) := (by keep_host)
    _ = W2 m ρ c (Proc.devRef .tc main_arg8) := (by keep_host)
    _ = W1 m ρ c (Proc.devRef .tc main_arg8) := (W2_of_ne m ρ c main_arg8 (by decide))
    _ = W0 m ρ c (Proc.devRef .tc main_arg8) := (by keep_host)
    _ = m ((c : Thread nD τ).loc main_arg8) := rfl

theorem k_arg0_7 : W7 m ρ c (Proc.devRef .tc main_arg0) = m ((c : Thread nD τ).loc main_arg0) :=
  calc W7 m ρ c (Proc.devRef .tc main_arg0)
    _ = W6 m ρ c (Proc.devRef .tc main_arg0) := (by keep_host)
    _ = W5 m ρ c (Proc.devRef .tc main_arg0) := (W6_of_ne m ρ c main_arg0 (by decide))
    _ = W4 m ρ c (Proc.devRef .tc main_arg0) := (by keep_host)
    _ = W3 m ρ c (Proc.devRef .tc main_arg0) := (by keep_host)
    _ = W2 m ρ c (Proc.devRef .tc main_arg0) := (by keep_host)
    _ = W1 m ρ c (Proc.devRef .tc main_arg0) := (W2_of_ne m ρ c main_arg0 (by decide))
    _ = W0 m ρ c (Proc.devRef .tc main_arg0) := (by keep_host)
    _ = m ((c : Thread nD τ).loc main_arg0) := rfl

theorem k_arg7_7 : W7 m ρ c (Proc.devRef .tc main_arg7) = m ((c : Thread nD τ).loc main_arg7) :=
  calc W7 m ρ c (Proc.devRef .tc main_arg7)
    _ = W6 m ρ c (Proc.devRef .tc main_arg7) := (by keep_host)
    _ = W5 m ρ c (Proc.devRef .tc main_arg7) := (W6_of_ne m ρ c main_arg7 (by decide))
    _ = W4 m ρ c (Proc.devRef .tc main_arg7) := (by keep_host)
    _ = W3 m ρ c (Proc.devRef .tc main_arg7) := (by keep_host)
    _ = W2 m ρ c (Proc.devRef .tc main_arg7) := (by keep_host)
    _ = W1 m ρ c (Proc.devRef .tc main_arg7) := (W2_of_ne m ρ c main_arg7 (by decide))
    _ = W0 m ρ c (Proc.devRef .tc main_arg7) := (by keep_host)
    _ = m ((c : Thread nD τ).loc main_arg7) := rfl

theorem k1_8 : W8 m ρ c (Proc.devRef .tc main_v1) = W1 m ρ c (Proc.devRef .tc main_v1) :=
  calc W8 m ρ c (Proc.devRef .tc main_v1)
    _ = W7 m ρ c (Proc.devRef .tc main_v1) := (W8_of_ne m ρ c main_v1 (by decide))
    _ = W6 m ρ c (Proc.devRef .tc main_v1) := (by keep_host)
    _ = W5 m ρ c (Proc.devRef .tc main_v1) := (W6_of_ne m ρ c main_v1 (by decide))
    _ = W4 m ρ c (Proc.devRef .tc main_v1) := (by keep_host)
    _ = W3 m ρ c (Proc.devRef .tc main_v1) := (by keep_host)
    _ = W2 m ρ c (Proc.devRef .tc main_v1) := (by keep_host)
    _ = W1 m ρ c (Proc.devRef .tc main_v1) := (W2_of_ne m ρ c main_v1 (by decide))

theorem k3_8 : W8 m ρ c (Proc.devRef .tc main_v3) = W1 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (by keep_host)
    _ = W5 m ρ c (Proc.devRef .tc main_v3) := (W6_of_ne m ρ c main_v3 (by decide))
    _ = W4 m ρ c (Proc.devRef .tc main_v3) := (by keep_host)
    _ = W3 m ρ c (Proc.devRef .tc main_v3) := (by keep_host)
    _ = W2 m ρ c (Proc.devRef .tc main_v3) := (by keep_host)
    _ = W1 m ρ c (Proc.devRef .tc main_v3) := (W2_of_ne m ρ c main_v3 (by decide))

theorem k_arg9_8 : W8 m ρ c (Proc.devRef .tc main_arg9) = m ((c : Thread nD τ).loc main_arg9) :=
  calc W8 m ρ c (Proc.devRef .tc main_arg9)
    _ = W7 m ρ c (Proc.devRef .tc main_arg9) := (W8_of_ne m ρ c main_arg9 (by decide))
    _ = W6 m ρ c (Proc.devRef .tc main_arg9) := (by keep_host)
    _ = W5 m ρ c (Proc.devRef .tc main_arg9) := (W6_of_ne m ρ c main_arg9 (by decide))
    _ = W4 m ρ c (Proc.devRef .tc main_arg9) := (by keep_host)
    _ = W3 m ρ c (Proc.devRef .tc main_arg9) := (by keep_host)
    _ = W2 m ρ c (Proc.devRef .tc main_arg9) := (by keep_host)
    _ = W1 m ρ c (Proc.devRef .tc main_arg9) := (W2_of_ne m ρ c main_arg9 (by decide))
    _ = W0 m ρ c (Proc.devRef .tc main_arg9) := (by keep_host)
    _ = m ((c : Thread nD τ).loc main_arg9) := rfl

theorem k_arg11_8 : W8 m ρ c (Proc.devRef .tc main_arg11) = m ((c : Thread nD τ).loc main_arg11) :=
  calc W8 m ρ c (Proc.devRef .tc main_arg11)
    _ = W7 m ρ c (Proc.devRef .tc main_arg11) := (W8_of_ne m ρ c main_arg11 (by decide))
    _ = W6 m ρ c (Proc.devRef .tc main_arg11) := (by keep_host)
    _ = W5 m ρ c (Proc.devRef .tc main_arg11) := (W6_of_ne m ρ c main_arg11 (by decide))
    _ = W4 m ρ c (Proc.devRef .tc main_arg11) := (by keep_host)
    _ = W3 m ρ c (Proc.devRef .tc main_arg11) := (by keep_host)
    _ = W2 m ρ c (Proc.devRef .tc main_arg11) := (by keep_host)
    _ = W1 m ρ c (Proc.devRef .tc main_arg11) := (W2_of_ne m ρ c main_arg11 (by decide))
    _ = W0 m ρ c (Proc.devRef .tc main_arg11) := (by keep_host)
    _ = m ((c : Thread nD τ).loc main_arg11) := rfl

theorem k_arg13_8 : W8 m ρ c (Proc.devRef .tc main_arg13) = m ((c : Thread nD τ).loc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (by keep_host)
    _ = W5 m ρ c (Proc.devRef .tc main_arg13) := (W6_of_ne m ρ c main_arg13 (by decide))
    _ = W4 m ρ c (Proc.devRef .tc main_arg13) := (by keep_host)
    _ = W3 m ρ c (Proc.devRef .tc main_arg13) := (by keep_host)
    _ = W2 m ρ c (Proc.devRef .tc main_arg13) := (by keep_host)
    _ = W1 m ρ c (Proc.devRef .tc main_arg13) := (W2_of_ne m ρ c main_arg13 (by decide))
    _ = W0 m ρ c (Proc.devRef .tc main_arg13) := (by keep_host)
    _ = m ((c : Thread nD τ).loc main_arg13) := rfl

theorem k_arg10_9 : W9 m ρ c (Proc.devRef .tc main_arg10) = m ((c : Thread nD τ).loc main_arg10) :=
  calc W9 m ρ c (Proc.devRef .tc main_arg10)
    _ = W8 m ρ c (Proc.devRef .tc main_arg10) := (by keep_host)
    _ = W7 m ρ c (Proc.devRef .tc main_arg10) := (W8_of_ne m ρ c main_arg10 (by decide))
    _ = W6 m ρ c (Proc.devRef .tc main_arg10) := (by keep_host)
    _ = W5 m ρ c (Proc.devRef .tc main_arg10) := (W6_of_ne m ρ c main_arg10 (by decide))
    _ = W4 m ρ c (Proc.devRef .tc main_arg10) := (by keep_host)
    _ = W3 m ρ c (Proc.devRef .tc main_arg10) := (by keep_host)
    _ = W2 m ρ c (Proc.devRef .tc main_arg10) := (by keep_host)
    _ = W1 m ρ c (Proc.devRef .tc main_arg10) := (W2_of_ne m ρ c main_arg10 (by decide))
    _ = W0 m ρ c (Proc.devRef .tc main_arg10) := (by keep_host)
    _ = m ((c : Thread nD τ).loc main_arg10) := rfl

theorem k_arg12_9 : W9 m ρ c (Proc.devRef .tc main_arg12) = m ((c : Thread nD τ).loc main_arg12) :=
  calc W9 m ρ c (Proc.devRef .tc main_arg12)
    _ = W8 m ρ c (Proc.devRef .tc main_arg12) := (by keep_host)
    _ = W7 m ρ c (Proc.devRef .tc main_arg12) := (W8_of_ne m ρ c main_arg12 (by decide))
    _ = W6 m ρ c (Proc.devRef .tc main_arg12) := (by keep_host)
    _ = W5 m ρ c (Proc.devRef .tc main_arg12) := (W6_of_ne m ρ c main_arg12 (by decide))
    _ = W4 m ρ c (Proc.devRef .tc main_arg12) := (by keep_host)
    _ = W3 m ρ c (Proc.devRef .tc main_arg12) := (by keep_host)
    _ = W2 m ρ c (Proc.devRef .tc main_arg12) := (by keep_host)
    _ = W1 m ρ c (Proc.devRef .tc main_arg12) := (W2_of_ne m ρ c main_arg12 (by decide))
    _ = W0 m ρ c (Proc.devRef .tc main_arg12) := (by keep_host)
    _ = m ((c : Thread nD τ).loc main_arg12) := rfl

theorem k43_11 : W11 m ρ c (Proc.devRef .tc main_v43) = W10 m ρ c (Proc.devRef .tc main_v43) :=
  calc W11 m ρ c (Proc.devRef .tc main_v43)
    _ = W10 m ρ c (Proc.devRef .tc main_v43) := (by keep_host)

theorem k46_12 : W12 m ρ c (Proc.devRef .tc main_v46) = W11 m ρ c (Proc.devRef .tc main_v46) :=
  calc W12 m ρ c (Proc.devRef .tc main_v46)
    _ = W11 m ρ c (Proc.devRef .tc main_v46) := (by keep_host)

theorem k_arg14_12 : W12 m ρ c (Proc.devRef .tc main_arg14) = m ((c : Thread nD τ).loc main_arg14) :=
  calc W12 m ρ c (Proc.devRef .tc main_arg14)
    _ = W11 m ρ c (Proc.devRef .tc main_arg14) := (by keep_host)
    _ = W10 m ρ c (Proc.devRef .tc main_arg14) := (by keep_host)
    _ = W9 m ρ c (Proc.devRef .tc main_arg14) := (W10_of_ne m ρ c main_arg14 (by decide))
    _ = W8 m ρ c (Proc.devRef .tc main_arg14) := (by keep_host)
    _ = W7 m ρ c (Proc.devRef .tc main_arg14) := (W8_of_ne m ρ c main_arg14 (by decide))
    _ = W6 m ρ c (Proc.devRef .tc main_arg14) := (by keep_host)
    _ = W5 m ρ c (Proc.devRef .tc main_arg14) := (W6_of_ne m ρ c main_arg14 (by decide))
    _ = W4 m ρ c (Proc.devRef .tc main_arg14) := (by keep_host)
    _ = W3 m ρ c (Proc.devRef .tc main_arg14) := (by keep_host)
    _ = W2 m ρ c (Proc.devRef .tc main_arg14) := (by keep_host)
    _ = W1 m ρ c (Proc.devRef .tc main_arg14) := (W2_of_ne m ρ c main_arg14 (by decide))
    _ = W0 m ρ c (Proc.devRef .tc main_arg14) := (by keep_host)
    _ = m ((c : Thread nD τ).loc main_arg14) := rfl

theorem k_arg15_12 : W12 m ρ c (Proc.devRef .tc main_arg15) = m ((c : Thread nD τ).loc main_arg15) :=
  calc W12 m ρ c (Proc.devRef .tc main_arg15)
    _ = W11 m ρ c (Proc.devRef .tc main_arg15) := (by keep_host)
    _ = W10 m ρ c (Proc.devRef .tc main_arg15) := (by keep_host)
    _ = W9 m ρ c (Proc.devRef .tc main_arg15) := (W10_of_ne m ρ c main_arg15 (by decide))
    _ = W8 m ρ c (Proc.devRef .tc main_arg15) := (by keep_host)
    _ = W7 m ρ c (Proc.devRef .tc main_arg15) := (W8_of_ne m ρ c main_arg15 (by decide))
    _ = W6 m ρ c (Proc.devRef .tc main_arg15) := (by keep_host)
    _ = W5 m ρ c (Proc.devRef .tc main_arg15) := (W6_of_ne m ρ c main_arg15 (by decide))
    _ = W4 m ρ c (Proc.devRef .tc main_arg15) := (by keep_host)
    _ = W3 m ρ c (Proc.devRef .tc main_arg15) := (by keep_host)
    _ = W2 m ρ c (Proc.devRef .tc main_arg15) := (by keep_host)
    _ = W1 m ρ c (Proc.devRef .tc main_arg15) := (W2_of_ne m ρ c main_arg15 (by decide))
    _ = W0 m ρ c (Proc.devRef .tc main_arg15) := (by keep_host)
    _ = m ((c : Thread nD τ).loc main_arg15) := rfl

theorem k_arg17_12 : W12 m ρ c (Proc.devRef .tc main_arg17) = m ((c : Thread nD τ).loc main_arg17) :=
  calc W12 m ρ c (Proc.devRef .tc main_arg17)
    _ = W11 m ρ c (Proc.devRef .tc main_arg17) := (by keep_host)
    _ = W10 m ρ c (Proc.devRef .tc main_arg17) := (by keep_host)
    _ = W9 m ρ c (Proc.devRef .tc main_arg17) := (W10_of_ne m ρ c main_arg17 (by decide))
    _ = W8 m ρ c (Proc.devRef .tc main_arg17) := (by keep_host)
    _ = W7 m ρ c (Proc.devRef .tc main_arg17) := (W8_of_ne m ρ c main_arg17 (by decide))
    _ = W6 m ρ c (Proc.devRef .tc main_arg17) := (by keep_host)
    _ = W5 m ρ c (Proc.devRef .tc main_arg17) := (W6_of_ne m ρ c main_arg17 (by decide))
    _ = W4 m ρ c (Proc.devRef .tc main_arg17) := (by keep_host)
    _ = W3 m ρ c (Proc.devRef .tc main_arg17) := (by keep_host)
    _ = W2 m ρ c (Proc.devRef .tc main_arg17) := (by keep_host)
    _ = W1 m ρ c (Proc.devRef .tc main_arg17) := (W2_of_ne m ρ c main_arg17 (by decide))
    _ = W0 m ρ c (Proc.devRef .tc main_arg17) := (by keep_host)
    _ = m ((c : Thread nD τ).loc main_arg17) := rfl

theorem k_arg19_12 : W12 m ρ c (Proc.devRef .tc main_arg19) = m ((c : Thread nD τ).loc main_arg19) :=
  calc W12 m ρ c (Proc.devRef .tc main_arg19)
    _ = W11 m ρ c (Proc.devRef .tc main_arg19) := (by keep_host)
    _ = W10 m ρ c (Proc.devRef .tc main_arg19) := (by keep_host)
    _ = W9 m ρ c (Proc.devRef .tc main_arg19) := (W10_of_ne m ρ c main_arg19 (by decide))
    _ = W8 m ρ c (Proc.devRef .tc main_arg19) := (by keep_host)
    _ = W7 m ρ c (Proc.devRef .tc main_arg19) := (W8_of_ne m ρ c main_arg19 (by decide))
    _ = W6 m ρ c (Proc.devRef .tc main_arg19) := (by keep_host)
    _ = W5 m ρ c (Proc.devRef .tc main_arg19) := (W6_of_ne m ρ c main_arg19 (by decide))
    _ = W4 m ρ c (Proc.devRef .tc main_arg19) := (by keep_host)
    _ = W3 m ρ c (Proc.devRef .tc main_arg19) := (by keep_host)
    _ = W2 m ρ c (Proc.devRef .tc main_arg19) := (by keep_host)
    _ = W1 m ρ c (Proc.devRef .tc main_arg19) := (W2_of_ne m ρ c main_arg19 (by decide))
    _ = W0 m ρ c (Proc.devRef .tc main_arg19) := (by keep_host)
    _ = m ((c : Thread nD τ).loc main_arg19) := rfl

theorem k43_13 : W13 m ρ c (Proc.devRef .tc main_v43) = W10 m ρ c (Proc.devRef .tc main_v43) :=
  calc W13 m ρ c (Proc.devRef .tc main_v43)
    _ = W12 m ρ c (Proc.devRef .tc main_v43) := (by keep_host)
    _ = W11 m ρ c (Proc.devRef .tc main_v43) := (by keep_host)
    _ = W10 m ρ c (Proc.devRef .tc main_v43) := (by keep_host)

theorem k_arg16_13 : W13 m ρ c (Proc.devRef .tc main_arg16) = m ((c : Thread nD τ).loc main_arg16) :=
  calc W13 m ρ c (Proc.devRef .tc main_arg16)
    _ = W12 m ρ c (Proc.devRef .tc main_arg16) := (by keep_host)
    _ = W11 m ρ c (Proc.devRef .tc main_arg16) := (by keep_host)
    _ = W10 m ρ c (Proc.devRef .tc main_arg16) := (by keep_host)
    _ = W9 m ρ c (Proc.devRef .tc main_arg16) := (W10_of_ne m ρ c main_arg16 (by decide))
    _ = W8 m ρ c (Proc.devRef .tc main_arg16) := (by keep_host)
    _ = W7 m ρ c (Proc.devRef .tc main_arg16) := (W8_of_ne m ρ c main_arg16 (by decide))
    _ = W6 m ρ c (Proc.devRef .tc main_arg16) := (by keep_host)
    _ = W5 m ρ c (Proc.devRef .tc main_arg16) := (W6_of_ne m ρ c main_arg16 (by decide))
    _ = W4 m ρ c (Proc.devRef .tc main_arg16) := (by keep_host)
    _ = W3 m ρ c (Proc.devRef .tc main_arg16) := (by keep_host)
    _ = W2 m ρ c (Proc.devRef .tc main_arg16) := (by keep_host)
    _ = W1 m ρ c (Proc.devRef .tc main_arg16) := (W2_of_ne m ρ c main_arg16 (by decide))
    _ = W0 m ρ c (Proc.devRef .tc main_arg16) := (by keep_host)
    _ = m ((c : Thread nD τ).loc main_arg16) := rfl

theorem k_arg18_13 : W13 m ρ c (Proc.devRef .tc main_arg18) = m ((c : Thread nD τ).loc main_arg18) :=
  calc W13 m ρ c (Proc.devRef .tc main_arg18)
    _ = W12 m ρ c (Proc.devRef .tc main_arg18) := (by keep_host)
    _ = W11 m ρ c (Proc.devRef .tc main_arg18) := (by keep_host)
    _ = W10 m ρ c (Proc.devRef .tc main_arg18) := (by keep_host)
    _ = W9 m ρ c (Proc.devRef .tc main_arg18) := (W10_of_ne m ρ c main_arg18 (by decide))
    _ = W8 m ρ c (Proc.devRef .tc main_arg18) := (by keep_host)
    _ = W7 m ρ c (Proc.devRef .tc main_arg18) := (W8_of_ne m ρ c main_arg18 (by decide))
    _ = W6 m ρ c (Proc.devRef .tc main_arg18) := (by keep_host)
    _ = W5 m ρ c (Proc.devRef .tc main_arg18) := (W6_of_ne m ρ c main_arg18 (by decide))
    _ = W4 m ρ c (Proc.devRef .tc main_arg18) := (by keep_host)
    _ = W3 m ρ c (Proc.devRef .tc main_arg18) := (by keep_host)
    _ = W2 m ρ c (Proc.devRef .tc main_arg18) := (by keep_host)
    _ = W1 m ρ c (Proc.devRef .tc main_arg18) := (W2_of_ne m ρ c main_arg18 (by decide))
    _ = W0 m ρ c (Proc.devRef .tc main_arg18) := (by keep_host)
    _ = m ((c : Thread nD τ).loc main_arg18) := rfl

theorem k24_13 : W13 m ρ c (Proc.devRef .tc main_v24) = W6 m ρ c (Proc.devRef .tc main_v24) :=
  calc W13 m ρ c (Proc.devRef .tc main_v24)
    _ = W12 m ρ c (Proc.devRef .tc main_v24) := (by keep_host)
    _ = W11 m ρ c (Proc.devRef .tc main_v24) := (by keep_host)
    _ = W10 m ρ c (Proc.devRef .tc main_v24) := (by keep_host)
    _ = W9 m ρ c (Proc.devRef .tc main_v24) := (W10_of_ne m ρ c main_v24 (by decide))
    _ = W8 m ρ c (Proc.devRef .tc main_v24) := (by keep_host)
    _ = W7 m ρ c (Proc.devRef .tc main_v24) := (W8_of_ne m ρ c main_v24 (by decide))
    _ = W6 m ρ c (Proc.devRef .tc main_v24) := (by keep_host)

theorem k_arg2_14 : W14 m ρ c (Proc.devRef .tc main_arg2) = m ((c : Thread nD τ).loc main_arg2) :=
  calc W14 m ρ c (Proc.devRef .tc main_arg2)
    _ = W13 m ρ c (Proc.devRef .tc main_arg2) := (W14_of_ne m ρ c main_arg2 (by decide))
    _ = W12 m ρ c (Proc.devRef .tc main_arg2) := (by keep_host)
    _ = W11 m ρ c (Proc.devRef .tc main_arg2) := (by keep_host)
    _ = W10 m ρ c (Proc.devRef .tc main_arg2) := (by keep_host)
    _ = W9 m ρ c (Proc.devRef .tc main_arg2) := (W10_of_ne m ρ c main_arg2 (by decide))
    _ = W8 m ρ c (Proc.devRef .tc main_arg2) := (by keep_host)
    _ = W7 m ρ c (Proc.devRef .tc main_arg2) := (W8_of_ne m ρ c main_arg2 (by decide))
    _ = W6 m ρ c (Proc.devRef .tc main_arg2) := (by keep_host)
    _ = W5 m ρ c (Proc.devRef .tc main_arg2) := (W6_of_ne m ρ c main_arg2 (by decide))
    _ = W4 m ρ c (Proc.devRef .tc main_arg2) := (by keep_host)
    _ = W3 m ρ c (Proc.devRef .tc main_arg2) := (by keep_host)
    _ = W2 m ρ c (Proc.devRef .tc main_arg2) := (by keep_host)
    _ = W1 m ρ c (Proc.devRef .tc main_arg2) := (W2_of_ne m ρ c main_arg2 (by decide))
    _ = W0 m ρ c (Proc.devRef .tc main_arg2) := (by keep_host)
    _ = m ((c : Thread nD τ).loc main_arg2) := rfl

theorem k_arg3_14 : W14 m ρ c (Proc.devRef .tc main_arg3) = m ((c : Thread nD τ).loc main_arg3) :=
  calc W14 m ρ c (Proc.devRef .tc main_arg3)
    _ = W13 m ρ c (Proc.devRef .tc main_arg3) := (W14_of_ne m ρ c main_arg3 (by decide))
    _ = W12 m ρ c (Proc.devRef .tc main_arg3) := (by keep_host)
    _ = W11 m ρ c (Proc.devRef .tc main_arg3) := (by keep_host)
    _ = W10 m ρ c (Proc.devRef .tc main_arg3) := (by keep_host)
    _ = W9 m ρ c (Proc.devRef .tc main_arg3) := (W10_of_ne m ρ c main_arg3 (by decide))
    _ = W8 m ρ c (Proc.devRef .tc main_arg3) := (by keep_host)
    _ = W7 m ρ c (Proc.devRef .tc main_arg3) := (W8_of_ne m ρ c main_arg3 (by decide))
    _ = W6 m ρ c (Proc.devRef .tc main_arg3) := (by keep_host)
    _ = W5 m ρ c (Proc.devRef .tc main_arg3) := (W6_of_ne m ρ c main_arg3 (by decide))
    _ = W4 m ρ c (Proc.devRef .tc main_arg3) := (by keep_host)
    _ = W3 m ρ c (Proc.devRef .tc main_arg3) := (by keep_host)
    _ = W2 m ρ c (Proc.devRef .tc main_arg3) := (by keep_host)
    _ = W1 m ρ c (Proc.devRef .tc main_arg3) := (W2_of_ne m ρ c main_arg3 (by decide))
    _ = W0 m ρ c (Proc.devRef .tc main_arg3) := (by keep_host)
    _ = m ((c : Thread nD τ).loc main_arg3) := rfl

theorem k_arg21_14 : W14 m ρ c (Proc.devRef .tc main_arg21) = m ((c : Thread nD τ).loc main_arg21) :=
  calc W14 m ρ c (Proc.devRef .tc main_arg21)
    _ = W13 m ρ c (Proc.devRef .tc main_arg21) := (W14_of_ne m ρ c main_arg21 (by decide))
    _ = W12 m ρ c (Proc.devRef .tc main_arg21) := (by keep_host)
    _ = W11 m ρ c (Proc.devRef .tc main_arg21) := (by keep_host)
    _ = W10 m ρ c (Proc.devRef .tc main_arg21) := (by keep_host)
    _ = W9 m ρ c (Proc.devRef .tc main_arg21) := (W10_of_ne m ρ c main_arg21 (by decide))
    _ = W8 m ρ c (Proc.devRef .tc main_arg21) := (by keep_host)
    _ = W7 m ρ c (Proc.devRef .tc main_arg21) := (W8_of_ne m ρ c main_arg21 (by decide))
    _ = W6 m ρ c (Proc.devRef .tc main_arg21) := (by keep_host)
    _ = W5 m ρ c (Proc.devRef .tc main_arg21) := (W6_of_ne m ρ c main_arg21 (by decide))
    _ = W4 m ρ c (Proc.devRef .tc main_arg21) := (by keep_host)
    _ = W3 m ρ c (Proc.devRef .tc main_arg21) := (by keep_host)
    _ = W2 m ρ c (Proc.devRef .tc main_arg21) := (by keep_host)
    _ = W1 m ρ c (Proc.devRef .tc main_arg21) := (W2_of_ne m ρ c main_arg21 (by decide))
    _ = W0 m ρ c (Proc.devRef .tc main_arg21) := (by keep_host)
    _ = m ((c : Thread nD τ).loc main_arg21) := rfl

theorem k_arg20_15 : W15 m ρ c (Proc.devRef .tc main_arg20) = m ((c : Thread nD τ).loc main_arg20) :=
  calc W15 m ρ c (Proc.devRef .tc main_arg20)
    _ = W14 m ρ c (Proc.devRef .tc main_arg20) := (by keep_host)
    _ = W13 m ρ c (Proc.devRef .tc main_arg20) := (W14_of_ne m ρ c main_arg20 (by decide))
    _ = W12 m ρ c (Proc.devRef .tc main_arg20) := (by keep_host)
    _ = W11 m ρ c (Proc.devRef .tc main_arg20) := (by keep_host)
    _ = W10 m ρ c (Proc.devRef .tc main_arg20) := (by keep_host)
    _ = W9 m ρ c (Proc.devRef .tc main_arg20) := (W10_of_ne m ρ c main_arg20 (by decide))
    _ = W8 m ρ c (Proc.devRef .tc main_arg20) := (by keep_host)
    _ = W7 m ρ c (Proc.devRef .tc main_arg20) := (W8_of_ne m ρ c main_arg20 (by decide))
    _ = W6 m ρ c (Proc.devRef .tc main_arg20) := (by keep_host)
    _ = W5 m ρ c (Proc.devRef .tc main_arg20) := (W6_of_ne m ρ c main_arg20 (by decide))
    _ = W4 m ρ c (Proc.devRef .tc main_arg20) := (by keep_host)
    _ = W3 m ρ c (Proc.devRef .tc main_arg20) := (by keep_host)
    _ = W2 m ρ c (Proc.devRef .tc main_arg20) := (by keep_host)
    _ = W1 m ρ c (Proc.devRef .tc main_arg20) := (W2_of_ne m ρ c main_arg20 (by decide))
    _ = W0 m ρ c (Proc.devRef .tc main_arg20) := (by keep_host)
    _ = m ((c : Thread nD τ).loc main_arg20) := rfl

end Keep

set_option maxHeartbeats 1000000 in
/-- The kernel program's result buffer at the last boundary holds the scores the specification computes from the
    launch contents of the arguments, given that each region's output array is its dense stage of its input arrays. -/
theorem result_eq
    (hR0 : ∀ (V : (c : Dev nD) → (b : Ref sig .tc) → Buf (Elt Ideal) ((c : Thread nD τ).loc b)) (c : Dev nD),
      (dat0 (F := Ideal) V c).arrAt 3 cfg0.N = Cert.Spec.dense0 (V c main_v14) (V c main_arg4) (V c main_arg1))
    (hR1 : ∀ (V : (c : Dev nD) → (b : Ref sig .tc) → Buf (Elt Ideal) ((c : Thread nD τ).loc b)) (c : Dev nD) (mu var g b : Cert.Spec.FB),
      (∀ q : Fin 512, V c main_v20 (ix2 (0 : Fin 1) q) = mu (ix1 q)) → (∀ q : Fin 512, V c main_v21 (ix2 (0 : Fin 1) q) = var (ix1 q)) →
      (∀ q : Fin 512, V c main_v22 (ix2 (0 : Fin 1) q) = g (ix1 q)) → (∀ q : Fin 512, V c main_v23 (ix2 (0 : Fin 1) q) = b (ix1 q)) →
      (dat1 (F := Ideal) V c).arrAt 5 cfg1.N = Cert.Spec.bnRelu (V c main_v15) mu var g b)
    (hR2 : ∀ (V : (c : Dev nD) → (b : Ref sig .tc) → Buf (Elt Ideal) ((c : Thread nD τ).loc b)) (c : Dev nD) (b : Cert.Spec.FB),
      (∀ q : Fin 512, V c main_v25 (ix2 (0 : Fin 1) q) = b (ix1 q)) →
      (dat2 (F := Ideal) V c).arrAt 3 cfg2.N = Cert.Spec.dense2 (V c main_arg0) (V c main_arg7) b)
    (hR3 : ∀ (V : (c : Dev nD) → (b : Ref sig .tc) → Buf (Elt Ideal) ((c : Thread nD τ).loc b)) (c : Dev nD) (b1 b2 : Cert.Spec.FB),
      (∀ q : Fin 512, V c main_v41 (ix2 (0 : Fin 1) q) = b1 (ix1 q)) → (∀ q : Fin 512, V c main_v42 (ix2 (0 : Fin 1) q) = b2 (ix1 q)) →
      (dat3 (F := Ideal) V c).arrAt 5 cfg3.N = Cert.Spec.mlp3 (V c main_v40) (V c main_arg10) b1 (V c main_arg12) b2)
    (hR4 : ∀ (V : (c : Dev nD) → (b : Ref sig .tc) → Buf (Elt Ideal) ((c : Thread nD τ).loc b)) (c : Dev nD) (mu var g b b1 b2 : Cert.Spec.FB),
      (∀ q : Fin 512, V c main_v48 (ix2 (0 : Fin 1) q) = mu (ix1 q)) → (∀ q : Fin 512, V c main_v49 (ix2 (0 : Fin 1) q) = var (ix1 q)) →
      (∀ q : Fin 512, V c main_v50 (ix2 (0 : Fin 1) q) = g (ix1 q)) → (∀ q : Fin 512, V c main_v51 (ix2 (0 : Fin 1) q) = b (ix1 q)) →
      (∀ q : Fin 512, V c main_v52 (ix2 (0 : Fin 1) q) = b1 (ix1 q)) → (∀ q : Fin 512, V c main_v53 (ix2 (0 : Fin 1) q) = b2 (ix1 q)) →
      (dat4 (F := Ideal) V c).arrAt 10 cfg4.N
        = Cert.Spec.bnLinLin (V c main_v43) mu var g b (V c main_arg16) b1 (V c main_arg18) b2 (V c main_v24))
    (hR5 : ∀ (V : (c : Dev nD) → (b : Ref sig .tc) → Buf (Elt Ideal) ((c : Thread nD τ).loc b)) (c : Dev nD) (b : Cert.Spec.FB7),
      (∀ q : Fin 7, V c main_v80 (ix2 (0 : Fin 1) q) = b (ix1 q)) →
      (dat5 (F := Ideal) V c).arrAt 4 cfg5.N = Cert.Spec.link (V c main_v70) (V c main_v79) (V c main_arg20) b) :
    W16 m ρ c (Proc.devRef .tc main_v81) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have k_arg4_1 := Keep.k_arg4_1 m ρ c
  have k_arg1_1 := Keep.k_arg1_1 m ρ c
  have k15_3 := Keep.k15_3 m ρ c
  have k15_5 := Keep.k15_5 m ρ c
  have k18_4 := Keep.k18_4 m ρ c
  have k_arg5_4 := Keep.k_arg5_4 m ρ c
  have k_arg6_4 := Keep.k_arg6_4 m ρ c
  have k_arg8_6 := Keep.k_arg8_6 m ρ c
  have k_arg0_7 := Keep.k_arg0_7 m ρ c
  have k_arg7_7 := Keep.k_arg7_7 m ρ c
  have k1_8 := Keep.k1_8 m ρ c
  have k3_8 := Keep.k3_8 m ρ c
  have k_arg9_8 := Keep.k_arg9_8 m ρ c
  have k_arg11_8 := Keep.k_arg11_8 m ρ c
  have k_arg13_8 := Keep.k_arg13_8 m ρ c
  have k_arg10_9 := Keep.k_arg10_9 m ρ c
  have k_arg12_9 := Keep.k_arg12_9 m ρ c
  have k43_11 := Keep.k43_11 m ρ c
  have k46_12 := Keep.k46_12 m ρ c
  have k_arg14_12 := Keep.k_arg14_12 m ρ c
  have k_arg15_12 := Keep.k_arg15_12 m ρ c
  have k_arg17_12 := Keep.k_arg17_12 m ρ c
  have k_arg19_12 := Keep.k_arg19_12 m ρ c
  have k43_13 := Keep.k43_13 m ρ c
  have k_arg16_13 := Keep.k_arg16_13 m ρ c
  have k_arg18_13 := Keep.k_arg18_13 m ρ c
  have k24_13 := Keep.k24_13 m ρ c
  have k_arg2_14 := Keep.k_arg2_14 m ρ c
  have k_arg3_14 := Keep.k_arg3_14 m ρ c
  have k_arg21_14 := Keep.k_arg21_14 m ρ c
  have k_arg20_15 := Keep.k_arg20_15 m ρ c
  -- the subgraph branch
  have e14 : W1 m ρ c (Proc.devRef .tc main_v14) = Cert.Spec.aggS (m ((c : Thread nD τ).loc main_arg1)) (m ((c : Thread nD τ).loc main_arg2)) := Host.aggS_eq (W0 m ρ c)
  have e1 : W1 m ρ c (Proc.devRef .tc main_v1) = Cert.Spec.srcRaw (m ((c : Thread nD τ).loc main_arg2)) := Host.src_eq (W0 m ρ c)
  have e3 : W1 m ρ c (Proc.devRef .tc main_v3) = Cert.Spec.dstRaw (m ((c : Thread nD τ).loc main_arg2)) := Host.dst_eq (W0 m ρ c)
  have e15 : W2 m ρ c (Proc.devRef .tc main_v15) = (Cert.Spec.subPre (m ((c : Thread nD τ).loc main_arg1)) (m ((c : Thread nD τ).loc main_arg2)) (m ((c : Thread nD τ).loc main_arg4))) := by
    refine (W2_arr m ρ c 3).trans ((hR0 (V1 m ρ) c).trans ?_)
    show Cert.Spec.dense0 (W1 m ρ c (Proc.devRef .tc main_v14)) (W1 m ρ c (Proc.devRef .tc main_arg4)) (W1 m ρ c (Proc.devRef .tc main_arg1)) = _
    rw [e14, k_arg4_1, k_arg1_1]; rfl
  have e18 : W3 m ρ c (Proc.devRef .tc main_v18) = Cert.Spec.meanOf (Cert.Spec.subPre (m ((c : Thread nD τ).loc main_arg1)) (m ((c : Thread nD τ).loc main_arg2)) (m ((c : Thread nD τ).loc main_arg4))) := (Host.mean1_eq (W2 m ρ c)).trans (congrArg Cert.Spec.meanOf e15)
  have ec3 : W3 m ρ c (Proc.devRef .tc main_c_3) = constantI S_ 32 0#32 := Host.ddof1_eq (W2 m ρ c)
  have e19 : W4 m ρ c (Proc.devRef .tc main_v19) = Cert.Spec.varOf (Cert.Spec.subPre (m ((c : Thread nD τ).loc main_arg1)) (m ((c : Thread nD τ).loc main_arg2)) (m ((c : Thread nD τ).loc main_arg4))) :=
    (Host.var1_eq (W3 m ρ c) ec3).trans (congrArg Cert.Spec.varOf (k15_3.trans e15))
  have r20 : ∀ q : Fin 512, V5 m ρ c main_v20 (ix2 (0 : Fin 1) q) = Cert.Spec.meanOf (Cert.Spec.subPre (m ((c : Thread nD τ).loc main_arg1)) (m ((c : Thread nD τ).loc main_arg2)) (m ((c : Thread nD τ).loc main_arg4))) (ix1 q) :=
    fun q => (Host.row_mean1 (W4 m ρ c) q).trans (congrFun (k18_4.trans e18) (ix1 q))
  have r21 : ∀ q : Fin 512, V5 m ρ c main_v21 (ix2 (0 : Fin 1) q) = Cert.Spec.varOf (Cert.Spec.subPre (m ((c : Thread nD τ).loc main_arg1)) (m ((c : Thread nD τ).loc main_arg2)) (m ((c : Thread nD τ).loc main_arg4))) (ix1 q) :=
    fun q => (Host.row_var1 (W4 m ρ c) q).trans (congrFun e19 (ix1 q))
  have r22 : ∀ q : Fin 512, V5 m ρ c main_v22 (ix2 (0 : Fin 1) q) = (m ((c : Thread nD τ).loc main_arg5)) (ix1 q) :=
    fun q => (Host.row_g1 (W4 m ρ c) q).trans (congrFun k_arg5_4 (ix1 q))
  have r23 : ∀ q : Fin 512, V5 m ρ c main_v23 (ix2 (0 : Fin 1) q) = (m ((c : Thread nD τ).loc main_arg6)) (ix1 q) :=
    fun q => (Host.row_b1 (W4 m ρ c) q).trans (congrFun k_arg6_4 (ix1 q))
  have e24 : W6 m ρ c (Proc.devRef .tc main_v24) = (Cert.Spec.subX (m ((c : Thread nD τ).loc main_arg1)) (m ((c : Thread nD τ).loc main_arg2)) (m ((c : Thread nD τ).loc main_arg4)) (m ((c : Thread nD τ).loc main_arg5)) (m ((c : Thread nD τ).loc main_arg6))) := by
    refine (W6_arr m ρ c 5).trans ((hR1 (V5 m ρ) c (Cert.Spec.meanOf (Cert.Spec.subPre (m ((c : Thread nD τ).loc main_arg1)) (m ((c : Thread nD τ).loc main_arg2)) (m ((c : Thread nD τ).loc main_arg4)))) (Cert.Spec.varOf (Cert.Spec.subPre (m ((c : Thread nD τ).loc main_arg1)) (m ((c : Thread nD τ).loc main_arg2)) (m ((c : Thread nD τ).loc main_arg4)))) (m ((c : Thread nD τ).loc main_arg5)) (m ((c : Thread nD τ).loc main_arg6)) r20 r21 r22 r23).trans ?_)
    show Cert.Spec.bnRelu (W5 m ρ c (Proc.devRef .tc main_v15)) _ _ _ _ = _
    rw [k15_5, e15]; rfl
  -- the feature branch
  have r25 : ∀ q : Fin 512, V7 m ρ c main_v25 (ix2 (0 : Fin 1) q) = (m ((c : Thread nD τ).loc main_arg8)) (ix1 q) :=
    fun q => (Host.row_fcxb (W6 m ρ c) q).trans (congrFun k_arg8_6 (ix1 q))
  have e26 : W8 m ρ c (Proc.devRef .tc main_v26) = (Cert.Spec.dense2 (m ((c : Thread nD τ).loc main_arg0)) (m ((c : Thread nD τ).loc main_arg7)) (m ((c : Thread nD τ).loc main_arg8))) := by
    refine (W8_arr m ρ c 3).trans ((hR2 (V7 m ρ) c (m ((c : Thread nD τ).loc main_arg8)) r25).trans ?_)
    show Cert.Spec.dense2 (W7 m ρ c (Proc.devRef .tc main_arg0)) (W7 m ρ c (Proc.devRef .tc main_arg7)) _ = _
    rw [k_arg0_7, k_arg7_7]
  have e40 : W9 m ρ c (Proc.devRef .tc main_v40) = Cert.Spec.agg2 (Cert.Spec.dense2 (m ((c : Thread nD τ).loc main_arg0)) (m ((c : Thread nD τ).loc main_arg7)) (m ((c : Thread nD τ).loc main_arg8))) (m ((c : Thread nD τ).loc main_arg9)) (m ((c : Thread nD τ).loc main_arg2)) := by
    refine (Host.agg2_eq (W8 m ρ c) (m ((c : Thread nD τ).loc main_arg2)) (k1_8.trans e1) (k3_8.trans e3)).trans ?_
    rw [e26, k_arg9_8]
  have r41 : ∀ q : Fin 512, V9 m ρ c main_v41 (ix2 (0 : Fin 1) q) = (m ((c : Thread nD τ).loc main_arg11)) (ix1 q) :=
    fun q => (Host.row_gb1 (W8 m ρ c) q).trans (congrFun k_arg11_8 (ix1 q))
  have r42 : ∀ q : Fin 512, V9 m ρ c main_v42 (ix2 (0 : Fin 1) q) = (m ((c : Thread nD τ).loc main_arg13)) (ix1 q) :=
    fun q => (Host.row_gb2 (W8 m ρ c) q).trans (congrFun k_arg13_8 (ix1 q))
  have e43 : W10 m ρ c (Proc.devRef .tc main_v43) = (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
    refine (W10_arr m ρ c 5).trans ((hR3 (V9 m ρ) c (m ((c : Thread nD τ).loc main_arg11)) (m ((c : Thread nD τ).loc main_arg13)) r41 r42).trans ?_)
    show Cert.Spec.mlp3 (W9 m ρ c (Proc.devRef .tc main_v40)) (W9 m ρ c (Proc.devRef .tc main_arg10)) _ (W9 m ρ c (Proc.devRef .tc main_arg12)) _ = _
    rw [e40, k_arg10_9, k_arg12_9]; rfl
  have e46 : W11 m ρ c (Proc.devRef .tc main_v46) = Cert.Spec.meanOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := (Host.mean2_eq (W10 m ρ c)).trans (congrArg Cert.Spec.meanOf e43)
  have ec10 : W11 m ρ c (Proc.devRef .tc main_c_10) = constantI S_ 32 0#32 := Host.ddof2_eq (W10 m ρ c)
  have e47 : W12 m ρ c (Proc.devRef .tc main_v47) = Cert.Spec.varOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
    (Host.var2_eq (W11 m ρ c) ec10).trans (congrArg Cert.Spec.varOf (k43_11.trans e43))
  have r48 : ∀ q : Fin 512, V13 m ρ c main_v48 (ix2 (0 : Fin 1) q) = Cert.Spec.meanOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix1 q) :=
    fun q => (Host.row_mean2 (W12 m ρ c) q).trans (congrFun (k46_12.trans e46) (ix1 q))
  have r49 : ∀ q : Fin 512, V13 m ρ c main_v49 (ix2 (0 : Fin 1) q) = Cert.Spec.varOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (ix1 q) :=
    fun q => (Host.row_var2 (W12 m ρ c) q).trans (congrFun e47 (ix1 q))
  have r50 : ∀ q : Fin 512, V13 m ρ c main_v50 (ix2 (0 : Fin 1) q) = (m ((c : Thread nD τ).loc main_arg14)) (ix1 q) :=
    fun q => (Host.row_g2 (W12 m ρ c) q).trans (congrFun k_arg14_12 (ix1 q))
  have r51 : ∀ q : Fin 512, V13 m ρ c main_v51 (ix2 (0 : Fin 1) q) = (m ((c : Thread nD τ).loc main_arg15)) (ix1 q) :=
    fun q => (Host.row_b2 (W12 m ρ c) q).trans (congrFun k_arg15_12 (ix1 q))
  have r52 : ∀ q : Fin 512, V13 m ρ c main_v52 (ix2 (0 : Fin 1) q) = (m ((c : Thread nD τ).loc main_arg17)) (ix1 q) :=
    fun q => (Host.row_l1b (W12 m ρ c) q).trans (congrFun k_arg17_12 (ix1 q))
  have r53 : ∀ q : Fin 512, V13 m ρ c main_v53 (ix2 (0 : Fin 1) q) = (m ((c : Thread nD τ).loc main_arg19)) (ix1 q) :=
    fun q => (Host.row_l2b (W12 m ρ c) q).trans (congrFun k_arg19_12 (ix1 q))
  have e54 : W14 m ρ c (Proc.devRef .tc main_v54) = (Cert.Spec.hfin (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
    refine (W14_arr m ρ c 10).trans ((hR4 (V13 m ρ) c (Cert.Spec.meanOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (Cert.Spec.varOf (Cert.Spec.h2 (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (m ((c : Thread nD τ).loc main_arg14)) (m ((c : Thread nD τ).loc main_arg15)) (m ((c : Thread nD τ).loc main_arg17)) (m ((c : Thread nD τ).loc main_arg19)) r48 r49 r50 r51 r52 r53).trans ?_)
    show Cert.Spec.bnLinLin (W13 m ρ c (Proc.devRef .tc main_v43)) _ _ _ _ (W13 m ρ c (Proc.devRef .tc main_arg16)) _ (W13 m ρ c (Proc.devRef .tc main_arg18)) _ (W13 m ρ c (Proc.devRef .tc main_v24)) = _
    rw [k43_13, e43, k_arg16_13, k_arg18_13, k24_13, e24]; rfl
  -- link prediction
  have e70 : W15 m ρ c (Proc.devRef .tc main_v70) = Cert.Spec.rowsAt (Cert.Spec.hfin (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.Spec.nidRow0 (Cert.Spec.nid (m ((c : Thread nD τ).loc main_arg2)) (m ((c : Thread nD τ).loc main_arg3)))) := by
    refine (Host.hs_eq (W14 m ρ c)).trans ?_
    rw [e54, k_arg2_14, k_arg3_14]
  have e79 : W15 m ρ c (Proc.devRef .tc main_v79) = Cert.Spec.rowsAt (Cert.Spec.hfin (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.Spec.nidRow1 (Cert.Spec.nid (m ((c : Thread nD τ).loc main_arg2)) (m ((c : Thread nD τ).loc main_arg3)))) := by
    refine (Host.hd_eq (W14 m ρ c)).trans ?_
    rw [e54, k_arg2_14, k_arg3_14]
  have r80 : ∀ q : Fin 7, V15 m ρ c main_v80 (ix2 (0 : Fin 1) q) = (m ((c : Thread nD τ).loc main_arg21)) (ix1 q) :=
    fun q => (Host.row_fc2b (W14 m ρ c) q).trans (congrFun k_arg21_14 (ix1 q))
  refine (W16_arr m ρ c 4).trans ((hR5 (V15 m ρ) c (m ((c : Thread nD τ).loc main_arg21)) r80).trans ?_)
  show Cert.Spec.link (W15 m ρ c (Proc.devRef .tc main_v70)) (W15 m ρ c (Proc.devRef .tc main_v79)) (W15 m ρ c (Proc.devRef .tc main_arg20)) _ = _
  rw [e70, e79, k_arg20_15]; rfl

end Cert.KValue

end
-- ==== Proof.Region0.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.Pipeline.Value
import Idealize.ShloMosaic.PureOps.Ideal.Laws

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-!
  Region 0, read as a function of whole arrays: the array its output window ends holding is (A · W) + R,
  where A (50000 × 512) and R (50000 × 512) are staged a block of 1000 rows at a time and W (512 × 512)
  is staged whole.

  Three steps.  At row p, column q of a block the body leaves the row of the A block times the column of
  W, summed over the 512 contracted positions, plus the R block's entry (no rounding on the extended
  reals: the narrowing of the two factors is the identity, and the accumulator starts at zero).  At grid
  point t every row-blocked window is at block (t, 0) and W's window at block (0, 0), so row p of a block
  is row 1000 t + p of its array, and what point t writes back is block t of (A · W) + R.  Row r of the
  array lies in the block of point r / 1000, so the blocks cover the array and it ends holding (A · W) + R.
  The two sides' sums run over the same 512 positions with the same summands.
-/

namespace R0

/-- The zero offsets of a whole-block access, as a constant function. -/
theorem hz : (![0, 0] : Fin 2 → Nat) = fun _ => 0 := funext fun a => by fin_cases a <;> rfl

/-! ## The body at an index of the block -/

/-- The block product's dimension numbers: 1000 × 512 by 512 × 512, contracting the 512. -/
abbrev DK := dot_S1000x512_S512x512_S1000x512_1_0_0_1_n_n

set_option maxHeartbeats 400000 in
/-- At output (p, q) and contracted position k the left factor is read at (p, k). -/
theorem DK_lhs (p : Fin 1000) (q : Fin 512) (k : Fin 512) :
    DK.lhsIdx (ix2 p q) ((contrEquiv1 DK 512 rfl rfl).symm k) = ix2 p k := by
  funext a; apply Fin.ext
  match a with
  | ⟨0, _⟩ => rfl
  | ⟨1, _⟩ => exact (DK.lhsIdx_val_of_single (cl := 1) rfl (ix2 p q) _).trans (contrEquiv1_symm_val DK 512 rfl rfl k)

set_option maxHeartbeats 400000 in
/-- At output (p, q) and contracted position k the right factor is read at (k, q). -/
theorem DK_rhs (p : Fin 1000) (q : Fin 512) (k : Fin 512) :
    DK.rhsIdx (ix2 p q) ((contrEquiv1 DK 512 rfl rfl).symm k) = ix2 k q := by
  funext a; apply Fin.ext
  match a with
  | ⟨0, _⟩ => exact (DK.rhsIdx_val_of_single (cr := 0) rfl (ix2 p q) _).trans (contrEquiv1_symm_val DK 512 rfl rfl k)
  | ⟨1, _⟩ => rfl

set_option maxHeartbeats 400000 in
/-- The body's result at row p, column q of the block: the row of the first block times the column of the
    weight block, summed over the 512 contracted positions, plus the residual block's entry. -/
theorem pay_apply (x0 : Vec Ideal S1000x512 .f32) (x1 : Vec Ideal S512x512 .f32) (x2 : Vec Ideal S1000x512 .f32)
    (p : Fin 1000) (q : Fin 512) :
    k0_pay1 (F := Ideal) x0 x1 x2 (ix2 p q) = (∑ k : Fin 512, x0 (ix2 p k) * x1 (ix2 k q)) + x2 (ix2 p q) := by
  unfold k0_pay1
  refine congrArg (· + x2 (ix2 p q)) ?_
  refine (Ideal.matmul_constant_zero_apply DK none _ _ (ix2 p q)).trans ?_
  refine (Equiv.sum_comp (contrEquiv1 DK 512 rfl rfl).symm _).symm.trans ?_
  refine Finset.sum_congr rfl fun k _ => ?_
  rw [DK_lhs, DK_rhs, shapeCast_self]
  rfl

/-! ## (A · W) + R at an index of the array -/

/-- The whole product's dimension numbers: 50000 × 512 by 512 × 512, contracting the 512. -/
abbrev DH := Cert.ReferenceIdeal.dot_S50000x512_S512x512_S50000x512_1_0_0_1_n_n

set_option maxHeartbeats 400000 in
/-- At output (p, q) and contracted position k the left factor is read at (p, k). -/
theorem DH_lhs (p : Fin 50000) (q : Fin 512) (k : Fin 512) :
    DH.lhsIdx (ix2 p q) ((contrEquiv1 DH 512 rfl rfl).symm k) = ix2 p k := by
  funext a; apply Fin.ext
  match a with
  | ⟨0, _⟩ => rfl
  | ⟨1, _⟩ => exact (DH.lhsIdx_val_of_single (cl := 1) rfl (ix2 p q) _).trans (contrEquiv1_symm_val DH 512 rfl rfl k)

set_option maxHeartbeats 400000 in
/-- At output (p, q) and contracted position k the right factor is read at (k, q). -/
theorem DH_rhs (p : Fin 50000) (q : Fin 512) (k : Fin 512) :
    DH.rhsIdx (ix2 p q) ((contrEquiv1 DH 512 rfl rfl).symm k) = ix2 k q := by
  funext a; apply Fin.ext
  match a with
  | ⟨0, _⟩ => exact (DH.rhsIdx_val_of_single (cr := 0) rfl (ix2 p q) _).trans (contrEquiv1_symm_val DH 512 rfl rfl k)
  | ⟨1, _⟩ => rfl

set_option maxHeartbeats 400000 in
/-- Row p, column q of (A · W) + R: row p of A times column q of W, summed over the 512 contracted positions,
    plus R's entry. -/
theorem dense0_apply (A : Cert.Spec.FN) (W : Cert.Spec.FW) (R : Cert.Spec.FN) (p : Fin 50000) (q : Fin 512) :
    Cert.Spec.dense0 A W R (ix2 p q) = (∑ k : Fin 512, A (ix2 p k) * W (ix2 k q)) + R (ix2 p q) := by
  unfold Cert.Spec.dense0
  refine congrArg (· + R (ix2 p q)) ?_
  refine (Ideal.dotGeneral_apply DH none _ A W (ix2 p q)).trans ?_
  refine (Equiv.sum_comp (contrEquiv1 DH 512 rfl rfl).symm _).symm.trans ?_
  refine Finset.sum_congr rfl fun k _ => ?_
  rw [DH_lhs, DH_rhs]

/-! ## From blocks to the array -/

/-- The index maps over the grid: at point t the three row-blocked windows (the two inputs and the
    output) are at block (t, 0), the weight window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

set_option maxHeartbeats 400000 in
/-- Window 0's block at point t is rows 1000 t … 1000 t + 999 of its array. -/
theorem blk0_apply (t : Fin cfg0.N) (p : Fin 1000) (k : Fin 512) (P : Fin 50000) (hP : P.val = t.val * 1000 + p.val) :
    (iblk0 V c 0 t : Vec Ideal S1000x512 .f32) (ix2 p k) = (V c main_v14 : S50000x512.Idx → Elt Ideal .f32) (ix2 P k) := by
  obtain ⟨e0, e1, -⟩ := idx_facts t
  unfold iblk0
  show V c main_v14 (((cfg0.win 0).blk t).view.emb (ix2 p k)) = V c main_v14 (ix2 P k)
  refine congrArg (V c main_v14) ?_
  funext a; apply Fin.ext
  match a with
  | ⟨0, _⟩ => show win0_0.index t (0 : Fin 2) * 1000 + 1 * p.val = P.val; omega
  | ⟨1, _⟩ => show win0_0.index t (1 : Fin 2) * 512 + 1 * k.val = k.val; omega

set_option maxHeartbeats 400000 in
/-- Window 1's block at every point is its whole array. -/
theorem blk1_apply (t : Fin cfg0.N) (k : Fin 512) (q : Fin 512) :
    (iblk0 V c 1 t : Vec Ideal S512x512 .f32) (ix2 k q) = (V c main_arg4 : S512x512.Idx → Elt Ideal .f32) (ix2 k q) := by
  obtain ⟨-, -, e2, e3, -⟩ := idx_facts t
  unfold iblk0
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 512 + 1 * k.val = k.val; omega
  | ⟨1, _⟩ => show win0_1.index t (1 : Fin 2) * 512 + 1 * q.val = q.val; omega

set_option maxHeartbeats 400000 in
/-- Window 2's block at point t is rows 1000 t … 1000 t + 999 of its array. -/
theorem blk2_apply (t : Fin cfg0.N) (p : Fin 1000) (q : Fin 512) (P : Fin 50000) (hP : P.val = t.val * 1000 + p.val) :
    (iblk0 V c 2 t : Vec Ideal S1000x512 .f32) (ix2 p q) = (V c main_arg1 : S50000x512.Idx → Elt Ideal .f32) (ix2 P q) := by
  obtain ⟨-, -, -, -, e4, e5, -⟩ := idx_facts t
  unfold iblk0
  show V c main_arg1 (((cfg0.win 2).blk t).view.emb (ix2 p q)) = V c main_arg1 (ix2 P q)
  refine congrArg (V c main_arg1) ?_
  funext a; apply Fin.ext
  match a with
  | ⟨0, _⟩ => show win0_2.index t (0 : Fin 2) * 1000 + 1 * p.val = P.val; omega
  | ⟨1, _⟩ => show win0_2.index t (1 : Fin 2) * 512 + 1 * q.val = q.val; omega

set_option maxHeartbeats 400000 in
/-- What point t writes back is block t of (A · W) + R of the arrays as the region finds them: entry (p, q)
    of the block is entry (1000 t + p, q) of the array, and the two sums agree term by term. -/
theorem flushed_eq (t : Fin cfg0.N) :
    (dat0 (F := Ideal) V c).flushed 3 t
      = ((cfg0.win 3).blk t).view.read (Elt Ideal) (Cert.Spec.dense0 (V c main_v14) (V c main_arg4) (V c main_arg1)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x512) hz]
  funext j
  obtain ⟨p, q, rfl⟩ : ∃ (p : Fin 1000) (q : Fin 512), j = ix2 p q := ⟨j 0, j 1, eq_ix2 j⟩
  obtain ⟨-, -, -, -, -, -, e6, e7⟩ := idx_facts t
  have ht : t.val < 50 := lt_of_lt_of_eq t.isLt N_0
  have hP : t.val * 1000 + p.val < 50000 := by have := p.isLt; omega
  have hemb : ((cfg0.win 3).blk t).view.emb (ix2 p q) = ix2 (⟨t.val * 1000 + p.val, hP⟩ : Fin 50000) q := by
    funext a; apply Fin.ext
    match a with
    | ⟨0, _⟩ => show win0_3.index t (0 : Fin 2) * 1000 + 1 * p.val = t.val * 1000 + p.val; omega
    | ⟨1, _⟩ => show win0_3.index t (1 : Fin 2) * 512 + 1 * q.val = q.val; omega
  show k0_pay1 (F := Ideal) (iblk0 V c 0 t) (iblk0 V c 1 t) (iblk0 V c 2 t) (ix2 p q)
    = Cert.Spec.dense0 (V c main_v14) (V c main_arg4) (V c main_arg1) (((cfg0.win 3).blk t).view.emb (ix2 p q))
  refine (pay_apply _ _ _ p q).trans ?_
  refine Eq.trans ?_ (congrArg (Cert.Spec.dense0 (V c main_v14) (V c main_arg4) (V c main_arg1)) hemb.symm)
  refine Eq.trans ?_ (dense0_apply _ _ _ ⟨_, hP⟩ q).symm
  refine congrArg₂ (· + ·) (Finset.sum_congr rfl fun k _ => ?_) (blk2_apply V c t p q ⟨_, hP⟩ rfl)
  exact congrArg₂ (· * ·) (blk0_apply V c t p k ⟨_, hP⟩ rfl) (blk1_apply V c t k q)

/-- A row and column of the array lie in point t's block iff they lie in the block's range on each axis. -/
theorem mem_blk (t : Fin cfg0.N) (i : S50000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v15).slice (win0_3.rect t)).set ↔ _
  rw [View.set_slice_whole, Rect.mem_set_unit]
  exact Iff.rfl

set_option maxHeartbeats 400000 in
/-- Every row r of the array is covered: by the block of point r / 1000. -/
theorem cover (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have ht : (i 0).val / 1000 < cfg0.N := lt_of_lt_of_eq (by omega : (i 0).val / 1000 < 50) N_0.symm
  obtain ⟨-, -, -, -, -, -, e6, e7⟩ := idx_facts ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win0_3.index ⟨(i 0).val / 1000, ht⟩ (1 : Fin 2) * 512 ≤ (i 1).val
      ∧ (i 1).val < win0_3.index ⟨(i 0).val / 1000, ht⟩ (1 : Fin 2) * 512 + 512
    rw [e7]; omega

end R0

/-- After the region, its output array is (A · W) + R of the arrays it found: every point writes back its block
    of that one function, and the blocks cover the array. -/
theorem region0 :
    (dat0 (F := Ideal) V c).arrAt 3 cfg0.N = Cert.Spec.dense0 (V c main_v14) (V c main_arg4) (V c main_arg1) :=
  (dat0 (F := Ideal) V c).arrAt_eq_of_cover 3 _ (fun t _ => R0.flushed_eq V c t) R0.cover

end Cert.KValue
end
-- ==== Proof.Region1.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.ValueLayout

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-!
  Region 1: batch normalisation followed by max(·, 0), over a 50000 × 512 activation array cut into 50 blocks of
  1000 rows.

  At grid point t the body reads rows 1000 t … 1000 t + 999 of the activations X and the four 1 × 512 rows holding
  the column means mu, the column variances var, the scale g and the shift b, and stores, at row p and column q of
  its block,

      max (((X (1000 t + p, q) − mu q) · rsqrt (var q + 1e-5)) · g q + b q, 0),

  which point t writes back to rows 1000 t … 1000 t + 999 of the output array. The target function at (r, q) is the
  same expression with r in place of 1000 t + p: every row broadcast reads its row, and the reciprocal square root of
  the kernel and of the target are one function on the extended reals. Row r lies in the block of point r / 1000 and
  every point writes back, so the 50 blocks fill the output array, which therefore ends holding the target function.
-/

namespace R1

/-- One row of 512 repeated down the rows, read at (p, q): the row's entry q. -/
theorem rowB_apply (b : Cert.Spec.FB) (p : Fin 50000) (q : Fin 512) :
    Cert.Spec.rowB b (ix2 p q) = b (ix1 q) := by
  unfold Cert.Spec.rowB
  refine (broadcastInDim_apply _ _ _ (ix2 p q) (ix2 (0 : Fin 1) q) ?_).trans
    (broadcastInDim_apply _ _ _ (ix2 (0 : Fin 1) q) (ix1 q) ?_)
  · intro a
    match a with
    | ⟨0, _⟩ => rfl
    | ⟨1, _⟩ => rfl
  · intro a
    match a with
    | ⟨0, _⟩ => rfl

set_option maxHeartbeats 400000 in
/-- The target at (p, q). -/
theorem bnRelu_apply (X : Cert.Spec.FN) (mu var g b : Cert.Spec.FB) (p : Fin 50000) (q : Fin 512) :
    Cert.Spec.bnRelu X mu var g b (ix2 p q)
      = max (((X (ix2 p q) - mu (ix1 q)) * Ideal.rsqrt (var (ix1 q) + Ideal.ofBits .f32 0x3727C5AC#32)) * g (ix1 q) + b (ix1 q))
          (Ideal.ofBits .f32 0x00000000#32) := by
  unfold Cert.Spec.bnRelu Cert.Spec.relu Cert.Spec.bnorm
  rw [maximumf_apply, addf_apply, mulf_apply, mulf_apply, subf_apply, rowB_apply, rowB_apply, rowB_apply, rowB_apply]
  rfl

set_option maxHeartbeats 400000 in
/-- The body's stored value at (p, q) of the block. -/
theorem pay_apply (x0 : Vec Ideal S1000x512 .f32) (x1 x2 x3 x4 : Vec Ideal S1x512 .f32) (p : Fin 1000) (q : Fin 512) :
    k1_pay1 x0 x1 x2 x3 x4 (ix2 p q)
      = max (((x0 (ix2 p q) - x1 (ix2 (0 : Fin 1) q)) * Ideal.rsqrt (x2 (ix2 (0 : Fin 1) q) + Ideal.ofBits .f32 0x3727C5AC#32)) * x3 (ix2 (0 : Fin 1) q) + x4 (ix2 (0 : Fin 1) q))
          (Ideal.ofBits .f32 0x00000000#32) := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- The base offsets every block is read and stored through are zero. -/
theorem hz : (![0, 0] : Fin 2 → Nat) = fun _ => 0 := funext fun a => by fin_cases a <;> rfl

/-- The index maps over the grid: at point t the activation window and the output window sit at block (t, 0),
    the four statistic rows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 400000 in
/-- The activation block at point t is rows 1000 t … 1000 t + 999 of the array. -/
theorem blkX_apply (t : Fin cfg1.N) (p : Fin 1000) (q : Fin 512) (k : S50000x512.Idx)
    (hk0 : (k 0).val = t.val * 1000 + p.val) (hk1 : (k 1).val = q.val) :
    (iblk1 V c 0 t : Vec Ideal S1000x512 .f32) (ix2 p q) = (V c main_v15 : S50000x512.Idx → Elt Ideal .f32) k := by
  obtain ⟨e0, e1, -⟩ := idx_facts t
  unfold iblk1
  rw [View.read_apply]
  show V c main_v15 _ = V c main_v15 _
  refine congrArg (V c main_v15) ?_
  funext a
  apply Fin.ext
  match a with
  | ⟨0, _⟩ => show win1_0.index t (0 : Fin 2) * 1000 + 1 * p.val = (k 0).val; rw [e0, hk0]; omega
  | ⟨1, _⟩ => show win1_0.index t (1 : Fin 2) * 512 + 1 * q.val = (k 1).val; rw [e1, hk1]; omega

set_option maxHeartbeats 400000 in
/-- The mean row's block at any point is the whole 1 × 512 row. -/
theorem blkMu_apply (t : Fin cfg1.N) (q : Fin 512) :
    (iblk1 V c 1 t : Vec Ideal S1x512 .f32) (ix2 (0 : Fin 1) q) = (V c main_v20 : S1x512.Idx → Elt Ideal .f32) (ix2 (0 : Fin 1) q) := by
  obtain ⟨-, -, e0, e1, -⟩ := idx_facts t
  unfold iblk1
  rw [View.read_apply]
  show V c main_v20 _ = V c main_v20 _
  refine congrArg (V c main_v20) ?_
  funext a
  apply Fin.ext
  match a with
  | ⟨0, _⟩ => show win1_1.index t (0 : Fin 2) * 1 + 1 * 0 = 0; rw [e0]
  | ⟨1, _⟩ => show win1_1.index t (1 : Fin 2) * 512 + 1 * q.val = q.val; rw [e1]; omega

set_option maxHeartbeats 400000 in
/-- The variance row's block at any point is the whole row. -/
theorem blkVar_apply (t : Fin cfg1.N) (q : Fin 512) :
    (iblk1 V c 2 t : Vec Ideal S1x512 .f32) (ix2 (0 : Fin 1) q) = (V c main_v21 : S1x512.Idx → Elt Ideal .f32) (ix2 (0 : Fin 1) q) := by
  obtain ⟨-, -, -, -, e0, e1, -⟩ := idx_facts t
  unfold iblk1
  rw [View.read_apply]
  show V c main_v21 _ = V c main_v21 _
  refine congrArg (V c main_v21) ?_
  funext a
  apply Fin.ext
  match a with
  | ⟨0, _⟩ => show win1_2.index t (0 : Fin 2) * 1 + 1 * 0 = 0; rw [e0]
  | ⟨1, _⟩ => show win1_2.index t (1 : Fin 2) * 512 + 1 * q.val = q.val; rw [e1]; omega

set_option maxHeartbeats 400000 in
/-- The scale row's block at any point is the whole row. -/
theorem blkG_apply (t : Fin cfg1.N) (q : Fin 512) :
    (iblk1 V c 3 t : Vec Ideal S1x512 .f32) (ix2 (0 : Fin 1) q) = (V c main_v22 : S1x512.Idx → Elt Ideal .f32) (ix2 (0 : Fin 1) q) := by
  obtain ⟨-, -, -, -, -, -, e0, e1, -⟩ := idx_facts t
  unfold iblk1
  rw [View.read_apply]
  show V c main_v22 _ = V c main_v22 _
  refine congrArg (V c main_v22) ?_
  funext a
  apply Fin.ext
  match a with
  | ⟨0, _⟩ => show win1_3.index t (0 : Fin 2) * 1 + 1 * 0 = 0; rw [e0]
  | ⟨1, _⟩ => show win1_3.index t (1 : Fin 2) * 512 + 1 * q.val = q.val; rw [e1]; omega

set_option maxHeartbeats 400000 in
/-- The shift row's block at any point is the whole row. -/
theorem blkB_apply (t : Fin cfg1.N) (q : Fin 512) :
    (iblk1 V c 4 t : Vec Ideal S1x512 .f32) (ix2 (0 : Fin 1) q) = (V c main_v23 : S1x512.Idx → Elt Ideal .f32) (ix2 (0 : Fin 1) q) := by
  obtain ⟨-, -, -, -, -, -, -, -, e0, e1, -⟩ := idx_facts t
  unfold iblk1
  rw [View.read_apply]
  show V c main_v23 _ = V c main_v23 _
  refine congrArg (V c main_v23) ?_
  funext a
  apply Fin.ext
  match a with
  | ⟨0, _⟩ => show win1_4.index t (0 : Fin 2) * 1 + 1 * 0 = 0; rw [e0]
  | ⟨1, _⟩ => show win1_4.index t (1 : Fin 2) * 512 + 1 * q.val = q.val; rw [e1]; omega

set_option maxHeartbeats 400000 in
/-- Any function of the output array's index, read through the output window's block at point t, is that function
    at rows 1000 t … 1000 t + 999. -/
theorem blkOut_apply (G : S50000x512.Idx → Elt Ideal .f32) (t : Fin cfg1.N) (p : Fin 1000) (q : Fin 512) (k : S50000x512.Idx)
    (hk0 : (k 0).val = t.val * 1000 + p.val) (hk1 : (k 1).val = q.val) :
    (((cfg1.win 5).blk t).view.read (Elt Ideal) G : Vec Ideal S1000x512 .f32) (ix2 p q) = G k := by
  obtain ⟨-, -, -, -, -, -, -, -, -, -, e0, e1⟩ := idx_facts t
  rw [View.read_apply]
  refine congrArg G ?_
  funext a
  apply Fin.ext
  match a with
  | ⟨0, _⟩ => show win1_5.index t (0 : Fin 2) * 1000 + 1 * p.val = (k 0).val; rw [e0, hk0]; omega
  | ⟨1, _⟩ => show win1_5.index t (1 : Fin 2) * 512 + 1 * q.val = (k 1).val; rw [e1, hk1]; omega

set_option maxHeartbeats 400000 in
/-- What point t writes back is block t of the target function of the entry arrays. -/
theorem flushed_eq (mu var g b : Cert.Spec.FB)
    (hmu : ∀ q : Fin 512, V c main_v20 (ix2 (0 : Fin 1) q) = mu (ix1 q))
    (hvar : ∀ q : Fin 512, V c main_v21 (ix2 (0 : Fin 1) q) = var (ix1 q))
    (hg : ∀ q : Fin 512, V c main_v22 (ix2 (0 : Fin 1) q) = g (ix1 q))
    (hb : ∀ q : Fin 512, V c main_v23 (ix2 (0 : Fin 1) q) = b (ix1 q))
    (t : Fin cfg1.N) :
    (dat1 (F := Ideal) V c).flushed 5 t
      = ((cfg1.win 5).blk t).view.read (Elt Ideal) (Cert.Spec.bnRelu (V c main_v15) mu var g b) := by
  show (cfg1.win 5).cut (grid1.coords t) ((dat1 V c).after 5 t) = _
  rw [after1_5]
  unfold out1_5
  rw [View.canon_unit_zero hz]
  simp only [View.ld_unit_zero (S := S1000x512) hz, View.ld_unit_zero (S := S1x512) hz]
  funext j
  obtain ⟨p, q, rfl⟩ : ∃ (p : Fin 1000) (q : Fin 512), j = ix2 p q := ⟨j 0, j 1, eq_ix2 j⟩
  have hN : cfg1.N = 50 := N_1
  have hk : t.val * 1000 + p.val < 50000 := by have := t.isLt; have := p.isLt; omega
  refine (pay_apply _ _ _ _ _ p q).trans ?_
  rw [blkX_apply V c t p q (ix2 ⟨t.val * 1000 + p.val, hk⟩ q) rfl rfl,
    blkMu_apply V c t q, blkVar_apply V c t q, blkG_apply V c t q, blkB_apply V c t q,
    hmu, hvar, hg, hb]
  refine Eq.trans ?_ (blkOut_apply _ t p q (ix2 ⟨t.val * 1000 + p.val, hk⟩ q) rfl rfl).symm
  exact (bnRelu_apply _ mu var g b ⟨t.val * 1000 + p.val, hk⟩ q).symm

/-- An index of the output array is in point t's block iff each coordinate is in the block's range on its axis. -/
theorem mem_blkOut (t : Fin cfg1.N) (i : S50000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v24).slice (win1_5.rect t)).set ↔ _
  rw [View.set_slice_whole, Rect.mem_set_unit]
  exact Iff.rfl

/-- Every row r of the output array lies in the block of the point r / 1000, and every point writes back. -/
theorem cover (i : S50000x512.Idx) :
    ∃ t : Fin cfg1.N, (cfg1.win 5).flush t = true ∧ i ∈ ((cfg1.win 5).blk t).view.set := by
  have hN : cfg1.N = 50 := N_1
  have hi0 : (i 0).val < 50000 := (i 0).isLt
  have hi1 : (i 1).val < 512 := (i 1).isLt
  let t : Fin cfg1.N := ⟨(i 0).val / 1000, by omega⟩
  have ht : t.val = (i 0).val / 1000 := rfl
  obtain ⟨-, -, -, -, -, -, -, -, -, -, e0, e1⟩ := idx_facts t
  refine ⟨t, flush1_5 t, ?_⟩
  rw [mem_blkOut]
  intro a
  match a with
  | ⟨0, _⟩ => show win1_5.index t (0 : Fin 2) * 1000 ≤ (i 0).val ∧ (i 0).val < win1_5.index t (0 : Fin 2) * 1000 + 1000; rw [e0, ht]; omega
  | ⟨1, _⟩ => show win1_5.index t (1 : Fin 2) * 512 ≤ (i 1).val ∧ (i 1).val < win1_5.index t (1 : Fin 2) * 512 + 512; rw [e1]; omega

end R1

/-- The array the region leaves in its output window is the normalisation followed by max(·, 0) of the entry
    arrays: each point writes its 1000 rows of it, and the 50 points' rows fill the array. -/
theorem region1 (mu var g b : Cert.Spec.FB)
    (hmu : ∀ q : Fin 512, V c main_v20 (ix2 (0 : Fin 1) q) = mu (ix1 q))
    (hvar : ∀ q : Fin 512, V c main_v21 (ix2 (0 : Fin 1) q) = var (ix1 q))
    (hg : ∀ q : Fin 512, V c main_v22 (ix2 (0 : Fin 1) q) = g (ix1 q))
    (hb : ∀ q : Fin 512, V c main_v23 (ix2 (0 : Fin 1) q) = b (ix1 q)) :
    (dat1 (F := Ideal) V c).arrAt 5 cfg1.N = Cert.Spec.bnRelu (V c main_v15) mu var g b :=
  (dat1 (F := Ideal) V c).arrAt_eq_of_cover 5 (Cert.Spec.bnRelu (V c main_v15) mu var g b)
    (fun t _ => R1.flushed_eq V c mu var g b hmu hvar hg hb t) R1.cover

end Cert.KValue
end
-- ==== Proof.Region2.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-!
  Region 2 computes `(X · W) + b` for the 50000 × 512 feature matrix `X`, the 512 × 512 weights `W` and the bias
  row `b`, 1000 rows at a time: grid point `t` reads rows `1000 t … 1000 t + 999` of `X`, all of `W` and the one-row
  bias, and writes the same rows of the result. An entry of what a point stores is the inner product of a row of its
  feature block with a column of `W`, plus the bias entry of that column; an entry of `(X · W) + b` is the same sum
  over the same 512 terms. The 50 row blocks fill the result, so the array after the region is `(X · W) + b`.
-/

namespace R2
open scoped BigOperators

/-! ## The contraction's index, on a block and on the whole array -/

theorem lhsIdx_blk (p : Fin 1000) (q : Fin 512) (k : Fin 512) :
    dot_S1000x512_S512x512_S1000x512_1_0_0_1_n_n.lhsIdx (ix2 p q)
      ((contrEquiv1 dot_S1000x512_S512x512_S1000x512_1_0_0_1_n_n 512 rfl rfl).symm k) = ix2 p k := by
  funext a; apply Fin.ext
  match a with
  | ⟨0, _⟩ => rfl
  | ⟨1, _⟩ =>
    exact (DotDims.lhsIdx_val_of_single _ rfl _ _).trans (contrEquiv1_symm_val _ 512 rfl rfl k)

theorem rhsIdx_blk (p : Fin 1000) (q : Fin 512) (k : Fin 512) :
    dot_S1000x512_S512x512_S1000x512_1_0_0_1_n_n.rhsIdx (ix2 p q)
      ((contrEquiv1 dot_S1000x512_S512x512_S1000x512_1_0_0_1_n_n 512 rfl rfl).symm k) = ix2 k q := by
  funext a; apply Fin.ext
  match a with
  | ⟨0, _⟩ =>
    exact (DotDims.rhsIdx_val_of_single _ rfl _ _).trans (contrEquiv1_symm_val _ 512 rfl rfl k)
  | ⟨1, _⟩ => rfl

theorem lhsIdx_arr (r : Fin 50000) (q : Fin 512) (k : Fin 512) :
    Cert.ReferenceIdeal.dot_S50000x512_S512x512_S50000x512_1_0_0_1_n_n.lhsIdx (ix2 r q)
      ((contrEquiv1 Cert.ReferenceIdeal.dot_S50000x512_S512x512_S50000x512_1_0_0_1_n_n 512 rfl rfl).symm k) = ix2 r k := by
  funext a; apply Fin.ext
  match a with
  | ⟨0, _⟩ => rfl
  | ⟨1, _⟩ =>
    exact (DotDims.lhsIdx_val_of_single _ rfl _ _).trans (contrEquiv1_symm_val _ 512 rfl rfl k)

theorem rhsIdx_arr (r : Fin 50000) (q : Fin 512) (k : Fin 512) :
    Cert.ReferenceIdeal.dot_S50000x512_S512x512_S50000x512_1_0_0_1_n_n.rhsIdx (ix2 r q)
      ((contrEquiv1 Cert.ReferenceIdeal.dot_S50000x512_S512x512_S50000x512_1_0_0_1_n_n 512 rfl rfl).symm k) = ix2 k q := by
  funext a; apply Fin.ext
  match a with
  | ⟨0, _⟩ =>
    exact (DotDims.rhsIdx_val_of_single _ rfl _ _).trans (contrEquiv1_symm_val _ 512 rfl rfl k)
  | ⟨1, _⟩ => rfl

/-! ## The body's payload at an index of the block -/

/-- Row `p`, column `q` of what the body stores: the inner product of row `p` of the row block with column `q` of
    the weights (rounding the operands to bf16 changes nothing on the extended reals, and the accumulator is zero),
    plus entry `q` of the one-row bias, which is repeated down the rows. -/
theorem pay_apply (x0 : Vec Ideal S1000x512 .f32) (x1 : Vec Ideal S512x512 .f32) (x2 : Vec Ideal S1x512 .f32)
    (p : Fin 1000) (q : Fin 512) :
    k2_pay1 x0 x1 x2 (ix2 p q) = (∑ k : Fin 512, x0 (ix2 p k) * x1 (ix2 k q)) + x2 (ix2 (0 : Fin 1) q) := by
  unfold k2_pay1
  refine (addf_apply _ _ (ix2 p q)).trans ?_
  refine congrArg₂ (· + ·) ?_ ?_
  · refine (Ideal.matmul_constant_zero_apply dot_S1000x512_S512x512_S1000x512_1_0_0_1_n_n none
      (truncf .bf16 x0 bitsLt_bf16_f32) (truncf .bf16 x1 bitsLt_bf16_f32) (ix2 p q)).trans ?_
    refine (Equiv.sum_comp (contrEquiv1 dot_S1000x512_S512x512_S1000x512_1_0_0_1_n_n 512 rfl rfl).symm _).symm.trans ?_
    refine Finset.sum_congr rfl fun k _ => ?_
    rw [lhsIdx_blk, rhsIdx_blk]
    rfl
  · refine (broadcastTo_1b_ab_apply _ _ p q).trans ?_
    exact congrFun (shapeCast_self x2 _) _

/-! ## The target at an index of the array -/

/-- Row `r`, column `q` of `(X · W) + b`: the inner product of row `r` of `X` with column `q` of `W`, plus `b q`. -/
theorem dense2_apply (X : Cert.Spec.FN) (W : Cert.Spec.FW) (b : Cert.Spec.FB) (r : Fin 50000) (q : Fin 512) :
    Cert.Spec.dense2 X W b (ix2 r q) = (∑ k : Fin 512, X (ix2 r k) * W (ix2 k q)) + b (ix1 q) := by
  unfold Cert.Spec.dense2 Cert.Spec.rowB
  refine (addf_apply _ _ (ix2 r q)).trans ?_
  refine congrArg₂ (· + ·) ?_ ?_
  · refine (Ideal.dotGeneral_apply Cert.ReferenceIdeal.dot_S50000x512_S512x512_S50000x512_1_0_0_1_n_n none .single
      X W (ix2 r q)).trans ?_
    refine (Equiv.sum_comp (contrEquiv1 Cert.ReferenceIdeal.dot_S50000x512_S512x512_S50000x512_1_0_0_1_n_n 512 rfl rfl).symm _).symm.trans ?_
    refine Finset.sum_congr rfl fun k _ => ?_
    rw [lhsIdx_arr, rhsIdx_arr]
  · refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

/-! ## From blocks to the array -/

theorem zero_off : (![0, 0] : Fin 2 → Nat) = fun _ => 0 := funext fun a => by fin_cases a <;> rfl

/-- The index maps over the grid: at point `t` the row-blocked windows (the features and the result) are at block
    `(t, 0)`, the weights and the bias row at block `(0, 0)`. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the feature block at point `t` is row `1000 t + p` of the feature matrix. -/
theorem features_block (t : Fin cfg2.N) (p : Fin 1000) (k : Fin 512) (h : 1000 * t.val + p.val < 50000) :
    (iblk2 V c 0 t : Vec Ideal S1000x512 .f32) (ix2 p k) = V c main_arg0 (ix2 (⟨1000 * t.val + p.val, h⟩ : Fin 50000) k) := by
  obtain ⟨e0, e1, -⟩ := block_index t
  show V c main_arg0 (((cfg2.win 0).blk t).view.emb (ix2 p k)) = V c main_arg0 (ix2 (⟨1000 * t.val + p.val, h⟩ : Fin 50000) k)
  refine congrArg (V c main_arg0) (funext fun a => Fin.ext ?_)
  match a with
  | ⟨0, _⟩ => show win2_0.index t (0 : Fin 2) * 1000 + 1 * p.val = 1000 * t.val + p.val; rw [e0]; omega
  | ⟨1, _⟩ => show win2_0.index t (1 : Fin 2) * 512 + 1 * k.val = k.val; rw [e1]; omega

/-- The weight block at every point is the weight matrix. -/
theorem weights_block (t : Fin cfg2.N) (k : Fin 512) (q : Fin 512) :
    (iblk2 V c 1 t : Vec Ideal S512x512 .f32) (ix2 k q) = V c main_arg7 (ix2 k q) := by
  obtain ⟨-, -, e2, e3, -⟩ := block_index t
  show V c main_arg7 (((cfg2.win 1).blk t).view.emb (ix2 k q)) = V c main_arg7 (ix2 k q)
  refine congrArg (V c main_arg7) (funext fun a => Fin.ext ?_)
  match a with
  | ⟨0, _⟩ => show win2_1.index t (0 : Fin 2) * 512 + 1 * k.val = k.val; rw [e2]; omega
  | ⟨1, _⟩ => show win2_1.index t (1 : Fin 2) * 512 + 1 * q.val = q.val; rw [e3]; omega

/-- The bias block at every point is the bias row. -/
theorem bias_block (t : Fin cfg2.N) (q : Fin 512) :
    (iblk2 V c 2 t : Vec Ideal S1x512 .f32) (ix2 (0 : Fin 1) q) = V c main_v25 (ix2 (0 : Fin 1) q) := by
  obtain ⟨-, -, -, -, e4, e5, -⟩ := block_index t
  show V c main_v25 (((cfg2.win 2).blk t).view.emb (ix2 (0 : Fin 1) q)) = V c main_v25 (ix2 (0 : Fin 1) q)
  refine congrArg (V c main_v25) (funext fun a => Fin.ext ?_)
  match a with
  | ⟨0, _⟩ => show win2_2.index t (0 : Fin 2) * 1 + 1 * (0 : Fin 1).val = (0 : Fin 1).val; rw [e4]; omega
  | ⟨1, _⟩ => show win2_2.index t (1 : Fin 2) * 512 + 1 * q.val = q.val; rw [e5]; omega

/-- What point `t` writes back is rows `1000 t … 1000 t + 999` of `(X · W) + b`. -/
theorem flushed_eq (b : Cert.Spec.FB) (hb : ∀ q : Fin 512, V c main_v25 (ix2 (0 : Fin 1) q) = b (ix1 q))
    (t : Fin cfg2.N) :
    (dat2 (F := Ideal) V c).flushed 3 t
      = ((cfg2.win 3).blk t).view.read (Elt Ideal) (Cert.Spec.dense2 (V c main_arg0) (V c main_arg7) b) := by
  show (cfg2.win 3).cut (grid2.coords t) ((dat2 V c).after 3 t) = _
  rw [after2_3]
  unfold out2_3
  rw [View.canon_unit_zero zero_off]
  simp only [View.ld_unit_zero (S := S1000x512) zero_off, View.ld_unit_zero (S := S512x512) zero_off,
    View.ld_unit_zero (S := S1x512) zero_off]
  funext j
  obtain ⟨p, q, rfl⟩ : ∃ (p : Fin 1000) (q : Fin 512), j = ix2 p q := ⟨j 0, j 1, eq_ix2 j⟩
  have hN : cfg2.N = 50 := N_2
  have hr : 1000 * t.val + p.val < 50000 := by have := t.isLt; omega
  obtain ⟨-, -, -, -, -, -, e6, e7⟩ := block_index t
  have hemb : ((cfg2.win 3).blk t).view.emb (ix2 p q) = ix2 (⟨1000 * t.val + p.val, hr⟩ : Fin 50000) q := by
    funext a; apply Fin.ext
    match a with
    | ⟨0, _⟩ => show win2_3.index t (0 : Fin 2) * 1000 + 1 * p.val = 1000 * t.val + p.val; rw [e6]; omega
    | ⟨1, _⟩ => show win2_3.index t (1 : Fin 2) * 512 + 1 * q.val = q.val; rw [e7]; omega
  show k2_pay1 (iblk2 V c 0 t) (iblk2 V c 1 t) (iblk2 V c 2 t) (ix2 p q)
    = Cert.Spec.dense2 (V c main_arg0) (V c main_arg7) b (((cfg2.win 3).blk t).view.emb (ix2 p q))
  refine (pay_apply (iblk2 V c 0 t) (iblk2 V c 1 t) (iblk2 V c 2 t) p q).trans ?_
  refine Eq.trans ?_ (congrArg (Cert.Spec.dense2 (V c main_arg0) (V c main_arg7) b) hemb).symm
  refine Eq.trans ?_ (dense2_apply (V c main_arg0) (V c main_arg7) b ⟨1000 * t.val + p.val, hr⟩ q).symm
  exact congrArg₂ (· + ·)
    (Finset.sum_congr rfl fun k _ => congrArg₂ (· * ·) (features_block V c t p k hr) (weights_block V c t k q))
    ((bias_block V c t q).trans (hb q))

/-- An index of the result is in point `t`'s block iff each coordinate is in the block's range on its axis. -/
theorem mem_block (t : Fin cfg2.N) (i : S50000x512.Idx) :
    i ∈ ((cfg2.win 3).blk t).view.set ↔ ∀ a : Fin 2, win2_3.index t a * S1000x512.size a ≤ (i a).val
      ∧ (i a).val < win2_3.index t a * S1000x512.size a + S1000x512.size a := by
  show i ∈ ((View.whole main_v26).slice (win2_3.rect t)).set ↔ _
  rw [View.set_slice_whole, Rect.mem_set_unit]
  exact Iff.rfl

/-- Every index of the result is written back: row `r` by point `r / 1000`. -/
theorem covered (i : S50000x512.Idx) :
    ∃ t : Fin cfg2.N, (cfg2.win 3).flush t = true ∧ i ∈ ((cfg2.win 3).blk t).view.set := by
  have hN : cfg2.N = 50 := N_2
  have h0 : (i 0).val < 50000 := idx2_lt0 i
  have h1 : (i 1).val < 512 := idx2_lt1 i
  obtain ⟨t, ht⟩ : ∃ t : Fin cfg2.N, t.val = (i 0).val / 1000 := ⟨⟨(i 0).val / 1000, by omega⟩, rfl⟩
  obtain ⟨-, -, -, -, -, -, e6, e7⟩ := block_index t
  refine ⟨t, flush2_3 t, ?_⟩
  rw [mem_block]
  intro a
  match a with
  | ⟨0, _⟩ =>
    show win2_3.index t (0 : Fin 2) * 1000 ≤ (i 0).val ∧ (i 0).val < win2_3.index t (0 : Fin 2) * 1000 + 1000
    rw [e6]; omega
  | ⟨1, _⟩ =>
    show win2_3.index t (1 : Fin 2) * 512 ≤ (i 1).val ∧ (i 1).val < win2_3.index t (1 : Fin 2) * 512 + 512
    rw [e7]; omega

end R2

/-- After the region the result array is `(X · W) + b`: every point writes back its rows of it, and the points'
    row blocks fill the array. -/
theorem region2 (b : Cert.Spec.FB)
    (hb : ∀ q : Fin 512, V c main_v25 (ix2 (0 : Fin 1) q) = b (ix1 q)) :
    (dat2 (F := Ideal) V c).arrAt 3 cfg2.N = Cert.Spec.dense2 (V c main_arg0) (V c main_arg7) b :=
  (dat2 (F := Ideal) V c).arrAt_eq_of_cover 3 (Cert.Spec.dense2 (V c main_arg0) (V c main_arg7) b)
    (fun t _ => R2.flushed_eq V c b hb t) R2.covered

end Cert.KValue
end
-- ==== Proof.Region3.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

namespace R3

/-- The extended real the f32 zero word denotes.  The same word stands on both sides and is never evaluated. -/
abbrev zeroW : EReal := Ideal.ofBits .f32 0x00000000#32

/-! ## A product of an m × k by a k × n matrix, entry by entry -/

/-- The contraction of a plain matrix product at entry (a, b): the sum over the contracted coordinate c of
    A(a, c) · B(c, b).  Only a re-indexing of the finite sum: the contraction's one-axis index is its coordinate. -/
theorem contr_sum {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    (∑ κ : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) κ)
          * B ((⟨[1], [0], [0], [1], [], [], w⟩ : DotDims ⟨2, ![m, k]⟩ ⟨2, ![k, n]⟩ ⟨2, ![m, n]⟩).rhsIdx (ix2 a b) κ))
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The closed form at one entry -/

/-- Two dense layers at one entry of the result, from the entry's row `a` of the left factor, the first weight
    matrix `w1` with its bias `c1`, and the entry's column `w2` of the second weight matrix with the entry's bias `c2`:
    max(∑ k2, max(∑ k1, a(k1) · w1(k1, k2) + c1(k2), 0) · w2(k2) + c2, 0). -/
def form (a : Fin 512 → EReal) (w1 : Fin 512 → Fin 512 → EReal) (c1 : Fin 512 → EReal) (w2 : Fin 512 → EReal)
    (c2 : EReal) : EReal :=
  max ((∑ k2 : Fin 512, max ((∑ k1 : Fin 512, a k1 * w1 k1 k2) + c1 k2) zeroW * w2 k2) + c2) zeroW

/-- The closed form depends on its five arguments entry by entry. -/
theorem form_congr {a a' : Fin 512 → EReal} {w1 w1' : Fin 512 → Fin 512 → EReal} {c1 c1' : Fin 512 → EReal}
    {w2 w2' : Fin 512 → EReal} {c2 c2' : EReal}
    (h0 : ∀ k, a k = a' k) (h1 : ∀ k1 k2, w1 k1 k2 = w1' k1 k2) (h2 : ∀ k, c1 k = c1' k) (h3 : ∀ k, w2 k = w2' k)
    (h4 : c2 = c2') : form a w1 c1 w2 c2 = form a' w1' c1' w2' c2' := by
  obtain rfl : a = a' := funext h0
  obtain rfl : w1 = w1' := funext fun k1 => funext (h1 k1)
  obtain rfl : c1 = c1' := funext h2
  obtain rfl : w2 = w2' := funext h3
  subst h4; rfl

/-! ## The body on a block of 1000 rows -/

/-- One dense layer of the body: the block times the weight matrix into a zero accumulator, the bias row repeated
    down the rows added, then max(·, 0). -/
def layerPay (X : FVec Ideal S1000x512 .f32) (W : FVec Ideal S512x512 .f32) (r : FVec Ideal S1x512 .f32) :
    FVec Ideal S1000x512 .f32 :=
  maximumf (addf (matmul dot_S1000x512_S512x512_S1000x512_1_0_0_1_n_n none (truncf .bf16 X bitsLt_bf16_f32)
        (truncf .bf16 W bitsLt_bf16_f32) (constant S1000x512 .f32 0x00000000#32))
      (broadcastTo S1000x512 (shapeCast S1x512 r shapeCasts_S1x512_S1x512) broadcasts_S1x512_S1000x512))
    (broadcast S1000x512 (Scalar.ofBits (F := Ideal) .f32 0x00000000#32))

set_option maxHeartbeats 400000 in
/-- That layer at entry (p, q): max(∑ k, X(p, k) · W(k, q) + r(0, q), 0).  The change of format before the product
    is the identity on the extended reals. -/
theorem layerPay_apply (X : FVec Ideal S1000x512 .f32) (W : FVec Ideal S512x512 .f32) (r : FVec Ideal S1x512 .f32)
    (p : Fin 1000) (q : Fin 512) :
    layerPay X W r (ix2 p q) = max ((∑ k : Fin 512, X (ix2 p k) * W (ix2 k q)) + r (ix2 (0 : Fin 1) q)) zeroW := by
  unfold layerPay
  refine (maximumf_apply _ _ _).trans ?_
  refine congrArg₂ max ?_ rfl
  refine (addf_apply _ _ _).trans ?_
  refine congrArg₂ (· + ·) ?_ ?_
  · refine (Ideal.matmul_constant_zero_apply _ none _ _ (ix2 p q)).trans ?_
    exact contr_sum _ (truncf .bf16 X bitsLt_bf16_f32) (truncf .bf16 W bitsLt_bf16_f32) p q
  · refine (broadcastTo_1b_ab_apply _ _ p q).trans ?_
    exact congrFun (shapeCast_self r _) _

/-- The body's payload is the two layers, one after the other. -/
theorem pay_eq (x0 : Vec Ideal S1000x512 .f32) (x1 : Vec Ideal S512x512 .f32) (x2 : Vec Ideal S1x512 .f32)
    (x3 : Vec Ideal S512x512 .f32) (x4 : Vec Ideal S1x512 .f32) :
    k3_pay1 x0 x1 x2 x3 x4
      = layerPay (layerPay (shapeCast S1000x512 x0 shapeCasts_S1000x512_S1000x512) x1 x2) x3 x4 := rfl

set_option maxHeartbeats 400000 in
/-- The payload at entry (p, q) of the block is the closed form of row p of the first block. -/
theorem pay_apply (x0 : Vec Ideal S1000x512 .f32) (x1 : Vec Ideal S512x512 .f32) (x2 : Vec Ideal S1x512 .f32)
    (x3 : Vec Ideal S512x512 .f32) (x4 : Vec Ideal S1x512 .f32) (p : Fin 1000) (q : Fin 512) :
    k3_pay1 x0 x1 x2 x3 x4 (ix2 p q)
      = form (fun k => x0 (ix2 p k)) (fun k1 k2 => x1 (ix2 k1 k2)) (fun k => x2 (ix2 (0 : Fin 1) k))
          (fun k => x3 (ix2 k q)) (x4 (ix2 (0 : Fin 1) q)) := by
  rw [pay_eq, layerPay_apply]
  unfold form
  refine congrArg₂ max (congrArg₂ (· + ·) (Finset.sum_congr rfl fun k2 _ => ?_) rfl) rfl
  rw [layerPay_apply, shapeCast_self]

/-! ## The specification at one entry -/

/-- max(X, 0) at an entry. -/
theorem relu_apply (X : Cert.Spec.FN) (i : Cert.ReferenceIdeal.S50000x512.Idx) :
    Cert.Spec.relu X i = max (X i) zeroW := by
  unfold Cert.Spec.relu
  refine (maximumf_apply _ _ _).trans ?_
  exact congrArg (max (X i)) (broadcastInDim_scalar_apply _ _ i)

set_option maxHeartbeats 400000 in
/-- (X · W) + b at entry (r, q): ∑ k, X(r, k) · W(k, q) + b(q). -/
theorem dense2_apply (X : Cert.Spec.FN) (W : Cert.Spec.FW) (b : Cert.Spec.FB) (r : Fin 50000) (q : Fin 512) :
    Cert.Spec.dense2 X W b (ix2 r q) = (∑ k : Fin 512, X (ix2 r k) * W (ix2 k q)) + b (ix1 q) := by
  unfold Cert.Spec.dense2
  refine (addf_apply _ _ _).trans ?_
  refine congrArg₂ (· + ·) ?_ ?_
  · refine (Ideal.dotGeneral_apply _ none _ X W (ix2 r q)).trans ?_
    exact contr_sum _ X W r q
  · unfold Cert.Spec.rowB
    refine (broadcastInDim_oneRow_apply _ _ r q).trans ?_
    refine broadcastInDim_apply ![1] _ b (ix2 (0 : Fin 1) q) (ix1 q) fun a => ?_
    match a with
    | ⟨0, _⟩ =>
      show q.val = if (512 : ℕ) = 1 then 0 else q.val
      rw [if_neg (by decide)]

set_option maxHeartbeats 400000 in
/-- The two dense layers of the specification at entry (r, q): the closed form of row r of A. -/
theorem mlp3_apply (A : Cert.Spec.FN) (W1 : Cert.Spec.FW) (b1 : Cert.Spec.FB) (W2 : Cert.Spec.FW) (b2 : Cert.Spec.FB)
    (r : Fin 50000) (q : Fin 512) :
    Cert.Spec.mlp3 A W1 b1 W2 b2 (ix2 r q)
      = form (fun k => A (ix2 r k)) (fun k1 k2 => W1 (ix2 k1 k2)) (fun k => b1 (ix1 k)) (fun k => W2 (ix2 k q))
          (b2 (ix1 q)) := by
  unfold Cert.Spec.mlp3
  rw [relu_apply, dense2_apply]
  unfold form
  refine congrArg₂ max (congrArg₂ (· + ·) (Finset.sum_congr rfl fun k2 _ => ?_) rfl) rfl
  rw [relu_apply, dense2_apply]

end R3

namespace R3

/-! ## From blocks to the array

Point t of the 50 stages rows [1000 t, 1000 t + 1000) of the left factor and writes back the same rows of the result;
the two weight matrices and the two bias rows are staged whole at every point. -/

theorem hz : (![0, 0] : Fin 2 → Nat) = fun _ => 0 := funext fun a => by fin_cases a <;> rfl

/-- The block indices over the grid: the left factor's and the result's block at point t is (t, 0); the weight
    matrices' and the bias rows' is (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the block at point t is row 1000 t + p of the array. -/
def rowAt (t : Fin cfg3.N) (p : Fin 1000) : Fin 50000 :=
  ⟨1000 * t.val + p.val, by have h : t.val < 50 := lt_of_lt_of_eq t.isLt N_3; have hp := p.isLt; omega⟩

/-- The left factor's block at point t: rows 1000 t … of the array the region finds. -/
theorem blk0 (t : Fin cfg3.N) (p : Fin 1000) (k : Fin 512) :
    (iblk3 V c 0 t : Vec Ideal S1000x512 .f32) (ix2 p k) = (V c main_v40 : S50000x512.Idx → EReal) (ix2 (rowAt t p) k) := by
  obtain ⟨e0, e1, -⟩ := idx_facts t
  unfold iblk3
  rw [View.read_apply]
  show V c main_v40 _ = V c main_v40 _
  refine congrArg (V c main_v40) (funext fun a => Fin.ext ?_)
  match a with
  | ⟨0, _⟩ => show win3_0.index t (0 : Fin 2) * 1000 + 1 * p.val = 1000 * t.val + p.val; rw [e0]; omega
  | ⟨1, _⟩ => show win3_0.index t (1 : Fin 2) * 512 + 1 * k.val = k.val; rw [e1]; omega

/-- The first weight matrix's block at every point is the whole matrix. -/
theorem blk1 (t : Fin cfg3.N) (k1 k2 : Fin 512) :
    (iblk3 V c 1 t : Vec Ideal S512x512 .f32) (ix2 k1 k2) = (V c main_arg10 : S512x512.Idx → EReal) (ix2 k1 k2) := by
  obtain ⟨-, -, e0, e1, -⟩ := idx_facts t
  unfold iblk3
  rw [View.read_apply]
  show V c main_arg10 _ = V c main_arg10 _
  refine congrArg (V c main_arg10) (funext fun a => Fin.ext ?_)
  match a with
  | ⟨0, _⟩ => show win3_1.index t (0 : Fin 2) * 512 + 1 * k1.val = k1.val; rw [e0]; omega
  | ⟨1, _⟩ => show win3_1.index t (1 : Fin 2) * 512 + 1 * k2.val = k2.val; rw [e1]; omega

/-- The first bias row's block at every point is the whole row. -/
theorem blk2 (t : Fin cfg3.N) (k : Fin 512) :
    (iblk3 V c 2 t : Vec Ideal S1x512 .f32) (ix2 (0 : Fin 1) k) = (V c main_v41 : S1x512.Idx → EReal) (ix2 (0 : Fin 1) k) := by
  obtain ⟨-, -, -, -, e0, e1, -⟩ := idx_facts t
  unfold iblk3
  rw [View.read_apply]
  show V c main_v41 _ = V c main_v41 _
  refine congrArg (V c main_v41) (funext fun a => Fin.ext ?_)
  match a with
  | ⟨0, _⟩ => show win3_2.index t (0 : Fin 2) * 1 + 1 * 0 = 0; rw [e0]
  | ⟨1, _⟩ => show win3_2.index t (1 : Fin 2) * 512 + 1 * k.val = k.val; rw [e1]; omega

/-- The second weight matrix's block at every point is the whole matrix. -/
theorem blk3 (t : Fin cfg3.N) (k1 k2 : Fin 512) :
    (iblk3 V c 3 t : Vec Ideal S512x512 .f32) (ix2 k1 k2) = (V c main_arg12 : S512x512.Idx → EReal) (ix2 k1 k2) := by
  obtain ⟨-, -, -, -, -, -, e0, e1, -⟩ := idx_facts t
  unfold iblk3
  rw [View.read_apply]
  show V c main_arg12 _ = V c main_arg12 _
  refine congrArg (V c main_arg12) (funext fun a => Fin.ext ?_)
  match a with
  | ⟨0, _⟩ => show win3_3.index t (0 : Fin 2) * 512 + 1 * k1.val = k1.val; rw [e0]; omega
  | ⟨1, _⟩ => show win3_3.index t (1 : Fin 2) * 512 + 1 * k2.val = k2.val; rw [e1]; omega

/-- The second bias row's block at every point is the whole row. -/
theorem blk4 (t : Fin cfg3.N) (k : Fin 512) :
    (iblk3 V c 4 t : Vec Ideal S1x512 .f32) (ix2 (0 : Fin 1) k) = (V c main_v42 : S1x512.Idx → EReal) (ix2 (0 : Fin 1) k) := by
  obtain ⟨-, -, -, -, -, -, -, -, e0, e1, -⟩ := idx_facts t
  unfold iblk3
  rw [View.read_apply]
  show V c main_v42 _ = V c main_v42 _
  refine congrArg (V c main_v42) (funext fun a => Fin.ext ?_)
  match a with
  | ⟨0, _⟩ => show win3_4.index t (0 : Fin 2) * 1 + 1 * 0 = 0; rw [e0]
  | ⟨1, _⟩ => show win3_4.index t (1 : Fin 2) * 512 + 1 * k.val = k.val; rw [e1]; omega

/-- Entry (p, q) of the result's block at point t sits at (1000 t + p, q) of the array. -/
theorem emb5 (t : Fin cfg3.N) (p : Fin 1000) (q : Fin 512) :
    (((cfg3.win 5).blk t).view.emb (ix2 p q) : S50000x512.Idx) = ix2 (rowAt t p) q := by
  obtain ⟨-, -, -, -, -, -, -, -, -, -, e0, e1⟩ := idx_facts t
  funext a; apply Fin.ext
  match a with
  | ⟨0, _⟩ => show win3_5.index t (0 : Fin 2) * 1000 + 1 * p.val = 1000 * t.val + p.val; rw [e0]; omega
  | ⟨1, _⟩ => show win3_5.index t (1 : Fin 2) * 512 + 1 * q.val = q.val; rw [e1]; omega

set_option maxHeartbeats 400000 in
/-- What point t writes back is block t of the specification's two dense layers of the arrays the region finds. -/
theorem flushed_eq (b1 b2 : Cert.Spec.FB)
    (hb1 : ∀ q : Fin 512, V c main_v41 (ix2 (0 : Fin 1) q) = b1 (ix1 q))
    (hb2 : ∀ q : Fin 512, V c main_v42 (ix2 (0 : Fin 1) q) = b2 (ix1 q)) (t : Fin cfg3.N) :
    (dat3 (F := Ideal) V c).flushed 5 t
      = ((cfg3.win 5).blk t).view.read (Elt Ideal)
          (Cert.Spec.mlp3 (V c main_v40) (V c main_arg10) b1 (V c main_arg12) b2) := by
  show (cfg3.win 5).cut (grid3.coords t) ((dat3 (F := Ideal) V c).after 5 t) = _
  rw [after3_5]
  unfold out3_5
  rw [View.canon_unit_zero hz]
  simp only [View.ld_unit_zero (S := S1000x512) hz, View.ld_unit_zero (S := S512x512) hz,
    View.ld_unit_zero (S := S1x512) hz]
  funext j
  obtain ⟨p, q, rfl⟩ : ∃ (p : Fin 1000) (q : Fin 512), j = ix2 p q := ⟨j 0, j 1, eq_ix2 j⟩
  have hx : (cfg3.win 5).xinj (grid3.coords t) (ix2 p q) = (ix2 p q : S1000x512.Idx) := by
    funext a; match a with | ⟨0, _⟩ => rfl | ⟨1, _⟩ => rfl
  refine (congrArg (k3_pay1 (iblk3 V c 0 t) (iblk3 V c 1 t) (iblk3 V c 2 t) (iblk3 V c 3 t) (iblk3 V c 4 t)) hx).trans ?_
  refine (pay_apply (iblk3 V c 0 t) (iblk3 V c 1 t) (iblk3 V c 2 t) (iblk3 V c 3 t) (iblk3 V c 4 t) p q).trans ?_
  rw [View.read_apply]
  show _ = Cert.Spec.mlp3 (V c main_v40) (V c main_arg10) b1 (V c main_arg12) b2
      (((cfg3.win 5).blk t).view.emb (ix2 p q))
  rw [emb5 t p q, mlp3_apply]
  exact form_congr (fun k => blk0 V c t p k) (fun k1 k2 => blk1 V c t k1 k2)
    (fun k => (blk2 V c t k).trans (hb1 k)) (fun k => blk3 V c t k q) ((blk4 V c t q).trans (hb2 q))

/-- An index of the array is in point t's block iff each coordinate is in the block's range on its axis. -/
theorem mem_blk (t : Fin cfg3.N) (i : S50000x512.Idx) :
    i ∈ ((cfg3.win 5).blk t).view.set ↔ ∀ a : Fin 2, win3_5.index t a * S1000x512.size a ≤ (i a).val
      ∧ (i a).val < win3_5.index t a * S1000x512.size a + S1000x512.size a := by
  show i ∈ ((View.whole main_v43).slice (win3_5.rect t)).set ↔ _
  rw [View.set_slice_whole, Rect.mem_set_unit]
  exact Iff.rfl

/-- Every row r of the array is in the block of the point r / 1000, and every point writes its block back. -/
theorem cover (i : S50000x512.Idx) :
    ∃ t : Fin cfg3.N, (cfg3.win 5).flush t = true ∧ i ∈ ((cfg3.win 5).blk t).view.set := by
  have hi0 : (i 0).val < 50000 := (i 0).isLt
  have hi1 : (i 1).val < 512 := (i 1).isLt
  have ht : (i 0).val / 1000 < cfg3.N := by rw [show cfg3.N = 50 from N_3]; omega
  obtain ⟨-, -, -, -, -, -, -, -, -, -, e0, e1⟩ := idx_facts ⟨(i 0).val / 1000, ht⟩
  refine ⟨⟨(i 0).val / 1000, ht⟩, flush3_5 _, ?_⟩
  rw [mem_blk]
  intro a
  match a with
  | ⟨0, _⟩ =>
    show win3_5.index ⟨(i 0).val / 1000, ht⟩ (0 : Fin 2) * 1000 ≤ (i 0).val
      ∧ (i 0).val < win3_5.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win3_5.index ⟨(i 0).val / 1000, ht⟩ (1 : Fin 2) * 512 ≤ (i 1).val
      ∧ (i 1).val < win3_5.index ⟨(i 0).val / 1000, ht⟩ (1 : Fin 2) * 512 + 512
    rw [e1]; omega

end R3

/-- REGION 3: after the 50 points the result array holds the specification's two dense layers, each followed by
    max(·, 0), of the arrays the region finds: every row of the result is written by exactly the point whose
    block holds it, from that row of the left factor and the whole weight matrices and bias rows. -/
theorem region3 (b1 b2 : Cert.Spec.FB)
    (hb1 : ∀ q : Fin 512, V c main_v41 (ix2 (0 : Fin 1) q) = b1 (ix1 q))
    (hb2 : ∀ q : Fin 512, V c main_v42 (ix2 (0 : Fin 1) q) = b2 (ix1 q)) :
    (dat3 (F := Ideal) V c).arrAt 5 cfg3.N = Cert.Spec.mlp3 (V c main_v40) (V c main_arg10) b1 (V c main_arg12) b2 :=
  (dat3 (F := Ideal) V c).arrAt_eq_of_cover 5 _ (fun t _ => R3.flushed_eq V c b1 b2 hb1 hb2 t) R3.cover

end Cert.KValue
end
-- ==== Proof.Region4.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

namespace R4

open scoped BigOperators

/-! ## A plain matrix product read at an index

The contraction of an M×K by a K×N product (left operand contracted on its columns, right operand on
its rows, no batch axis) is the sum over the one contracted coordinate of the entries' products. -/

/-- The dimension numbers of a plain product, over any shapes' well-formedness fact. -/
abbrev plainRec {M K N : Nat} (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

set_option maxHeartbeats 400000 in
theorem plainDot_sum {M K N : Nat} (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    (∑ k : (plainRec w).contr.Idx, A ((plainRec w).lhsIdx (ix2 a b) k) * B ((plainRec w).rhsIdx (ix2 a b) k))
      = ∑ c : Fin K, A (ix2 a c) * B (ix2 c b) := by
  rw [← Equiv.sum_comp (contrEquiv1 (plainRec w) K rfl rfl).symm]
  refine Finset.sum_congr rfl fun c _ => ?_
  have c2 := contrEquiv1_symm_val (plainRec w) K rfl rfl c
  have l2 : (plainRec w).lhsIdx (ix2 a b) ((contrEquiv1 _ K rfl rfl).symm c) = ix2 a c := by
    funext ax; apply Fin.ext
    match ax with
    | ⟨0, _⟩ => simp [DotDims.lhsIdx, plainRec]; rfl
    | ⟨1, _⟩ => simp [DotDims.lhsIdx, plainRec]; exact c2
  have r2 : (plainRec w).rhsIdx (ix2 a b) ((contrEquiv1 _ K rfl rfl).symm c) = ix2 c b := by
    funext ax; apply Fin.ext
    match ax with
    | ⟨0, _⟩ => simp [DotDims.rhsIdx, plainRec]; exact c2
    | ⟨1, _⟩ => simp [DotDims.rhsIdx, plainRec]; rfl
  rw [l2, r2]

/-! ## One row of the result as a function of one row of the inputs

Every entry of the result depends on one row of the features X and of the residual R, on the six
rows mu, var, gamma, beta, b1, b2, and on the two weight matrices. -/

/-- The normalisation of one row: ((x - mu) · rsqrt(var + eps)) · gamma + beta, entry by entry. -/
def bnRow (x mu var g b : Fin 512 → EReal) (k : Fin 512) : EReal :=
  ((x k - mu k) * Ideal.rsqrt (var k + Ideal.ofBits .f32 0x3727C5AC#32)) * g k + b k

/-- One row through a dense layer: x · W + b. -/
def denseRow (x : Fin 512 → EReal) (W : Fin 512 → Fin 512 → EReal) (b : Fin 512 → EReal) (q : Fin 512) : EReal :=
  (∑ k : Fin 512, x k * W k q) + b q

/-- One row of the whole stage: the normalisation, a dense layer with max(·, 0), a dense layer, plus
    the residual row. -/
def outRow (x mu var g b : Fin 512 → EReal) (W1 : Fin 512 → Fin 512 → EReal) (b1 : Fin 512 → EReal)
    (W2 : Fin 512 → Fin 512 → EReal) (b2 R : Fin 512 → EReal) (q : Fin 512) : EReal :=
  denseRow (fun k => max (denseRow (bnRow x mu var g b) W1 b1 k) (Ideal.ofBits .f32 0x00000000#32)) W2 b2 q + R q

/-! ## The kernel's block arithmetic read at an index -/

set_option maxHeartbeats 400000 in
/-- A block through a dense layer on the matrix unit: both operands narrowed to bf16 (the identity on
    extended reals), multiplied into a zero accumulator, a 1×512 row added to every row. -/
theorem kdense_apply (A : FVec Ideal S1000x512 .f32) (W : FVec Ideal S512x512 .f32) (brow : FVec Ideal S1x512 .f32)
    (p : Fin 1000) (q : Fin 512) :
    addf (matmul dot_S1000x512_S512x512_S1000x512_1_0_0_1_n_n none (truncf .bf16 A bitsLt_bf16_f32)
          (truncf .bf16 W bitsLt_bf16_f32) (constant S1000x512 .f32 0x00000000#32))
        (broadcastTo S1000x512 brow broadcasts_S1x512_S1000x512) (ix2 p q)
      = (∑ k : Fin 512, A (ix2 p k) * W (ix2 k q)) + brow (ix2 (0 : Fin 1) q) :=
  congrArg₂ (· + ·)
    ((Ideal.matmul_constant_zero_apply dot_S1000x512_S512x512_S1000x512_1_0_0_1_n_n none
        (truncf .bf16 A bitsLt_bf16_f32) (truncf .bf16 W bitsLt_bf16_f32) (ix2 p q)).trans
      (plainDot_sum (dot_S1000x512_S512x512_S1000x512_1_0_0_1_n_n).wf A W p q))
    (broadcastTo_1b_ab_apply brow broadcasts_S1x512_S1000x512 p q)

set_option maxHeartbeats 400000 in
/-- The block's normalisation at an index. -/
theorem kbn_apply (x0 : FVec Ideal S1000x512 .f32) (x1 x2 x3 x4 : FVec Ideal S1x512 .f32) (p : Fin 1000) (k : Fin 512) :
    addf (mulf (mulf (subf x0 (broadcastTo S1000x512 x1 broadcasts_S1x512_S1000x512))
          (broadcastTo S1000x512 (rsqrt (addf x2 (broadcast S1x512 (Scalar.ofBits (F := Ideal) .f32 0x3727C5AC#32)))) broadcasts_S1x512_S1000x512))
        (broadcastTo S1000x512 x3 broadcasts_S1x512_S1000x512)) (broadcastTo S1000x512 x4 broadcasts_S1x512_S1000x512) (ix2 p k)
      = bnRow (fun k => x0 (ix2 p k)) (fun k => x1 (ix2 (0 : Fin 1) k)) (fun k => x2 (ix2 (0 : Fin 1) k))
          (fun k => x3 (ix2 (0 : Fin 1) k)) (fun k => x4 (ix2 (0 : Fin 1) k)) k := by
  show ((x0 (ix2 p k) - broadcastTo S1000x512 x1 broadcasts_S1x512_S1000x512 (ix2 p k))
      * broadcastTo S1000x512 (rsqrt (addf x2 (broadcast S1x512 (Scalar.ofBits (F := Ideal) .f32 0x3727C5AC#32)))) broadcasts_S1x512_S1000x512 (ix2 p k))
      * broadcastTo S1000x512 x3 broadcasts_S1x512_S1000x512 (ix2 p k)
      + broadcastTo S1000x512 x4 broadcasts_S1x512_S1000x512 (ix2 p k) = _
  rw [broadcastTo_1b_ab_apply, broadcastTo_1b_ab_apply, broadcastTo_1b_ab_apply, broadcastTo_1b_ab_apply]
  rfl

set_option maxHeartbeats 400000 in
/-- THE BODY'S RESULT AT AN INDEX of its block: one row of the stage, of the rows of its loaded blocks. -/
theorem payload_apply (x0 x9 : Vec Ideal S1000x512 .f32) (x1 x2 x3 x4 x6 x8 : Vec Ideal S1x512 .f32)
    (x5 x7 : Vec Ideal S512x512 .f32) (p : Fin 1000) (q : Fin 512) :
    k4_pay1 (k4_pay2 x0 x1 x2 x3 x4 x5 x6 x7) (k4_pay3 x8) x9 (ix2 p q)
      = outRow (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun k k' => x5 (ix2 k k'))
          (fun k => x6 (ix2 (0 : Fin 1) k)) (fun k k' => x7 (ix2 k k')) (fun k => x8 (ix2 (0 : Fin 1) k))
          (fun k => x9 (ix2 p k)) q := by
  unfold k4_pay1 k4_pay2 k4_pay3
  simp only [shapeCast_self]
  refine (congrArg (· + x9 (ix2 p q)) (kdense_apply _ x7 x8 p q)).trans ?_
  unfold outRow denseRow
  refine congrArg (· + x9 (ix2 p q)) (congrArg (· + x8 (ix2 (0 : Fin 1) q))
    (Finset.sum_congr rfl fun k _ => congrArg (· * x7 (ix2 k q)) ?_))
  refine (congrArg (max · (Ideal.ofBits .f32 0x00000000#32)) (kdense_apply _ x5 x6 p k)).trans ?_
  refine congrArg (fun z => max (z + x6 (ix2 (0 : Fin 1) k)) (Ideal.ofBits .f32 0x00000000#32))
    (Finset.sum_congr rfl fun k' _ => congrArg (· * x5 (ix2 k' k)) ?_)
  exact kbn_apply x0 x1 x2 x3 x4 p k'

/-! ## The specification read at an index -/

/-- A row of 512 repeated down the rows reads, at (r, q), the row's entry q. -/
theorem rowB_apply (b : Cert.Spec.FB) (r : Fin 50000) (q : Fin 512) : Cert.Spec.rowB b (ix2 r q) = b (ix1 q) := by
  unfold Cert.Spec.rowB
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

set_option maxHeartbeats 400000 in
/-- A dense layer of the specification at an index: the sum over the contracted coordinate plus the bias. -/
theorem sdense_apply (X : Cert.Spec.FN) (W : Cert.Spec.FW) (b : Cert.Spec.FB) (r : Fin 50000) (q : Fin 512) :
    Cert.Spec.dense2 X W b (ix2 r q) = (∑ k : Fin 512, X (ix2 r k) * W (ix2 k q)) + b (ix1 q) :=
  congrArg₂ (· + ·)
    ((Ideal.dotGeneral_apply Cert.ReferenceIdeal.dot_S50000x512_S512x512_S50000x512_1_0_0_1_n_n none .single X W (ix2 r q)).trans
      (plainDot_sum (Cert.ReferenceIdeal.dot_S50000x512_S512x512_S50000x512_1_0_0_1_n_n).wf X W r q))
    (rowB_apply b r q)

set_option maxHeartbeats 400000 in
/-- The specification's normalisation at an index. -/
theorem sbn_apply (X : Cert.Spec.FN) (mu var g b : Cert.Spec.FB) (r : Fin 50000) (k : Fin 512) :
    Cert.Spec.bnorm X mu var g b (ix2 r k)
      = bnRow (fun k => X (ix2 r k)) (fun k => mu (ix1 k)) (fun k => var (ix1 k)) (fun k => g (ix1 k)) (fun k => b (ix1 k)) k := by
  unfold Cert.Spec.bnorm
  show ((X (ix2 r k) - Cert.Spec.rowB mu (ix2 r k)) * Cert.Spec.rowB _ (ix2 r k)) * Cert.Spec.rowB g (ix2 r k) + Cert.Spec.rowB b (ix2 r k) = _
  rw [rowB_apply, rowB_apply, rowB_apply, rowB_apply]
  rfl

set_option maxHeartbeats 400000 in
/-- THE SPECIFICATION AT AN INDEX: the same row function of row r of X and R. -/
theorem spec_apply (X R : Cert.Spec.FN) (mu var g b b1 b2 : Cert.Spec.FB) (W1 W2 : Cert.Spec.FW) (r : Fin 50000) (q : Fin 512) :
    Cert.Spec.bnLinLin X mu var g b W1 b1 W2 b2 R (ix2 r q)
      = outRow (fun k => X (ix2 r k)) (fun k => mu (ix1 k)) (fun k => var (ix1 k)) (fun k => g (ix1 k)) (fun k => b (ix1 k))
          (fun k k' => W1 (ix2 k k')) (fun k => b1 (ix1 k)) (fun k k' => W2 (ix2 k k')) (fun k => b2 (ix1 k))
          (fun k => R (ix2 r k)) q := by
  unfold Cert.Spec.bnLinLin
  show Cert.Spec.dense2 _ W2 b2 (ix2 r q) + R (ix2 r q) = _
  rw [sdense_apply]
  unfold outRow denseRow
  refine congrArg (· + R (ix2 r q)) (congrArg (· + b2 (ix1 q)) (Finset.sum_congr rfl fun k _ => congrArg (· * W2 (ix2 k q)) ?_))
  show max (Cert.Spec.dense2 _ W1 b1 (ix2 r k)) (Ideal.ofBits .f32 0x00000000#32) = _
  rw [sdense_apply]
  refine congrArg (fun z => max (z + b1 (ix1 k)) (Ideal.ofBits .f32 0x00000000#32)) (Finset.sum_congr rfl fun k' _ => congrArg (· * W1 (ix2 k' k)) ?_)
  exact sbn_apply X mu var g b r k'

/-- The row function depends on its arguments entry by entry. -/
theorem outRow_congr {x x' mu mu' var var' g g' b b' b1 b1' b2 b2' R R' : Fin 512 → EReal}
    {W1 W1' W2 W2' : Fin 512 → Fin 512 → EReal} (q : Fin 512)
    (hx : ∀ k, x k = x' k) (hmu : ∀ k, mu k = mu' k) (hvar : ∀ k, var k = var' k) (hg : ∀ k, g k = g' k)
    (hb : ∀ k, b k = b' k) (hW1 : ∀ k k', W1 k k' = W1' k k') (hb1 : ∀ k, b1 k = b1' k)
    (hW2 : ∀ k k', W2 k k' = W2' k k') (hb2 : ∀ k, b2 k = b2' k) (hR : ∀ k, R k = R' k) :
    outRow x mu var g b W1 b1 W2 b2 R q = outRow x' mu' var' g' b' W1' b1' W2' b2' R' q := by
  obtain rfl : x = x' := funext hx
  obtain rfl : mu = mu' := funext hmu
  obtain rfl : var = var' := funext hvar
  obtain rfl : g = g' := funext hg
  obtain rfl : b = b' := funext hb
  obtain rfl : W1 = W1' := funext fun k => funext (hW1 k)
  obtain rfl : b1 = b1' := funext hb1
  obtain rfl : W2 = W2' := funext fun k => funext (hW2 k)
  obtain rfl : b2 = b2' := funext hb2
  obtain rfl : R = R' := funext hR
  rfl

/-! ## From blocks to the array

Point t of the grid stages rows [1000 t, 1000 t + 1000) of the features and of the residual, the whole
of every other input, and writes back rows [1000 t, 1000 t + 1000) of the result. -/

theorem hz : (![0, 0] : Fin 2 → Nat) = fun _ => 0 := funext fun a => by fin_cases a <;> rfl

/-- The printed index maps over the grid: the features, the residual and the result are at block (t, 0)
    at point t; the normalisation's four rows, the two bias rows and the two weight matrices at block (0, 0). -/
theorem idx_facts : ∀ t : Fin cfg4.N,
    (win4_0.index t (0 : Fin 2) = t.val ∧ win4_0.index t (1 : Fin 2) = 0)
    ∧ (win4_9.index t (0 : Fin 2) = t.val ∧ win4_9.index t (1 : Fin 2) = 0)
    ∧ (win4_10.index t (0 : Fin 2) = t.val ∧ win4_10.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

set_option maxHeartbeats 400000 in
/-- The features' block at point t is rows 1000 t … 1000 t + 999 of their array. -/
theorem blkX_apply (t : Fin cfg4.N) (p : Fin 1000) (k : Fin 512) (r : Fin 50000) (hr : r.val = t.val * 1000 + p.val) :
    (iblk4 (F := Ideal) V c 0 t : Vec Ideal S1000x512 .f32) (ix2 p k) = (V c main_v43 : Vec Ideal S50000x512 .f32) (ix2 r k) := by
  obtain ⟨⟨e0, e1⟩, -⟩ := idx_facts t
  show V c main_v43 (((cfg4.win 0).blk t).view.emb (ix2 p k)) = V c main_v43 (ix2 r k)
  refine congrArg (V c main_v43) (funext fun a => Fin.ext ?_)
  match a with
  | ⟨0, _⟩ => show win4_0.index t (0 : Fin 2) * 1000 + 1 * p.val = r.val; omega
  | ⟨1, _⟩ => show win4_0.index t (1 : Fin 2) * 512 + 1 * k.val = k.val; omega

set_option maxHeartbeats 400000 in
/-- The residual's block at point t is rows 1000 t … 1000 t + 999 of its array. -/
theorem blkR_apply (t : Fin cfg4.N) (p : Fin 1000) (k : Fin 512) (r : Fin 50000) (hr : r.val = t.val * 1000 + p.val) :
    (iblk4 (F := Ideal) V c 9 t : Vec Ideal S1000x512 .f32) (ix2 p k) = (V c main_v24 : Vec Ideal S50000x512 .f32) (ix2 r k) := by
  obtain ⟨-, ⟨e0, e1⟩, -⟩ := idx_facts t
  show V c main_v24 (((cfg4.win 9).blk t).view.emb (ix2 p k)) = V c main_v24 (ix2 r k)
  refine congrArg (V c main_v24) (funext fun a => Fin.ext ?_)
  match a with
  | ⟨0, _⟩ => show win4_9.index t (0 : Fin 2) * 1000 + 1 * p.val = r.val; omega
  | ⟨1, _⟩ => show win4_9.index t (1 : Fin 2) * 512 + 1 * k.val = k.val; omega

set_option maxHeartbeats 400000 in
/-- A result block's element (p, q) at point t sits at row 1000 t + p, column q of the array. -/
theorem embOut (t : Fin cfg4.N) (p : Fin 1000) (q : Fin 512) (r : Fin 50000) (hr : r.val = t.val * 1000 + p.val) :
    (((cfg4.win 10).blk t).view.emb (ix2 p q) : S50000x512.Idx) = ix2 r q := by
  obtain ⟨-, -, ⟨e0, e1⟩, -⟩ := idx_facts t
  refine funext fun a => Fin.ext ?_
  match a with
  | ⟨0, _⟩ => show win4_10.index t (0 : Fin 2) * 1000 + 1 * p.val = r.val; omega
  | ⟨1, _⟩ => show win4_10.index t (1 : Fin 2) * 512 + 1 * q.val = q.val; omega

set_option maxHeartbeats 400000 in
/-- The means' window holds its whole 1 × 512 array at every point. -/
theorem blkMu_apply (t : Fin cfg4.N) (k : Fin 512) :
    (iblk4 (F := Ideal) V c 1 t : Vec Ideal S1x512 .f32) (ix2 (0 : Fin 1) k) = (V c main_v48 : Vec Ideal S1x512 .f32) (ix2 (0 : Fin 1) k) := by
  obtain ⟨-, -, -, ⟨e0, e1⟩, -⟩ := idx_facts t
  show V c main_v48 (((cfg4.win 1).blk t).view.emb (ix2 (0 : Fin 1) k)) = V c main_v48 (ix2 (0 : Fin 1) k)
  refine congrArg (V c main_v48) (funext fun a => Fin.ext ?_)
  match a with
  | ⟨0, _⟩ => show win4_1.index t (0 : Fin 2) * 1 + 1 * 0 = 0; omega
  | ⟨1, _⟩ => show win4_1.index t (1 : Fin 2) * 512 + 1 * k.val = k.val; omega

set_option maxHeartbeats 400000 in
/-- The variances' window holds its whole 1 × 512 array at every point. -/
theorem blkVar_apply (t : Fin cfg4.N) (k : Fin 512) :
    (iblk4 (F := Ideal) V c 2 t : Vec Ideal S1x512 .f32) (ix2 (0 : Fin 1) k) = (V c main_v49 : Vec Ideal S1x512 .f32) (ix2 (0 : Fin 1) k) := by
  obtain ⟨-, -, -, -, ⟨e0, e1⟩, -⟩ := idx_facts t
  show V c main_v49 (((cfg4.win 2).blk t).view.emb (ix2 (0 : Fin 1) k)) = V c main_v49 (ix2 (0 : Fin 1) k)
  refine congrArg (V c main_v49) (funext fun a => Fin.ext ?_)
  match a with
  | ⟨0, _⟩ => show win4_2.index t (0 : Fin 2) * 1 + 1 * 0 = 0; omega
  | ⟨1, _⟩ => show win4_2.index t (1 : Fin 2) * 512 + 1 * k.val = k.val; omega

set_option maxHeartbeats 400000 in
/-- The scales' window holds its whole 1 × 512 array at every point. -/
theorem blkGamma_apply (t : Fin cfg4.N) (k : Fin 512) :
    (iblk4 (F := Ideal) V c 3 t : Vec Ideal S1x512 .f32) (ix2 (0 : Fin 1) k) = (V c main_v50 : Vec Ideal S1x512 .f32) (ix2 (0 : Fin 1) k) := by
  obtain ⟨-, -, -, -, -, ⟨e0, e1⟩, -⟩ := idx_facts t
  show V c main_v50 (((cfg4.win 3).blk t).view.emb (ix2 (0 : Fin 1) k)) = V c main_v50 (ix2 (0 : Fin 1) k)
  refine congrArg (V c main_v50) (funext fun a => Fin.ext ?_)
  match a with
  | ⟨0, _⟩ => show win4_3.index t (0 : Fin 2) * 1 + 1 * 0 = 0; omega
  | ⟨1, _⟩ => show win4_3.index t (1 : Fin 2) * 512 + 1 * k.val = k.val; omega

set_option maxHeartbeats 400000 in
/-- The shifts' window holds its whole 1 × 512 array at every point. -/
theorem blkBeta_apply (t : Fin cfg4.N) (k : Fin 512) :
    (iblk4 (F := Ideal) V c 4 t : Vec Ideal S1x512 .f32) (ix2 (0 : Fin 1) k) = (V c main_v51 : Vec Ideal S1x512 .f32) (ix2 (0 : Fin 1) k) := by
  obtain ⟨-, -, -, -, -, -, ⟨e0, e1⟩, -⟩ := idx_facts t
  show V c main_v51 (((cfg4.win 4).blk t).view.emb (ix2 (0 : Fin 1) k)) = V c main_v51 (ix2 (0 : Fin 1) k)
  refine congrArg (V c main_v51) (funext fun a => Fin.ext ?_)
  match a with
  | ⟨0, _⟩ => show win4_4.index t (0 : Fin 2) * 1 + 1 * 0 = 0; omega
  | ⟨1, _⟩ => show win4_4.index t (1 : Fin 2) * 512 + 1 * k.val = k.val; omega

set_option maxHeartbeats 400000 in
/-- The first weight matrix's window holds the whole matrix at every point. -/
theorem blkW1_apply (t : Fin cfg4.N) (k k' : Fin 512) :
    (iblk4 (F := Ideal) V c 5 t : Vec Ideal S512x512 .f32) (ix2 k k') = (V c main_arg16 : Vec Ideal S512x512 .f32) (ix2 k k') := by
  obtain ⟨-, -, -, -, -, -, -, ⟨e0, e1⟩, -⟩ := idx_facts t
  show V c main_arg16 (((cfg4.win 5).blk t).view.emb (ix2 k k')) = V c main_arg16 (ix2 k k')
  refine congrArg (V c main_arg16) (funext fun a => Fin.ext ?_)
  match a with
  | ⟨0, _⟩ => show win4_5.index t (0 : Fin 2) * 512 + 1 * k.val = k.val; omega
  | ⟨1, _⟩ => show win4_5.index t (1 : Fin 2) * 512 + 1 * k'.val = k'.val; omega

set_option maxHeartbeats 400000 in
/-- The first bias row's window holds its whole 1 × 512 array at every point. -/
theorem blkB1_apply (t : Fin cfg4.N) (k : Fin 512) :
    (iblk4 (F := Ideal) V c 6 t : Vec Ideal S1x512 .f32) (ix2 (0 : Fin 1) k) = (V c main_v52 : Vec Ideal S1x512 .f32) (ix2 (0 : Fin 1) k) := by
  obtain ⟨-, -, -, -, -, -, -, -, ⟨e0, e1⟩, -⟩ := idx_facts t
  show V c main_v52 (((cfg4.win 6).blk t).view.emb (ix2 (0 : Fin 1) k)) = V c main_v52 (ix2 (0 : Fin 1) k)
  refine congrArg (V c main_v52) (funext fun a => Fin.ext ?_)
  match a with
  | ⟨0, _⟩ => show win4_6.index t (0 : Fin 2) * 1 + 1 * 0 = 0; omega
  | ⟨1, _⟩ => show win4_6.index t (1 : Fin 2) * 512 + 1 * k.val = k.val; omega

set_option maxHeartbeats 400000 in
/-- The second weight matrix's window holds the whole matrix at every point. -/
theorem blkW2_apply (t : Fin cfg4.N) (k k' : Fin 512) :
    (iblk4 (F := Ideal) V c 7 t : Vec Ideal S512x512 .f32) (ix2 k k') = (V c main_arg18 : Vec Ideal S512x512 .f32) (ix2 k k') := by
  obtain ⟨-, -, -, -, -, -, -, -, -, ⟨e0, e1⟩, -⟩ := idx_facts t
  show V c main_arg18 (((cfg4.win 7).blk t).view.emb (ix2 k k')) = V c main_arg18 (ix2 k k')
  refine congrArg (V c main_arg18) (funext fun a => Fin.ext ?_)
  match a with
  | ⟨0, _⟩ => show win4_7.index t (0 : Fin 2) * 512 + 1 * k.val = k.val; omega
  | ⟨1, _⟩ => show win4_7.index t (1 : Fin 2) * 512 + 1 * k'.val = k'.val; omega

set_option maxHeartbeats 400000 in
/-- The second bias row's window holds its whole 1 × 512 array at every point. -/
theorem blkB2_apply (t : Fin cfg4.N) (k : Fin 512) :
    (iblk4 (F := Ideal) V c 8 t : Vec Ideal S1x512 .f32) (ix2 (0 : Fin 1) k) = (V c main_v53 : Vec Ideal S1x512 .f32) (ix2 (0 : Fin 1) k) := by
  obtain ⟨-, -, -, -, -, -, -, -, -, -, ⟨e0, e1⟩⟩ := idx_facts t
  show V c main_v53 (((cfg4.win 8).blk t).view.emb (ix2 (0 : Fin 1) k)) = V c main_v53 (ix2 (0 : Fin 1) k)
  refine congrArg (V c main_v53) (funext fun a => Fin.ext ?_)
  match a with
  | ⟨0, _⟩ => show win4_8.index t (0 : Fin 2) * 1 + 1 * 0 = 0; omega
  | ⟨1, _⟩ => show win4_8.index t (1 : Fin 2) * 512 + 1 * k.val = k.val; omega

set_option maxHeartbeats 400000 in
/-- WHAT POINT t WRITES BACK is rows 1000 t … 1000 t + 999 of the specification's function of the arrays
    the region finds. -/
theorem flushed_eq (mu var g b b1 b2 : Cert.Spec.FB)
    (hmu : ∀ q : Fin 512, V c main_v48 (ix2 (0 : Fin 1) q) = mu (ix1 q))
    (hvar : ∀ q : Fin 512, V c main_v49 (ix2 (0 : Fin 1) q) = var (ix1 q))
    (hg : ∀ q : Fin 512, V c main_v50 (ix2 (0 : Fin 1) q) = g (ix1 q))
    (hb : ∀ q : Fin 512, V c main_v51 (ix2 (0 : Fin 1) q) = b (ix1 q))
    (hb1 : ∀ q : Fin 512, V c main_v52 (ix2 (0 : Fin 1) q) = b1 (ix1 q))
    (hb2 : ∀ q : Fin 512, V c main_v53 (ix2 (0 : Fin 1) q) = b2 (ix1 q)) (t : Fin cfg4.N) :
    (dat4 (F := Ideal) V c).flushed 10 t
      = ((cfg4.win 10).blk t).view.read (Elt Ideal)
          (Cert.Spec.bnLinLin (V c main_v43) mu var g b (V c main_arg16) b1 (V c main_arg18) b2 (V c main_v24)) := by
  show (cfg4.win 10).cut (grid4.coords t) ((dat4 (F := Ideal) V c).after 10 t) = _
  rw [after4_10]
  unfold out4_10
  rw [View.canon_unit_zero hz]
  simp only [View.ld_unit_zero (S := S1000x512) hz, View.ld_unit_zero (S := S1x512) hz, View.ld_unit_zero (S := S512x512) hz]
  funext j
  obtain ⟨p, q, rfl⟩ : ∃ (p : Fin 1000) (q : Fin 512), j = ix2 p q := ⟨j 0, j 1, eq_ix2 j⟩
  have hN : cfg4.N = 50 := N_4
  have ht : t.val < 50 := hN ▸ t.isLt
  obtain ⟨r, hr⟩ : ∃ r : Fin 50000, r.val = t.val * 1000 + p.val := ⟨⟨t.val * 1000 + p.val, by omega⟩, rfl⟩
  refine (payload_apply (iblk4 V c 0 t) (iblk4 V c 9 t) (iblk4 V c 1 t) (iblk4 V c 2 t) (iblk4 V c 3 t) (iblk4 V c 4 t)
    (iblk4 V c 6 t) (iblk4 V c 8 t) (iblk4 V c 5 t) (iblk4 V c 7 t) p q).trans ?_
  refine Eq.trans ?_ (congrArg (Cert.Spec.bnLinLin (V c main_v43) mu var g b (V c main_arg16) b1 (V c main_arg18) b2 (V c main_v24))
    (embOut t p q r hr)).symm
  refine Eq.trans ?_ (spec_apply (V c main_v43) (V c main_v24) mu var g b b1 b2 (V c main_arg16) (V c main_arg18) r q).symm
  exact outRow_congr q (fun k => blkX_apply V c t p k r hr)
    (fun k => (blkMu_apply V c t k).trans (hmu k)) (fun k => (blkVar_apply V c t k).trans (hvar k))
    (fun k => (blkGamma_apply V c t k).trans (hg k)) (fun k => (blkBeta_apply V c t k).trans (hb k))
    (fun k k' => blkW1_apply V c t k k') (fun k => (blkB1_apply V c t k).trans (hb1 k))
    (fun k k' => blkW2_apply V c t k k') (fun k => (blkB2_apply V c t k).trans (hb2 k))
    (fun k => blkR_apply V c t p k r hr)

/-- An index of the result array is in point t's block iff each coordinate is in the block's range. -/
theorem mem_blk (t : Fin cfg4.N) (i : S50000x512.Idx) :
    i ∈ ((cfg4.win 10).blk t).view.set ↔ ∀ a : Fin 2, win4_10.index t a * S1000x512.size a ≤ (i a).val
      ∧ (i a).val < win4_10.index t a * S1000x512.size a + S1000x512.size a := by
  show i ∈ ((View.whole main_v54).slice (win4_10.rect t)).set ↔ _
  rw [View.set_slice_whole, Rect.mem_set_unit]
  exact Iff.rfl

set_option maxHeartbeats 400000 in
/-- THE COVER: row r of the result array is written back by point r / 1000. -/
theorem cover (i : S50000x512.Idx) :
    ∃ t : Fin cfg4.N, (cfg4.win 10).flush t = true ∧ i ∈ ((cfg4.win 10).blk t).view.set := by
  have hi0 : (i 0).val < 50000 := idx2_lt0 i
  have hi1 : (i 1).val < 512 := idx2_lt1 i
  have hN : cfg4.N = 50 := N_4
  obtain ⟨t, ht⟩ : ∃ t : Fin cfg4.N, t.val = (i 0).val / 1000 := ⟨⟨(i 0).val / 1000, by rw [hN]; omega⟩, rfl⟩
  obtain ⟨-, -, ⟨e0, e1⟩, -⟩ := idx_facts t
  refine ⟨t, flush4_10 t, ?_⟩
  rw [mem_blk]
  intro a
  match a with
  | ⟨0, _⟩ =>
    show win4_10.index t (0 : Fin 2) * 1000 ≤ (i 0).val ∧ (i 0).val < win4_10.index t (0 : Fin 2) * 1000 + 1000
    omega
  | ⟨1, _⟩ =>
    show win4_10.index t (1 : Fin 2) * 512 ≤ (i 1).val ∧ (i 1).val < win4_10.index t (1 : Fin 2) * 512 + 512
    omega

end R4

/-- REGION 4: after the region the result array holds the specification's stage — the normalisation, a
    dense layer with max(·, 0), a dense layer, plus the residual — of the arrays the region finds. -/
theorem region4 (mu var g b b1 b2 : Cert.Spec.FB)
    (hmu : ∀ q : Fin 512, V c main_v48 (ix2 (0 : Fin 1) q) = mu (ix1 q))
    (hvar : ∀ q : Fin 512, V c main_v49 (ix2 (0 : Fin 1) q) = var (ix1 q))
    (hg : ∀ q : Fin 512, V c main_v50 (ix2 (0 : Fin 1) q) = g (ix1 q))
    (hb : ∀ q : Fin 512, V c main_v51 (ix2 (0 : Fin 1) q) = b (ix1 q))
    (hb1 : ∀ q : Fin 512, V c main_v52 (ix2 (0 : Fin 1) q) = b1 (ix1 q))
    (hb2 : ∀ q : Fin 512, V c main_v53 (ix2 (0 : Fin 1) q) = b2 (ix1 q)) :
    (dat4 (F := Ideal) V c).arrAt 10 cfg4.N
      = Cert.Spec.bnLinLin (V c main_v43) mu var g b (V c main_arg16) b1 (V c main_arg18) b2 (V c main_v24) :=
  (dat4 (F := Ideal) V c).arrAt_eq_of_cover 10 _
    (fun t _ => R4.flushed_eq V c mu var g b b1 b2 hmu hvar hg hb hb1 hb2 t) R4.cover

end Cert.KValue

end
-- ==== Proof.Region5.lean ====
import proofs.«178183_j60533269069967_1_alg».proof.Proof.Gen.KernelIdeal.Frame
import proofs.«178183_j60533269069967_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KValue
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b)) (c : Dev nD)

/-!
# The link-prediction stage: scores of the training edges

Rows of two gathered feature matrices HS and HD (100000 × 512 each) are multiplied entry by entry, the
product row is multiplied by the 512 × 7 weight matrix W, and the bias row b is added:

    out (r, q) = (∑ k < 512, HS (r, k) · HD (r, k) · W (k, q)) + b q.

The stage runs over 50 grid points; point t holds rows 2000·t … 2000·t + 1999 of HS, of HD and of the
result, the whole of W and the whole bias row.  Every row of the result depends on the same row of HS and
HD only, so the result row by row is one function of the entry arrays.
-/

namespace R5

/-- The zero offsets of a block that is loaded and stored whole. -/
theorem zeroOff : (![0, 0] : Fin 2 → Nat) = fun _ => 0 := funext fun a => by fin_cases a <;> rfl

/-! ## The two products' dimension numbers: rows × contraction times contraction × columns -/

/-- The block product: 2000 × 512 by 512 × 7. -/
abbrev dBlk : DotDims S2000x512 S512x7 S2000x7 := dot_S2000x512_S512x7_S2000x7_1_0_0_1_n_n
/-- The whole-array product: 100000 × 512 by 512 × 7. -/
abbrev dArr : DotDims Cert.ReferenceIdeal.S100000x512 Cert.ReferenceIdeal.S512x7 Cert.ReferenceIdeal.S100000x7 :=
  Cert.ReferenceIdeal.dot_S100000x512_S512x7_S100000x7_1_0_0_1_n_n

/-- The left factor's row is the result's row … -/
theorem blkL0 (i : S2000x7.Idx) (s : dBlk.contr.Idx) : (dBlk.lhsIdx i s 0).val = (i 0).val := by
  unfold DotDims.lhsIdx
  rw [dif_neg (show ¬(0 : Fin S2000x512.rank) ∈ dBlk.lhsBatch by decide),
    dif_pos (show (0 : Fin S2000x512.rank) ∈ dBlk.lhsNonContracting by decide)]
  rfl
/-- … and its column the contraction position. -/
theorem blkL1 (i : S2000x7.Idx) (s : dBlk.contr.Idx) : (dBlk.lhsIdx i s 1).val = (s ⟨0, by decide⟩).val :=
  dBlk.lhsIdx_val_of_single rfl i s
/-- The right factor's row is the contraction position … -/
theorem blkR0 (i : S2000x7.Idx) (s : dBlk.contr.Idx) : (dBlk.rhsIdx i s 0).val = (s ⟨0, by decide⟩).val :=
  dBlk.rhsIdx_val_of_single rfl i s
/-- … and its column the result's column. -/
theorem blkR1 (i : S2000x7.Idx) (s : dBlk.contr.Idx) : (dBlk.rhsIdx i s 1).val = (i 1).val := by
  unfold DotDims.rhsIdx
  rw [dif_neg (show ¬(1 : Fin S512x7.rank) ∈ dBlk.rhsBatch by decide),
    dif_pos (show (1 : Fin S512x7.rank) ∈ dBlk.rhsNonContracting by decide)]
  rfl

/-- The same four facts for the whole-array product. -/
theorem arrL0 (i : Cert.ReferenceIdeal.S100000x7.Idx) (s : dArr.contr.Idx) : (dArr.lhsIdx i s 0).val = (i 0).val := by
  unfold DotDims.lhsIdx
  rw [dif_neg (show ¬(0 : Fin Cert.ReferenceIdeal.S100000x512.rank) ∈ dArr.lhsBatch by decide),
    dif_pos (show (0 : Fin Cert.ReferenceIdeal.S100000x512.rank) ∈ dArr.lhsNonContracting by decide)]
  rfl
theorem arrL1 (i : Cert.ReferenceIdeal.S100000x7.Idx) (s : dArr.contr.Idx) : (dArr.lhsIdx i s 1).val = (s ⟨0, by decide⟩).val :=
  dArr.lhsIdx_val_of_single rfl i s
theorem arrR0 (i : Cert.ReferenceIdeal.S100000x7.Idx) (s : dArr.contr.Idx) : (dArr.rhsIdx i s 0).val = (s ⟨0, by decide⟩).val :=
  dArr.rhsIdx_val_of_single rfl i s
theorem arrR1 (i : Cert.ReferenceIdeal.S100000x7.Idx) (s : dArr.contr.Idx) : (dArr.rhsIdx i s 1).val = (i 1).val := by
  unfold DotDims.rhsIdx
  rw [dif_neg (show ¬(1 : Fin Cert.ReferenceIdeal.S512x7.rank) ∈ dArr.rhsBatch by decide),
    dif_pos (show (1 : Fin Cert.ReferenceIdeal.S512x7.rank) ∈ dArr.rhsNonContracting by decide)]
  rfl

/-- The block product's contraction as a sum over the 512 columns of the left factor. -/
theorem blkSum (l : FVec Ideal S2000x512 .bf16) (r : FVec Ideal S512x7 .bf16) (p : Fin 2000) (q : Fin 7) :
    ∑ s : dBlk.contr.Idx, l (dBlk.lhsIdx (ix2 p q) s) * r (dBlk.rhsIdx (ix2 p q) s)
      = ∑ k : Fin 512, l (ix2 p k) * r (ix2 k q) := by
  rw [← Equiv.sum_comp (contrEquiv1 dBlk 512 rfl rfl).symm]
  refine Finset.sum_congr rfl fun k _ => ?_
  have hk := contrEquiv1_symm_val dBlk 512 rfl rfl k
  have el : dBlk.lhsIdx (ix2 p q) ((contrEquiv1 dBlk 512 rfl rfl).symm k) = ix2 p k := funext fun a => Fin.ext (by
    match a with
    | ⟨0, _⟩ => exact blkL0 _ _
    | ⟨1, _⟩ => exact (blkL1 _ _).trans hk)
  have er : dBlk.rhsIdx (ix2 p q) ((contrEquiv1 dBlk 512 rfl rfl).symm k) = ix2 k q := funext fun a => Fin.ext (by
    match a with
    | ⟨0, _⟩ => exact (blkR0 _ _).trans hk
    | ⟨1, _⟩ => exact blkR1 _ _)
  rw [el, er]

/-- The whole-array product's contraction as the same sum. -/
theorem arrSum (l : FVec Ideal Cert.ReferenceIdeal.S100000x512 .f32) (r : FVec Ideal Cert.ReferenceIdeal.S512x7 .f32)
    (p : Fin 100000) (q : Fin 7) :
    ∑ s : dArr.contr.Idx, l (dArr.lhsIdx (ix2 p q) s) * r (dArr.rhsIdx (ix2 p q) s)
      = ∑ k : Fin 512, l (ix2 p k) * r (ix2 k q) := by
  rw [← Equiv.sum_comp (contrEquiv1 dArr 512 rfl rfl).symm]
  refine Finset.sum_congr rfl fun k _ => ?_
  have hk := contrEquiv1_symm_val dArr 512 rfl rfl k
  have el : dArr.lhsIdx (ix2 p q) ((contrEquiv1 dArr 512 rfl rfl).symm k) = ix2 p k := funext fun a => Fin.ext (by
    match a with
    | ⟨0, _⟩ => exact arrL0 _ _
    | ⟨1, _⟩ => exact (arrL1 _ _).trans hk)
  have er : dArr.rhsIdx (ix2 p q) ((contrEquiv1 dArr 512 rfl rfl).symm k) = ix2 k q := funext fun a => Fin.ext (by
    match a with
    | ⟨0, _⟩ => exact (arrR0 _ _).trans hk
    | ⟨1, _⟩ => exact arrR1 _ _)
  rw [el, er]

/-! ## One entry of a block of the result, and one entry of the target -/

/-- What the body stores, read at row p and column q of the block: the product row of the two loaded
    blocks against column q of the weights, plus the bias row's entry q. Narrowing a factor to a shorter
    format changes nothing on the extended reals, and a product into a zero accumulator is the bare sum. -/
theorem payAt (x0 x1 : FVec Ideal S2000x512 .f32) (x2 : FVec Ideal S512x7 .f32) (x3 : FVec Ideal S1x7 .f32)
    (p : Fin 2000) (q : Fin 7) :
    k5_pay1 (F := Ideal) x0 x1 x2 x3 (ix2 p q)
      = (∑ k : Fin 512, (x0 (ix2 p k) * x1 (ix2 p k)) * x2 (ix2 k q)) + x3 (ix2 (0 : Fin 1) q) := by
  unfold k5_pay1
  simp only [shapeCast_self]
  refine (addf_apply _ _ _).trans ?_
  refine congrArg₂ (· + ·) ?_ ?_
  · refine (Ideal.matmul_constant_zero_apply dBlk none _ _ (ix2 p q)).trans ?_
    exact blkSum _ _ p q
  · exact broadcastTo_1b_ab_apply x3 _ p q

/-- The target read at row r and column q. -/
theorem linkAt (HS HD : Cert.Spec.FT) (W : Cert.Spec.FW7) (bb : Cert.Spec.FB7) (r : Fin 100000) (q : Fin 7) :
    Cert.Spec.link HS HD W bb (ix2 r q)
      = (∑ k : Fin 512, (HS (ix2 r k) * HD (ix2 r k)) * W (ix2 k q)) + bb (ix1 q) := by
  unfold Cert.Spec.link
  refine (addf_apply _ _ _).trans ?_
  refine congrArg₂ (· + ·) ?_ ?_
  · refine (Ideal.dotGeneral_apply dArr none .single _ _ (ix2 r q)).trans ?_
    exact arrSum _ _ r q
  · refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

/-- An entry of a block of the result is the target's entry in the array row the block row stands for,
    when the loaded blocks hold those rows of HS and HD, the weights and the bias row. -/
theorem pointEq (x0 x1 : FVec Ideal S2000x512 .f32) (x2 : FVec Ideal S512x7 .f32) (x3 : FVec Ideal S1x7 .f32)
    (HS HD : Cert.Spec.FT) (W : Cert.Spec.FW7) (bb : Cert.Spec.FB7) (p : Fin 2000) (q : Fin 7) (r : Fin 100000)
    (h0 : ∀ k : Fin 512, x0 (ix2 p k) = HS (ix2 r k)) (h1 : ∀ k : Fin 512, x1 (ix2 p k) = HD (ix2 r k))
    (h2 : ∀ k : Fin 512, x2 (ix2 k q) = W (ix2 k q)) (h3 : x3 (ix2 (0 : Fin 1) q) = bb (ix1 q)) :
    k5_pay1 (F := Ideal) x0 x1 x2 x3 (ix2 p q) = Cert.Spec.link HS HD W bb (ix2 r q) := by
  rw [payAt, linkAt, h3]
  refine congrArg (· + bb (ix1 q)) (Finset.sum_congr rfl fun k _ => ?_)
  rw [h0 k, h1 k, h2 k]

/-! ## From blocks to the array -/

/-- The block index maps over the 50 grid points: the three row-blocked windows (the two feature row sets
    and the result) sit at block (t, 0) at point t, the weights and the bias row at block (0, 0). -/
theorem blockIdx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block of the first feature row set is row 2000·t + p of the array. -/
theorem rowsS (t : Fin cfg5.N) (p : Fin 2000) (k : Fin 512) (r : Fin 100000) (hr : r.val = 2000 * t.val + p.val) :
    (iblk5 (F := Ideal) V c 0 t : FVec Ideal S2000x512 .f32) (ix2 p k) = V c main_v70 (ix2 r k) := by
  obtain ⟨e0, e1, -⟩ := blockIdx t
  unfold iblk5
  rw [View.read_apply]
  show V c main_v70 _ = V c main_v70 _
  refine congrArg (V c main_v70) (funext fun a => Fin.ext ?_)
  match a with
  | ⟨0, _⟩ => show win5_0.index t (0 : Fin 2) * 2000 + 1 * p.val = r.val; rw [e0, hr]; omega
  | ⟨1, _⟩ => show win5_0.index t (1 : Fin 2) * 512 + 1 * k.val = k.val; rw [e1]; omega

/-- The same for the second feature row set. -/
theorem rowsD (t : Fin cfg5.N) (p : Fin 2000) (k : Fin 512) (r : Fin 100000) (hr : r.val = 2000 * t.val + p.val) :
    (iblk5 (F := Ideal) V c 1 t : FVec Ideal S2000x512 .f32) (ix2 p k) = V c main_v79 (ix2 r k) := by
  obtain ⟨-, -, e0, e1, -⟩ := blockIdx t
  unfold iblk5
  rw [View.read_apply]
  show V c main_v79 _ = V c main_v79 _
  refine congrArg (V c main_v79) (funext fun a => Fin.ext ?_)
  match a with
  | ⟨0, _⟩ => show win5_1.index t (0 : Fin 2) * 2000 + 1 * p.val = r.val; rw [e0, hr]; omega
  | ⟨1, _⟩ => show win5_1.index t (1 : Fin 2) * 512 + 1 * k.val = k.val; rw [e1]; omega

/-- Every point's block of the weights is the whole matrix. -/
theorem wholeW (t : Fin cfg5.N) (k : Fin 512) (q : Fin 7) :
    (iblk5 (F := Ideal) V c 2 t : FVec Ideal S512x7 .f32) (ix2 k q) = V c main_arg20 (ix2 k q) := by
  obtain ⟨-, -, -, -, e0, e1, -⟩ := blockIdx t
  unfold iblk5
  rw [View.read_apply]
  show V c main_arg20 _ = V c main_arg20 _
  refine congrArg (V c main_arg20) (funext fun a => Fin.ext ?_)
  match a with
  | ⟨0, _⟩ => show win5_2.index t (0 : Fin 2) * 512 + 1 * k.val = k.val; rw [e0]; omega
  | ⟨1, _⟩ => show win5_2.index t (1 : Fin 2) * 7 + 1 * q.val = q.val; rw [e1]; omega

/-- Every point's block of the bias row is the whole row. -/
theorem wholeB (t : Fin cfg5.N) (q : Fin 7) :
    (iblk5 (F := Ideal) V c 3 t : FVec Ideal S1x7 .f32) (ix2 (0 : Fin 1) q) = V c main_v80 (ix2 (0 : Fin 1) q) := by
  obtain ⟨-, -, -, -, -, -, e0, e1, -⟩ := blockIdx t
  unfold iblk5
  rw [View.read_apply]
  show V c main_v80 _ = V c main_v80 _
  refine congrArg (V c main_v80) (funext fun a => Fin.ext ?_)
  match a with
  | ⟨0, _⟩ => show win5_3.index t (0 : Fin 2) * 1 + 1 * (0 : Fin 1).val = (0 : Fin 1).val; rw [e0]; rfl
  | ⟨1, _⟩ => show win5_3.index t (1 : Fin 2) * 7 + 1 * q.val = q.val; rw [e1]; omega

/-- What point t writes back is rows 2000·t … 2000·t + 1999 of the target. -/
theorem flushedEq (b : Cert.Spec.FB7) (hb : ∀ q : Fin 7, V c main_v80 (ix2 (0 : Fin 1) q) = b (ix1 q)) (t : Fin cfg5.N) :
    (dat5 (F := Ideal) V c).flushed 4 t
      = ((cfg5.win 4).blk t).view.read (Elt Ideal)
          (Cert.Spec.link (V c main_v70) (V c main_v79) (V c main_arg20) b) := by
  show (cfg5.win 4).cut (grid5.coords t) ((dat5 (F := Ideal) V c).after 4 t) = _
  rw [after5_4]
  unfold out5_4
  rw [View.canon_unit_zero zeroOff]
  simp only [View.ld_unit_zero (S := S2000x512) zeroOff, View.ld_unit_zero (S := S512x7) zeroOff,
    View.ld_unit_zero (S := S1x7) zeroOff]
  have hN : cfg5.N = 50 := N_5
  have ht : t.val < 50 := hN ▸ t.isLt
  obtain ⟨-, -, -, -, -, -, -, -, e0, e1⟩ := blockIdx t
  funext j
  obtain ⟨p, q, rfl⟩ : ∃ (p : Fin 2000) (q : Fin 7), j = ix2 p q := ⟨j 0, j 1, eq_ix2 j⟩
  rw [View.read_apply]
  have hp : p.val < 2000 := p.isLt
  have eemb : ((cfg5.win 4).blk t).view.emb (ix2 p q)
      = (ix2 (⟨2000 * t.val + p.val, by omega⟩ : Fin 100000) q : Cert.ReferenceIdeal.S100000x7.Idx) :=
    funext fun a => Fin.ext (by
      match a with
      | ⟨0, _⟩ => show win5_4.index t (0 : Fin 2) * 2000 + 1 * p.val = 2000 * t.val + p.val; rw [e0]; omega
      | ⟨1, _⟩ => show win5_4.index t (1 : Fin 2) * 7 + 1 * q.val = q.val; rw [e1]; omega)
  rw [eemb]
  exact pointEq (iblk5 (F := Ideal) V c 0 t) (iblk5 (F := Ideal) V c 1 t) (iblk5 (F := Ideal) V c 2 t) (iblk5 (F := Ideal) V c 3 t)
    (V c main_v70) (V c main_v79) (V c main_arg20) b p q ⟨2000 * t.val + p.val, by omega⟩
    (fun k => rowsS V c t p k _ rfl) (fun k => rowsD V c t p k _ rfl) (fun k => wholeW V c t k q)
    ((wholeB V c t q).trans (hb q))

/-- An array index is in point t's block of the result iff each coordinate is in the block's range. -/
theorem memBlk (t : Fin cfg5.N) (i : S100000x7.Idx) :
    i ∈ ((cfg5.win 4).blk t).view.set
      ↔ ∀ a : Fin 2, win5_4.index t a * S2000x7.size a ≤ (i a).val ∧ (i a).val < win5_4.index t a * S2000x7.size a + S2000x7.size a := by
  show i ∈ ((View.whole main_v81).slice (win5_4.rect t)).set ↔ _
  rw [View.set_slice_whole, Rect.mem_set_unit]
  exact Iff.rfl

/-- Row r of the result is written back by point r / 2000. -/
theorem cover (i : S100000x7.Idx) :
    ∃ t : Fin cfg5.N, (cfg5.win 4).flush t = true ∧ i ∈ ((cfg5.win 4).blk t).view.set := by
  have hN : cfg5.N = 50 := N_5
  have hi0 : (i 0).val < 100000 := (i 0).isLt
  have hi1 : (i 1).val < 7 := (i 1).isLt
  have hlt : (i 0).val / 2000 < cfg5.N := by rw [hN]; omega
  obtain ⟨-, -, -, -, -, -, -, -, e0, e1⟩ := blockIdx ⟨(i 0).val / 2000, hlt⟩
  have e0' : win5_4.index ⟨(i 0).val / 2000, hlt⟩ (0 : Fin 2) = (i 0).val / 2000 := e0
  refine ⟨⟨(i 0).val / 2000, hlt⟩, flush5_4 _, ?_⟩
  rw [memBlk]
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    rw [e0']; omega
  | ⟨1, _⟩ =>
    show win5_4.index ⟨(i 0).val / 2000, hlt⟩ (1 : Fin 2) * 7 ≤ (i 1).val
      ∧ (i 1).val < win5_4.index ⟨(i 0).val / 2000, hlt⟩ (1 : Fin 2) * 7 + 7
    rw [e1]; omega

end R5

/-- The array the link-prediction stage leaves: the target function of the arrays it found. -/
theorem region5 (b : Cert.Spec.FB7)
    (hb : ∀ q : Fin 7, V c main_v80 (ix2 (0 : Fin 1) q) = b (ix1 q)) :
    (dat5 (F := Ideal) V c).arrAt 4 cfg5.N = Cert.Spec.link (V c main_v70) (V c main_v79) (V c main_arg20) b :=
  (dat5 (F := Ideal) V c).arrAt_eq_of_cover 4 (Cert.Spec.link (V c main_v70) (V c main_v79) (V c main_arg20) b)
    (fun t _ => R5.flushedEq V c b hb t) R5.cover

end Cert.KValue

end
-- ==== Proof.RefRun.lean ====
import proofs.«178183_j60533269069967_1_alg».proof.ReferenceIdeal
import proofs.«178183_j60533269069967_1_alg».proof.Proof.Gen.ReferenceIdeal
import proofs.«178183_j60533269069967_1_alg».proof.Proof.Spec
import Idealize.ShloMosaic.Lib.StableHlo.Run

noncomputable section
namespace Cert.RefValue
open Cert.ReferenceIdeal Cert.ReferenceIdeal.Gen Idealize.ShloMosaic Idealize.ShloMosaic.TcCoe Idealize.SL.Sem Idealize.ShloMosaic.StableHlo

/-!
# The reference network, run

The reference is a straight line of tensor operations: the two rows of the edge list, the
neighbour sums (a gather of source rows scattered onto destination rows), products with the
weight matrices, the column statistics and normalisations, and at the end the scores of the
training edges.  Run from any memory it ends with every buffer at the composition of the
operations that lead to it, and the result buffer at the composed network of the specification,
the arguments unchanged.

The line is read in three consecutive pieces.  After the first the buffers hold the destination
row, the gather indices of the source row, the subgraph branch and the first dense layer of the
feature branch; after the second the node embeddings and the endpoints of the training edges;
the third gathers the embeddings at the endpoints and forms the scores.
-/

variable {F : FTy → Type} [FloatOps F]

/-- The first piece: the edge rows, the subgraph branch through its normalisation, and the feature branch up to its first neighbour sum's indices. -/
abbrev ops0 : List (HloOp τ sig (Elt F)) :=
  [ StableHlo.unary main_arg2 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg2 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000,
    StableHlo.nullary main_c (constantI S_ 32 0#32),
    StableHlo.unary main_c main_v4 (broadcastInDim S200000 ![] bcast_S_S200000 : (⟨S_, .i32⟩ : BufTy).Contents (Elt F) → (⟨S200000, .i32⟩ : BufTy).Contents (Elt F)),
    StableHlo.binary main_v1 main_v4 main_v5 (cmpi .slt : (⟨S200000, .i32⟩ : BufTy).Contents (Elt F) → (⟨S200000, .i32⟩ : BufTy).Contents (Elt F) → (⟨S200000, .i1⟩ : BufTy).Contents (Elt F)),
    StableHlo.nullary main_c_0 (constantI S_ 32 50000#32),
    StableHlo.unary main_c_0 main_v6 (broadcastInDim S200000 ![] bcast_S_S200000 : (⟨S_, .i32⟩ : BufTy).Contents (Elt F) → (⟨S200000, .i32⟩ : BufTy).Contents (Elt F)),
    StableHlo.binary main_v1 main_v6 main_v7 (addi : (⟨S200000, .i32⟩ : BufTy).Contents (Elt F) → (⟨S200000, .i32⟩ : BufTy).Contents (Elt F) → (⟨S200000, .i32⟩ : BufTy).Contents (Elt F)),
    StableHlo.ternary main_v5 main_v7 main_v1 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v8 main_v9 (broadcastInDim S200000x1 ![0] bcast_S200000_S200000x1_0 : (⟨S200000, .i32⟩ : BufTy).Contents (Elt F) → (⟨S200000x1, .i32⟩ : BufTy).Contents (Elt F)),
    StableHlo.binary main_arg1 main_v9 main_v10 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.nullary main_cst (constant S_ .f32 0x00000000#32),
    StableHlo.unary main_cst main_v11 (broadcastInDim S50000x512 ![] bcast_S_S50000x512 : (⟨S_, .f32⟩ : BufTy).Contents (Elt F) → (⟨S50000x512, .f32⟩ : BufTy).Contents (Elt F)),
    StableHlo.unary main_v3 main_v12 (broadcastInDim S200000x1 ![0] bcast_S200000_S200000x1_0 : (⟨S200000, .i32⟩ : BufTy).Contents (Elt F) → (⟨S200000x1, .i32⟩ : BufTy).Contents (Elt F)),
    StableHlo.ternary main_v11 main_v12 main_v10 main_v13 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.binary main_arg1 main_v13 main_v14 (addf : (⟨S50000x512, .f32⟩ : BufTy).Contents (Elt F) → (⟨S50000x512, .f32⟩ : BufTy).Contents (Elt F) → (⟨S50000x512, .f32⟩ : BufTy).Contents (Elt F)),
    StableHlo.binary main_v14 main_arg4 main_v15 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.binary main_v15 main_arg1 main_v16 (addf : (⟨S50000x512, .f32⟩ : BufTy).Contents (Elt F) → (⟨S50000x512, .f32⟩ : BufTy).Contents (Elt F) → (⟨S50000x512, .f32⟩ : BufTy).Contents (Elt F)),
    StableHlo.nullary main_cst_1 (constant S_ .f32 0x00000000#32),
    StableHlo.binary main_v16 main_cst_1 main_v17 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_2 (constant S_ .f32 0x47435000#32),
    StableHlo.unary main_cst_2 main_v18 (broadcastInDim S512 ![] bcast_S_S512 : (⟨S_, .f32⟩ : BufTy).Contents (Elt F) → (⟨S512, .f32⟩ : BufTy).Contents (Elt F)),
    StableHlo.binary main_v17 main_v18 main_v19 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call0.cst (constant S_ .f32 0x00000000#32),
    StableHlo.TRef.binary (.of main_v16 : StableHlo.TRef sig ⟨S50000x512, .f32⟩) main_call0.cst main_call0.v0 (fun x v => Host.reduceAdd x v reducesTo_S50000x512_S512_d0 h_S_),
    StableHlo.TRef.unary main_call0.v0 main_call0.v1 (broadcastInDim S1x512 ![1] bcast_S512_S1x512_1),
    StableHlo.TRef.nullary main_call0.cst_0 (constant S_ .f32 0x47435000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S50000x512 ![0, 1] bcast_S1x512_S50000x512_0_1),
    StableHlo.TRef.binary (.of main_v16 : StableHlo.TRef sig ⟨S50000x512, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v19 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S50000x512 ![0, 1] bcast_S1x512_S50000x512_0_1 : (⟨S1x512, .f32⟩ : BufTy).Contents (Elt F) → (⟨S50000x512, .f32⟩ : BufTy).Contents (Elt F)),
    StableHlo.binary main_v16 main_v22 main_v23 (subf : (⟨S50000x512, .f32⟩ : BufTy).Contents (Elt F) → (⟨S50000x512, .f32⟩ : BufTy).Contents (Elt F) → (⟨S50000x512, .f32⟩ : BufTy).Contents (Elt F)),
    StableHlo.nullary main_cst_4 (constant S_ .f32 0x3727C5AC#32),
    StableHlo.unary main_cst_4 main_v24 (broadcastInDim S512 ![] bcast_S_S512 : (⟨S_, .f32⟩ : BufTy).Contents (Elt F) → (⟨S512, .f32⟩ : BufTy).Contents (Elt F)),
    StableHlo.binary main_v20 main_v24 main_v25 (addf : (⟨S512, .f32⟩ : BufTy).Contents (Elt F) → (⟨S512, .f32⟩ : BufTy).Contents (Elt F) → (⟨S512, .f32⟩ : BufTy).Contents (Elt F)),
    StableHlo.unary main_v25 main_v26 (Host.rsqrt : (⟨S512, .f32⟩ : BufTy).Contents (Elt F) → (⟨S512, .f32⟩ : BufTy).Contents (Elt F)),
    StableHlo.unary main_v26 main_v27 (broadcastInDim S1x512 ![1] bcast_S512_S1x512_1 : (⟨S512, .f32⟩ : BufTy).Contents (Elt F) → (⟨S1x512, .f32⟩ : BufTy).Contents (Elt F)),
    StableHlo.unary main_v27 main_v28 (broadcastInDim S50000x512 ![0, 1] bcast_S1x512_S50000x512_0_1 : (⟨S1x512, .f32⟩ : BufTy).Contents (Elt F) → (⟨S50000x512, .f32⟩ : BufTy).Contents (Elt F)),
    StableHlo.binary main_v23 main_v28 main_v29 (mulf : (⟨S50000x512, .f32⟩ : BufTy).Contents (Elt F) → (⟨S50000x512, .f32⟩ : BufTy).Contents (Elt F) → (⟨S50000x512, .f32⟩ : BufTy).Contents (Elt F)),
    StableHlo.unary main_arg5 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S50000x512 ![0, 1] bcast_S1x512_S50000x512_0_1 : (⟨S1x512, .f32⟩ : BufTy).Contents (Elt F) → (⟨S50000x512, .f32⟩ : BufTy).Contents (Elt F)),
    StableHlo.binary main_v29 main_v31 main_v32 (mulf : (⟨S50000x512, .f32⟩ : BufTy).Contents (Elt F) → (⟨S50000x512, .f32⟩ : BufTy).Contents (Elt F) → (⟨S50000x512, .f32⟩ : BufTy).Contents (Elt F)),
    StableHlo.unary main_arg6 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S50000x512 ![0, 1] bcast_S1x512_S50000x512_0_1 : (⟨S1x512, .f32⟩ : BufTy).Contents (Elt F) → (⟨S50000x512, .f32⟩ : BufTy).Contents (Elt F)),
    StableHlo.binary main_v32 main_v34 main_v35 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant S_ .f32 0x00000000#32),
    StableHlo.TRef.unary main_call1.cst main_call1.v0 (broadcastInDim S50000x512 ![] bcast_S_S50000x512),
    StableHlo.TRef.binary (.of main_v35 : StableHlo.TRef sig ⟨S50000x512, .f32⟩) main_call1.v0 main_call1.v1 maximumf,
    StableHlo.binary main_arg0 main_arg7 main_v37 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg8 main_v38 (broadcastInDim S1x512 ![1] bcast_S512_S1x512_1 : (⟨S512, .f32⟩ : BufTy).Contents (Elt F) → (⟨S1x512, .f32⟩ : BufTy).Contents (Elt F)),
    StableHlo.unary main_v38 main_v39 (broadcastInDim S50000x512 ![0, 1] bcast_S1x512_S50000x512_0_1 : (⟨S1x512, .f32⟩ : BufTy).Contents (Elt F) → (⟨S50000x512, .f32⟩ : BufTy).Contents (Elt F)),
    StableHlo.binary main_v37 main_v39 main_v40 (addf : (⟨S50000x512, .f32⟩ : BufTy).Contents (Elt F) → (⟨S50000x512, .f32⟩ : BufTy).Contents (Elt F) → (⟨S50000x512, .f32⟩ : BufTy).Contents (Elt F)),
    StableHlo.nullary main_cst_5 (constant S_ .f32 0x3F800000#32),
    StableHlo.binary main_cst_5 main_arg9 main_v41 (addf : (⟨S_, .f32⟩ : BufTy).Contents (Elt F) → (⟨S_, .f32⟩ : BufTy).Contents (Elt F) → (⟨S_, .f32⟩ : BufTy).Contents (Elt F)),
    StableHlo.unary main_v41 main_v42 (broadcastInDim S50000x512 ![] bcast_S_S50000x512 : (⟨S_, .f32⟩ : BufTy).Contents (Elt F) → (⟨S50000x512, .f32⟩ : BufTy).Contents (Elt F)),
    StableHlo.binary main_v42 main_v40 main_v43 (mulf : (⟨S50000x512, .f32⟩ : BufTy).Contents (Elt F) → (⟨S50000x512, .f32⟩ : BufTy).Contents (Elt F) → (⟨S50000x512, .f32⟩ : BufTy).Contents (Elt F)),
    StableHlo.nullary main_c_6 (constantI S_ 32 0#32),
    StableHlo.unary main_c_6 main_v44 (broadcastInDim S200000 ![] bcast_S_S200000 : (⟨S_, .i32⟩ : BufTy).Contents (Elt F) → (⟨S200000, .i32⟩ : BufTy).Contents (Elt F)),
    StableHlo.binary main_v1 main_v44 main_v45 (cmpi .slt : (⟨S200000, .i32⟩ : BufTy).Contents (Elt F) → (⟨S200000, .i32⟩ : BufTy).Contents (Elt F) → (⟨S200000, .i1⟩ : BufTy).Contents (Elt F)),
    StableHlo.nullary main_c_7 (constantI S_ 32 50000#32),
    StableHlo.unary main_c_7 main_v46 (broadcastInDim S200000 ![] bcast_S_S200000 : (⟨S_, .i32⟩ : BufTy).Contents (Elt F) → (⟨S200000, .i32⟩ : BufTy).Contents (Elt F)),
    StableHlo.binary main_v1 main_v46 main_v47 (addi : (⟨S200000, .i32⟩ : BufTy).Contents (Elt F) → (⟨S200000, .i32⟩ : BufTy).Contents (Elt F) → (⟨S200000, .i32⟩ : BufTy).Contents (Elt F)),
    StableHlo.ternary main_v45 main_v47 main_v1 main_v48 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v48 main_v49 (broadcastInDim S200000x1 ![0] bcast_S200000_S200000x1_0 : (⟨S200000, .i32⟩ : BufTy).Contents (Elt F) → (⟨S200000x1, .i32⟩ : BufTy).Contents (Elt F)) ]

/-- The second piece: the feature branch's neighbour sum, its dense layers and normalisation, the node embeddings, and the endpoints of the training edges. -/
abbrev ops1 : List (HloOp τ sig (Elt F)) :=
  [ StableHlo.binary main_v40 main_v49 main_v50 ((fun x i => Host.gather gather_S50000x512_S200000x1_S200000x512_1_0_n_n_0_1_1512 x i) : (⟨S50000x512, .f32⟩ : BufTy).Contents (Elt F) → (⟨S200000x1, .i32⟩ : BufTy).Contents (Elt F) → (⟨S200000x512, .f32⟩ : BufTy).Contents (Elt F)),
    StableHlo.nullary main_cst_8 (constant S_ .f32 0x00000000#32),
    StableHlo.unary main_cst_8 main_v51 (broadcastInDim S50000x512 ![] bcast_S_S50000x512 : (⟨S_, .f32⟩ : BufTy).Contents (Elt F) → (⟨S50000x512, .f32⟩ : BufTy).Contents (Elt F)),
    StableHlo.unary main_v3 main_v52 (broadcastInDim S200000x1 ![0] bcast_S200000_S200000x1_0 : (⟨S200000, .i32⟩ : BufTy).Contents (Elt F) → (⟨S200000x1, .i32⟩ : BufTy).Contents (Elt F)),
    StableHlo.ternary main_v51 main_v52 main_v50 main_v53 ((fun x i u => Host.scatterAdd scatter_S50000x512_S200000x1_S200000x512_1_0_0_1 x i u) : (⟨S50000x512, .f32⟩ : BufTy).Contents (Elt F) → (⟨S200000x1, .i32⟩ : BufTy).Contents (Elt F) → (⟨S200000x512, .f32⟩ : BufTy).Contents (Elt F) → (⟨S50000x512, .f32⟩ : BufTy).Contents (Elt F)),
    StableHlo.binary main_v43 main_v53 main_v54 (addf : (⟨S50000x512, .f32⟩ : BufTy).Contents (Elt F) → (⟨S50000x512, .f32⟩ : BufTy).Contents (Elt F) → (⟨S50000x512, .f32⟩ : BufTy).Contents (Elt F)),
    StableHlo.binary main_v54 main_arg10 main_v55 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg11 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S50000x512 ![0, 1] bcast_S1x512_S50000x512_0_1 : (⟨S1x512, .f32⟩ : BufTy).Contents (Elt F) → (⟨S50000x512, .f32⟩ : BufTy).Contents (Elt F)),
    StableHlo.binary main_v55 main_v57 main_v58 (addf : (⟨S50000x512, .f32⟩ : BufTy).Contents (Elt F) → (⟨S50000x512, .f32⟩ : BufTy).Contents (Elt F) → (⟨S50000x512, .f32⟩ : BufTy).Contents (Elt F)),
    StableHlo.TRef.nullary main_call2.cst (constant S_ .f32 0x00000000#32),
    StableHlo.TRef.unary main_call2.cst main_call2.v0 (broadcastInDim S50000x512 ![] bcast_S_S50000x512),
    StableHlo.TRef.binary (.of main_v58 : StableHlo.TRef sig ⟨S50000x512, .f32⟩) main_call2.v0 main_call2.v1 maximumf,
    StableHlo.binary main_v59 main_arg12 main_v60 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg13 main_v61 (broadcastInDim S1x512 ![1] bcast_S512_S1x512_1 : (⟨S512, .f32⟩ : BufTy).Contents (Elt F) → (⟨S1x512, .f32⟩ : BufTy).Contents (Elt F)),
    StableHlo.unary main_v61 main_v62 (broadcastInDim S50000x512 ![0, 1] bcast_S1x512_S50000x512_0_1 : (⟨S1x512, .f32⟩ : BufTy).Contents (Elt F) → (⟨S50000x512, .f32⟩ : BufTy).Contents (Elt F)),
    StableHlo.binary main_v60 main_v62 main_v63 (addf : (⟨S50000x512, .f32⟩ : BufTy).Contents (Elt F) → (⟨S50000x512, .f32⟩ : BufTy).Contents (Elt F) → (⟨S50000x512, .f32⟩ : BufTy).Contents (Elt F)),
    StableHlo.TRef.nullary main_call3.cst (constant S_ .f32 0x00000000#32),
    StableHlo.TRef.unary main_call3.cst main_call3.v0 (broadcastInDim S50000x512 ![] bcast_S_S50000x512),
    StableHlo.TRef.binary (.of main_v63 : StableHlo.TRef sig ⟨S50000x512, .f32⟩) main_call3.v0 main_call3.v1 maximumf,
    StableHlo.nullary main_cst_9 (constant S_ .f32 0x00000000#32),
    StableHlo.binary main_v64 main_cst_9 main_v65 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_10 (constant S_ .f32 0x47435000#32),
    StableHlo.unary main_cst_10 main_v66 (broadcastInDim S512 ![] bcast_S_S512 : (⟨S_, .f32⟩ : BufTy).Contents (Elt F) → (⟨S512, .f32⟩ : BufTy).Contents (Elt F)),
    StableHlo.binary main_v65 main_v66 main_v67 (Host.divf : (⟨S512, .f32⟩ : BufTy).Contents (Elt F) → (⟨S512, .f32⟩ : BufTy).Contents (Elt F) → (⟨S512, .f32⟩ : BufTy).Contents (Elt F)),
    StableHlo.nullary main_c_11 (constantI S_ 32 0#32),
    StableHlo.TRef.nullary main_call4.cst (constant S_ .f32 0x00000000#32),
    StableHlo.TRef.binary (.of main_v64 : StableHlo.TRef sig ⟨S50000x512, .f32⟩) main_call4.cst main_call4.v0 (fun x v => Host.reduceAdd x v reducesTo_S50000x512_S512_d0 h_S_),
    StableHlo.TRef.unary main_call4.v0 main_call4.v1 (broadcastInDim S1x512 ![1] bcast_S512_S1x512_1),
    StableHlo.TRef.nullary main_call4.cst_0 (constant S_ .f32 0x47435000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S50000x512 ![0, 1] bcast_S1x512_S50000x512_0_1),
    StableHlo.TRef.binary (.of main_v64 : StableHlo.TRef sig ⟨S50000x512, .f32⟩) main_call4.v4 main_call4.v5 subf,
    StableHlo.TRef.binary main_call4.v5 main_call4.v5 main_call4.v6 mulf,
    StableHlo.TRef.unary (.of main_c_11 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v67 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S50000x512 ![0, 1] bcast_S1x512_S50000x512_0_1 : (⟨S1x512, .f32⟩ : BufTy).Contents (Elt F) → (⟨S50000x512, .f32⟩ : BufTy).Contents (Elt F)),
    StableHlo.binary main_v64 main_v70 main_v71 (subf : (⟨S50000x512, .f32⟩ : BufTy).Contents (Elt F) → (⟨S50000x512, .f32⟩ : BufTy).Contents (Elt F) → (⟨S50000x512, .f32⟩ : BufTy).Contents (Elt F)),
    StableHlo.nullary main_cst_12 (constant S_ .f32 0x3727C5AC#32),
    StableHlo.unary main_cst_12 main_v72 (broadcastInDim S512 ![] bcast_S_S512 : (⟨S_, .f32⟩ : BufTy).Contents (Elt F) → (⟨S512, .f32⟩ : BufTy).Contents (Elt F)),
    StableHlo.binary main_v68 main_v72 main_v73 (addf : (⟨S512, .f32⟩ : BufTy).Contents (Elt F) → (⟨S512, .f32⟩ : BufTy).Contents (Elt F) → (⟨S512, .f32⟩ : BufTy).Contents (Elt F)),
    StableHlo.unary main_v73 main_v74 (Host.rsqrt : (⟨S512, .f32⟩ : BufTy).Contents (Elt F) → (⟨S512, .f32⟩ : BufTy).Contents (Elt F)),
    StableHlo.unary main_v74 main_v75 (broadcastInDim S1x512 ![1] bcast_S512_S1x512_1 : (⟨S512, .f32⟩ : BufTy).Contents (Elt F) → (⟨S1x512, .f32⟩ : BufTy).Contents (Elt F)),
    StableHlo.unary main_v75 main_v76 (broadcastInDim S50000x512 ![0, 1] bcast_S1x512_S50000x512_0_1 : (⟨S1x512, .f32⟩ : BufTy).Contents (Elt F) → (⟨S50000x512, .f32⟩ : BufTy).Contents (Elt F)),
    StableHlo.binary main_v71 main_v76 main_v77 (mulf : (⟨S50000x512, .f32⟩ : BufTy).Contents (Elt F) → (⟨S50000x512, .f32⟩ : BufTy).Contents (Elt F) → (⟨S50000x512, .f32⟩ : BufTy).Contents (Elt F)),
    StableHlo.unary main_arg14 main_v78 (broadcastInDim S1x512 ![1] bcast_S512_S1x512_1 : (⟨S512, .f32⟩ : BufTy).Contents (Elt F) → (⟨S1x512, .f32⟩ : BufTy).Contents (Elt F)),
    StableHlo.unary main_v78 main_v79 (broadcastInDim S50000x512 ![0, 1] bcast_S1x512_S50000x512_0_1 : (⟨S1x512, .f32⟩ : BufTy).Contents (Elt F) → (⟨S50000x512, .f32⟩ : BufTy).Contents (Elt F)),
    StableHlo.binary main_v77 main_v79 main_v80 (mulf : (⟨S50000x512, .f32⟩ : BufTy).Contents (Elt F) → (⟨S50000x512, .f32⟩ : BufTy).Contents (Elt F) → (⟨S50000x512, .f32⟩ : BufTy).Contents (Elt F)),
    StableHlo.unary main_arg15 main_v81 (broadcastInDim S1x512 ![1] bcast_S512_S1x512_1 : (⟨S512, .f32⟩ : BufTy).Contents (Elt F) → (⟨S1x512, .f32⟩ : BufTy).Contents (Elt F)),
    StableHlo.unary main_v81 main_v82 (broadcastInDim S50000x512 ![0, 1] bcast_S1x512_S50000x512_0_1 : (⟨S1x512, .f32⟩ : BufTy).Contents (Elt F) → (⟨S50000x512, .f32⟩ : BufTy).Contents (Elt F)),
    StableHlo.binary main_v80 main_v82 main_v83 (addf : (⟨S50000x512, .f32⟩ : BufTy).Contents (Elt F) → (⟨S50000x512, .f32⟩ : BufTy).Contents (Elt F) → (⟨S50000x512, .f32⟩ : BufTy).Contents (Elt F)),
    StableHlo.binary main_v83 main_arg16 main_v84 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg17 main_v85 (broadcastInDim S1x512 ![1] bcast_S512_S1x512_1 : (⟨S512, .f32⟩ : BufTy).Contents (Elt F) → (⟨S1x512, .f32⟩ : BufTy).Contents (Elt F)),
    StableHlo.unary main_v85 main_v86 (broadcastInDim S50000x512 ![0, 1] bcast_S1x512_S50000x512_0_1 : (⟨S1x512, .f32⟩ : BufTy).Contents (Elt F) → (⟨S50000x512, .f32⟩ : BufTy).Contents (Elt F)),
    StableHlo.binary main_v84 main_v86 main_v87 (addf : (⟨S50000x512, .f32⟩ : BufTy).Contents (Elt F) → (⟨S50000x512, .f32⟩ : BufTy).Contents (Elt F) → (⟨S50000x512, .f32⟩ : BufTy).Contents (Elt F)),
    StableHlo.TRef.nullary main_call5.cst (constant S_ .f32 0x00000000#32),
    StableHlo.TRef.unary main_call5.cst main_call5.v0 (broadcastInDim S50000x512 ![] bcast_S_S50000x512),
    StableHlo.TRef.binary (.of main_v87 : StableHlo.TRef sig ⟨S50000x512, .f32⟩) main_call5.v0 main_call5.v1 maximumf,
    StableHlo.binary main_v88 main_arg18 main_v89 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg19 main_v90 (broadcastInDim S1x512 ![1] bcast_S512_S1x512_1 : (⟨S512, .f32⟩ : BufTy).Contents (Elt F) → (⟨S1x512, .f32⟩ : BufTy).Contents (Elt F)),
    StableHlo.unary main_v90 main_v91 (broadcastInDim S50000x512 ![0, 1] bcast_S1x512_S50000x512_0_1 : (⟨S1x512, .f32⟩ : BufTy).Contents (Elt F) → (⟨S50000x512, .f32⟩ : BufTy).Contents (Elt F)),
    StableHlo.binary main_v89 main_v91 main_v92 (addf : (⟨S50000x512, .f32⟩ : BufTy).Contents (Elt F) → (⟨S50000x512, .f32⟩ : BufTy).Contents (Elt F) → (⟨S50000x512, .f32⟩ : BufTy).Contents (Elt F)),
    StableHlo.binary main_v92 main_v36 main_v93 (addf : (⟨S50000x512, .f32⟩ : BufTy).Contents (Elt F) → (⟨S50000x512, .f32⟩ : BufTy).Contents (Elt F) → (⟨S50000x512, .f32⟩ : BufTy).Contents (Elt F)),
    StableHlo.nullary main_c_13 (constantI S_ 32 0#32),
    StableHlo.unary main_c_13 main_v94 (broadcastInDim S100000 ![] bcast_S_S100000 : (⟨S_, .i32⟩ : BufTy).Contents (Elt F) → (⟨S100000, .i32⟩ : BufTy).Contents (Elt F)),
    StableHlo.binary main_arg3 main_v94 main_v95 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 200000#32),
    StableHlo.unary main_c_14 main_v96 (broadcastInDim S100000 ![] bcast_S_S100000 : (⟨S_, .i32⟩ : BufTy).Contents (Elt F) → (⟨S100000, .i32⟩ : BufTy).Contents (Elt F)),
    StableHlo.binary main_arg3 main_v96 main_v97 (addi : (⟨S100000, .i32⟩ : BufTy).Contents (Elt F) → (⟨S100000, .i32⟩ : BufTy).Contents (Elt F) → (⟨S100000, .i32⟩ : BufTy).Contents (Elt F)),
    StableHlo.ternary main_v95 main_v97 main_arg3 main_v98 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v98 main_v99 (broadcastInDim S100000x1 ![0] bcast_S100000_S100000x1_0 : (⟨S100000, .i32⟩ : BufTy).Contents (Elt F) → (⟨S100000x1, .i32⟩ : BufTy).Contents (Elt F)),
    StableHlo.binary main_arg2 main_v99 main_v100 ((fun x i => Host.gather gather_S2x200000_S100000x1_S2x100000_0_1_n_n_1_1_21 x i) : (⟨S2x200000, .i32⟩ : BufTy).Contents (Elt F) → (⟨S100000x1, .i32⟩ : BufTy).Contents (Elt F) → (⟨S2x100000, .i32⟩ : BufTy).Contents (Elt F)),
    StableHlo.unary main_v100 main_v101 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v101 main_v102 rfl shapeCasts_S1x100000_S100000 ]

/-- The third piece: the embeddings gathered at the two endpoints, their product, and the scores. -/
abbrev ops2 : List (HloOp τ sig (Elt F)) :=
  [ StableHlo.nullary main_c_15 (constantI S_ 32 0#32),
    StableHlo.unary main_c_15 main_v103 (broadcastInDim S100000 ![] bcast_S_S100000 : (⟨S_, .i32⟩ : BufTy).Contents (Elt F) → (⟨S100000, .i32⟩ : BufTy).Contents (Elt F)),
    StableHlo.binary main_v102 main_v103 main_v104 (cmpi .slt : (⟨S100000, .i32⟩ : BufTy).Contents (Elt F) → (⟨S100000, .i32⟩ : BufTy).Contents (Elt F) → (⟨S100000, .i1⟩ : BufTy).Contents (Elt F)),
    StableHlo.nullary main_c_16 (constantI S_ 32 50000#32),
    StableHlo.unary main_c_16 main_v105 (broadcastInDim S100000 ![] bcast_S_S100000 : (⟨S_, .i32⟩ : BufTy).Contents (Elt F) → (⟨S100000, .i32⟩ : BufTy).Contents (Elt F)),
    StableHlo.binary main_v102 main_v105 main_v106 (addi : (⟨S100000, .i32⟩ : BufTy).Contents (Elt F) → (⟨S100000, .i32⟩ : BufTy).Contents (Elt F) → (⟨S100000, .i32⟩ : BufTy).Contents (Elt F)),
    StableHlo.ternary main_v104 main_v106 main_v102 main_v107 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v107 main_v108 (broadcastInDim S100000x1 ![0] bcast_S100000_S100000x1_0 : (⟨S100000, .i32⟩ : BufTy).Contents (Elt F) → (⟨S100000x1, .i32⟩ : BufTy).Contents (Elt F)),
    StableHlo.binary main_v93 main_v108 main_v109 ((fun x i => Host.gather gather_S50000x512_S100000x1_S100000x512_1_0_n_n_0_1_1512 x i) : (⟨S50000x512, .f32⟩ : BufTy).Contents (Elt F) → (⟨S100000x1, .i32⟩ : BufTy).Contents (Elt F) → (⟨S100000x512, .f32⟩ : BufTy).Contents (Elt F)),
    StableHlo.unary main_v100 main_v110 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v110 main_v111 rfl shapeCasts_S1x100000_S100000,
    StableHlo.nullary main_c_17 (constantI S_ 32 0#32),
    StableHlo.unary main_c_17 main_v112 (broadcastInDim S100000 ![] bcast_S_S100000 : (⟨S_, .i32⟩ : BufTy).Contents (Elt F) → (⟨S100000, .i32⟩ : BufTy).Contents (Elt F)),
    StableHlo.binary main_v111 main_v112 main_v113 (cmpi .slt : (⟨S100000, .i32⟩ : BufTy).Contents (Elt F) → (⟨S100000, .i32⟩ : BufTy).Contents (Elt F) → (⟨S100000, .i1⟩ : BufTy).Contents (Elt F)),
    StableHlo.nullary main_c_18 (constantI S_ 32 50000#32),
    StableHlo.unary main_c_18 main_v114 (broadcastInDim S100000 ![] bcast_S_S100000 : (⟨S_, .i32⟩ : BufTy).Contents (Elt F) → (⟨S100000, .i32⟩ : BufTy).Contents (Elt F)),
    StableHlo.binary main_v111 main_v114 main_v115 (addi : (⟨S100000, .i32⟩ : BufTy).Contents (Elt F) → (⟨S100000, .i32⟩ : BufTy).Contents (Elt F) → (⟨S100000, .i32⟩ : BufTy).Contents (Elt F)),
    StableHlo.ternary main_v113 main_v115 main_v111 main_v116 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v116 main_v117 (broadcastInDim S100000x1 ![0] bcast_S100000_S100000x1_0 : (⟨S100000, .i32⟩ : BufTy).Contents (Elt F) → (⟨S100000x1, .i32⟩ : BufTy).Contents (Elt F)),
    StableHlo.binary main_v93 main_v117 main_v118 ((fun x i => Host.gather gather_S50000x512_S100000x1_S100000x512_1_0_n_n_0_1_1512 x i) : (⟨S50000x512, .f32⟩ : BufTy).Contents (Elt F) → (⟨S100000x1, .i32⟩ : BufTy).Contents (Elt F) → (⟨S100000x512, .f32⟩ : BufTy).Contents (Elt F)),
    StableHlo.binary main_v109 main_v118 main_v119 (mulf : (⟨S100000x512, .f32⟩ : BufTy).Contents (Elt F) → (⟨S100000x512, .f32⟩ : BufTy).Contents (Elt F) → (⟨S100000x512, .f32⟩ : BufTy).Contents (Elt F)),
    StableHlo.binary main_v119 main_arg20 main_v120 ((fun l r => Host.dotGeneral dot_S100000x512_S512x7_S100000x7_1_0_0_1_n_n none l r) : (⟨S100000x512, .f32⟩ : BufTy).Contents (Elt F) → (⟨S512x7, .f32⟩ : BufTy).Contents (Elt F) → (⟨S100000x7, .f32⟩ : BufTy).Contents (Elt F)),
    StableHlo.unary main_arg21 main_v121 (broadcastInDim S1x7 ![1] bcast_S7_S1x7_1 : (⟨S7, .f32⟩ : BufTy).Contents (Elt F) → (⟨S1x7, .f32⟩ : BufTy).Contents (Elt F)),
    StableHlo.unary main_v121 main_v122 (broadcastInDim S100000x7 ![0, 1] bcast_S1x7_S100000x7_0_1 : (⟨S1x7, .f32⟩ : BufTy).Contents (Elt F) → (⟨S100000x7, .f32⟩ : BufTy).Contents (Elt F)),
    StableHlo.binary main_v120 main_v122 main_v123 (addf : (⟨S100000x7, .f32⟩ : BufTy).Contents (Elt F) → (⟨S100000x7, .f32⟩ : BufTy).Contents (Elt F) → (⟨S100000x7, .f32⟩ : BufTy).Contents (Elt F)) ]

/-- The whole line. -/
abbrev ops : List (HloOp τ sig (Elt F)) := ops0 ++ (ops1 ++ ops2)

set_option maxRecDepth 100000 in
set_option maxHeartbeats 4000000 in
/-- The piece is that list run in order: the called functions opened at their calls, the sequencing re-associated. -/
theorem part0_eq (c : Dev nD) : main_part0 (F := F) c = seq ops0 := by
  simp only [main_part0, fn_var.body, fn_where.body, fn_relu.body, seq, bind_assoc, pure_bind]
  rfl

set_option maxRecDepth 100000 in
set_option maxHeartbeats 4000000 in
/-- The piece is that list run in order: the called functions opened at their calls, the sequencing re-associated. -/
theorem part1_eq (c : Dev nD) : main_part1 (F := F) c = seq ops1 := by
  simp only [main_part1, fn_var.body, fn_where.body, fn_relu.body, seq, bind_assoc, pure_bind]
  rfl

set_option maxRecDepth 100000 in
set_option maxHeartbeats 4000000 in
/-- The piece is that list run in order: the called functions opened at their calls, the sequencing re-associated. -/
theorem part2_eq (c : Dev nD) : main_part2 (F := F) c = seq ops2 := by
  simp only [main_part2, fn_var.body, fn_where.body, fn_relu.body, seq, bind_assoc, pure_bind]

theorem main_eq (c : Dev nD) : main (F := F) c = seq ops := by
  rw [ops, seq_append, seq_append, ← part0_eq c, ← part1_eq c, ← part2_eq c]
  rfl

/-- Running a concatenation is running the pieces one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_ops (V : Valuation τ sig (Elt F)) : after ops V = after ops2 (after ops1 (after ops0 V)) := by
  rw [ops, after_app, after_app]

set_option maxRecDepth 100000 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 100000 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 100000 in
theorem ops1_sub : (ops1 : List (HloOp τ sig (Elt F))).Forall fun op => op.bufs ⊆ tcRefs τ sig :=
  ⟨binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

set_option maxRecDepth 100000 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 100000 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩

set_option maxRecDepth 100000 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem forall_ops {p : HloOp τ sig (Elt F) → Prop} (h0 : (ops0 (F := F)).Forall p) (h1 : (ops1 (F := F)).Forall p)
    (h2 : (ops2 (F := F)).Forall p) : ∀ op ∈ (ops : List (HloOp τ sig (Elt F))), p op := fun op h => by
  rcases List.mem_append.1 h with h | h
  · exact List.forall_iff_forall_mem.1 h0 op h
  rcases List.mem_append.1 h with h | h
  · exact List.forall_iff_forall_mem.1 h1 op h
  · exact List.forall_iff_forall_mem.1 h2 op h

/-- Every buffer the line writes: one per operation, none of them an argument. -/
abbrev written : List (Ref sig .tc) :=
  [ main_v0, main_v1, main_v2, main_v3, main_c, main_v4, main_v5, main_c_0, main_v6, main_v7, main_v8, main_v9, main_v10, main_cst, main_v11, main_v12, main_v13, main_v14, main_v15, main_v16, main_cst_1, main_v17, main_cst_2, main_v18, main_v19, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v20, main_v21, main_v22, main_v23, main_cst_4, main_v24, main_v25, main_v26, main_v27, main_v28, main_v29, main_v30, main_v31, main_v32, main_v33, main_v34, main_v35, main_call1_cst, main_call1_v0, main_v36, main_v37, main_v38, main_v39, main_v40, main_cst_5, main_v41, main_v42, main_v43, main_c_6, main_v44, main_v45, main_c_7, main_v46, main_v47, main_v48, main_v49, main_v50, main_cst_8, main_v51, main_v52, main_v53, main_v54, main_v55, main_v56, main_v57, main_v58, main_call2_cst, main_call2_v0, main_v59, main_v60, main_v61, main_v62, main_v63, main_call3_cst, main_call3_v0, main_v64, main_cst_9, main_v65, main_cst_10, main_v66, main_v67, main_c_11, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v68, main_v69, main_v70, main_v71, main_cst_12, main_v72, main_v73, main_v74, main_v75, main_v76, main_v77, main_v78, main_v79, main_v80, main_v81, main_v82, main_v83, main_v84, main_v85, main_v86, main_v87, main_call5_cst, main_call5_v0, main_v88, main_v89, main_v90, main_v91, main_v92, main_v93, main_c_13, main_v94, main_v95, main_c_14, main_v96, main_v97, main_v98, main_v99, main_v100, main_v101, main_v102, main_c_15, main_v103, main_v104, main_c_16, main_v105, main_v106, main_v107, main_v108, main_v109, main_v110, main_v111, main_c_17, main_v112, main_v113, main_c_18, main_v114, main_v115, main_v116, main_v117, main_v118, main_v119, main_v120, main_v121, main_v122, main_v123 ]

theorem writes_sub {y : Ref sig .tc} {s : Finset (DevRef τ sig)} (hs : s = {Proc.devRef .tc y}) (h : y ∈ written) :
    s ⊆ (written.map (Proc.devRef (τ := τ) .tc)).toFinset := by
  subst hs; exact Finset.singleton_subset_iff.2 (List.mem_toFinset.2 (List.mem_map_of_mem h))

set_option maxRecDepth 100000 in
theorem ops0_writes : (ops0 : List (HloOp τ sig (Elt F))).Forall fun op => op.writes ⊆ (written.map (Proc.devRef (τ := τ) .tc)).toFinset :=
  ⟨writes_sub (y := main_v0) rfl (by decide),
    writes_sub (y := main_v1) rfl (by decide),
    writes_sub (y := main_v2) rfl (by decide),
    writes_sub (y := main_v3) rfl (by decide),
    writes_sub (y := main_c) rfl (by decide),
    writes_sub (y := main_v4) rfl (by decide),
    writes_sub (y := main_v5) rfl (by decide),
    writes_sub (y := main_c_0) rfl (by decide),
    writes_sub (y := main_v6) rfl (by decide),
    writes_sub (y := main_v7) rfl (by decide),
    writes_sub (y := main_v8) rfl (by decide),
    writes_sub (y := main_v9) rfl (by decide),
    writes_sub (y := main_v10) rfl (by decide),
    writes_sub (y := main_cst) rfl (by decide),
    writes_sub (y := main_v11) rfl (by decide),
    writes_sub (y := main_v12) rfl (by decide),
    writes_sub (y := main_v13) rfl (by decide),
    writes_sub (y := main_v14) rfl (by decide),
    writes_sub (y := main_v15) rfl (by decide),
    writes_sub (y := main_v16) rfl (by decide),
    writes_sub (y := main_cst_1) rfl (by decide),
    writes_sub (y := main_v17) rfl (by decide),
    writes_sub (y := main_cst_2) rfl (by decide),
    writes_sub (y := main_v18) rfl (by decide),
    writes_sub (y := main_v19) rfl (by decide),
    writes_sub (y := main_c_3) rfl (by decide),
    writes_sub (y := main_call0_cst) rfl (by decide),
    writes_sub (y := main_call0_v0) rfl (by decide),
    writes_sub (y := main_call0_v1) rfl (by decide),
    writes_sub (y := main_call0_cst_0) rfl (by decide),
    writes_sub (y := main_call0_v2) rfl (by decide),
    writes_sub (y := main_call0_v3) rfl (by decide),
    writes_sub (y := main_call0_v4) rfl (by decide),
    writes_sub (y := main_call0_v5) rfl (by decide),
    writes_sub (y := main_call0_v6) rfl (by decide),
    writes_sub (y := main_call0_v7) rfl (by decide),
    writes_sub (y := main_call0_cst_1) rfl (by decide),
    writes_sub (y := main_call0_v8) rfl (by decide),
    writes_sub (y := main_call0_cst_2) rfl (by decide),
    writes_sub (y := main_call0_v9) rfl (by decide),
    writes_sub (y := main_call0_v10) rfl (by decide),
    writes_sub (y := main_call0_v11) rfl (by decide),
    writes_sub (y := main_call0_cst_3) rfl (by decide),
    writes_sub (y := main_call0_v12) rfl (by decide),
    writes_sub (y := main_call0_cst_4) rfl (by decide),
    writes_sub (y := main_call0_call0_v0) rfl (by decide),
    writes_sub (y := main_call0_call0_v1) rfl (by decide),
    writes_sub (y := main_v20) rfl (by decide),
    writes_sub (y := main_v21) rfl (by decide),
    writes_sub (y := main_v22) rfl (by decide),
    writes_sub (y := main_v23) rfl (by decide),
    writes_sub (y := main_cst_4) rfl (by decide),
    writes_sub (y := main_v24) rfl (by decide),
    writes_sub (y := main_v25) rfl (by decide),
    writes_sub (y := main_v26) rfl (by decide),
    writes_sub (y := main_v27) rfl (by decide),
    writes_sub (y := main_v28) rfl (by decide),
    writes_sub (y := main_v29) rfl (by decide),
    writes_sub (y := main_v30) rfl (by decide),
    writes_sub (y := main_v31) rfl (by decide),
    writes_sub (y := main_v32) rfl (by decide),
    writes_sub (y := main_v33) rfl (by decide),
    writes_sub (y := main_v34) rfl (by decide),
    writes_sub (y := main_v35) rfl (by decide),
    writes_sub (y := main_call1_cst) rfl (by decide),
    writes_sub (y := main_call1_v0) rfl (by decide),
    writes_sub (y := main_v36) rfl (by decide),
    writes_sub (y := main_v37) rfl (by decide),
    writes_sub (y := main_v38) rfl (by decide),
    writes_sub (y := main_v39) rfl (by decide),
    writes_sub (y := main_v40) rfl (by decide),
    writes_sub (y := main_cst_5) rfl (by decide),
    writes_sub (y := main_v41) rfl (by decide),
    writes_sub (y := main_v42) rfl (by decide),
    writes_sub (y := main_v43) rfl (by decide),
    writes_sub (y := main_c_6) rfl (by decide),
    writes_sub (y := main_v44) rfl (by decide),
    writes_sub (y := main_v45) rfl (by decide),
    writes_sub (y := main_c_7) rfl (by decide),
    writes_sub (y := main_v46) rfl (by decide),
    writes_sub (y := main_v47) rfl (by decide),
    writes_sub (y := main_v48) rfl (by decide),
    writes_sub (y := main_v49) rfl (by decide)⟩

set_option maxRecDepth 100000 in
theorem ops1_writes : (ops1 : List (HloOp τ sig (Elt F))).Forall fun op => op.writes ⊆ (written.map (Proc.devRef (τ := τ) .tc)).toFinset :=
  ⟨writes_sub (y := main_v50) rfl (by decide),
    writes_sub (y := main_cst_8) rfl (by decide),
    writes_sub (y := main_v51) rfl (by decide),
    writes_sub (y := main_v52) rfl (by decide),
    writes_sub (y := main_v53) rfl (by decide),
    writes_sub (y := main_v54) rfl (by decide),
    writes_sub (y := main_v55) rfl (by decide),
    writes_sub (y := main_v56) rfl (by decide),
    writes_sub (y := main_v57) rfl (by decide),
    writes_sub (y := main_v58) rfl (by decide),
    writes_sub (y := main_call2_cst) rfl (by decide),
    writes_sub (y := main_call2_v0) rfl (by decide),
    writes_sub (y := main_v59) rfl (by decide),
    writes_sub (y := main_v60) rfl (by decide),
    writes_sub (y := main_v61) rfl (by decide),
    writes_sub (y := main_v62) rfl (by decide),
    writes_sub (y := main_v63) rfl (by decide),
    writes_sub (y := main_call3_cst) rfl (by decide),
    writes_sub (y := main_call3_v0) rfl (by decide),
    writes_sub (y := main_v64) rfl (by decide),
    writes_sub (y := main_cst_9) rfl (by decide),
    writes_sub (y := main_v65) rfl (by decide),
    writes_sub (y := main_cst_10) rfl (by decide),
    writes_sub (y := main_v66) rfl (by decide),
    writes_sub (y := main_v67) rfl (by decide),
    writes_sub (y := main_c_11) rfl (by decide),
    writes_sub (y := main_call4_cst) rfl (by decide),
    writes_sub (y := main_call4_v0) rfl (by decide),
    writes_sub (y := main_call4_v1) rfl (by decide),
    writes_sub (y := main_call4_cst_0) rfl (by decide),
    writes_sub (y := main_call4_v2) rfl (by decide),
    writes_sub (y := main_call4_v3) rfl (by decide),
    writes_sub (y := main_call4_v4) rfl (by decide),
    writes_sub (y := main_call4_v5) rfl (by decide),
    writes_sub (y := main_call4_v6) rfl (by decide),
    writes_sub (y := main_call4_v7) rfl (by decide),
    writes_sub (y := main_call4_cst_1) rfl (by decide),
    writes_sub (y := main_call4_v8) rfl (by decide),
    writes_sub (y := main_call4_cst_2) rfl (by decide),
    writes_sub (y := main_call4_v9) rfl (by decide),
    writes_sub (y := main_call4_v10) rfl (by decide),
    writes_sub (y := main_call4_v11) rfl (by decide),
    writes_sub (y := main_call4_cst_3) rfl (by decide),
    writes_sub (y := main_call4_v12) rfl (by decide),
    writes_sub (y := main_call4_cst_4) rfl (by decide),
    writes_sub (y := main_call4_call0_v0) rfl (by decide),
    writes_sub (y := main_call4_call0_v1) rfl (by decide),
    writes_sub (y := main_v68) rfl (by decide),
    writes_sub (y := main_v69) rfl (by decide),
    writes_sub (y := main_v70) rfl (by decide),
    writes_sub (y := main_v71) rfl (by decide),
    writes_sub (y := main_cst_12) rfl (by decide),
    writes_sub (y := main_v72) rfl (by decide),
    writes_sub (y := main_v73) rfl (by decide),
    writes_sub (y := main_v74) rfl (by decide),
    writes_sub (y := main_v75) rfl (by decide),
    writes_sub (y := main_v76) rfl (by decide),
    writes_sub (y := main_v77) rfl (by decide),
    writes_sub (y := main_v78) rfl (by decide),
    writes_sub (y := main_v79) rfl (by decide),
    writes_sub (y := main_v80) rfl (by decide),
    writes_sub (y := main_v81) rfl (by decide),
    writes_sub (y := main_v82) rfl (by decide),
    writes_sub (y := main_v83) rfl (by decide),
    writes_sub (y := main_v84) rfl (by decide),
    writes_sub (y := main_v85) rfl (by decide),
    writes_sub (y := main_v86) rfl (by decide),
    writes_sub (y := main_v87) rfl (by decide),
    writes_sub (y := main_call5_cst) rfl (by decide),
    writes_sub (y := main_call5_v0) rfl (by decide),
    writes_sub (y := main_v88) rfl (by decide),
    writes_sub (y := main_v89) rfl (by decide),
    writes_sub (y := main_v90) rfl (by decide),
    writes_sub (y := main_v91) rfl (by decide),
    writes_sub (y := main_v92) rfl (by decide),
    writes_sub (y := main_v93) rfl (by decide),
    writes_sub (y := main_c_13) rfl (by decide),
    writes_sub (y := main_v94) rfl (by decide),
    writes_sub (y := main_v95) rfl (by decide),
    writes_sub (y := main_c_14) rfl (by decide),
    writes_sub (y := main_v96) rfl (by decide),
    writes_sub (y := main_v97) rfl (by decide),
    writes_sub (y := main_v98) rfl (by decide),
    writes_sub (y := main_v99) rfl (by decide),
    writes_sub (y := main_v100) rfl (by decide),
    writes_sub (y := main_v101) rfl (by decide),
    writes_sub (y := main_v102) rfl (by decide)⟩

set_option maxRecDepth 100000 in
theorem ops2_writes : (ops2 : List (HloOp τ sig (Elt F))).Forall fun op => op.writes ⊆ (written.map (Proc.devRef (τ := τ) .tc)).toFinset :=
  ⟨writes_sub (y := main_c_15) rfl (by decide),
    writes_sub (y := main_v103) rfl (by decide),
    writes_sub (y := main_v104) rfl (by decide),
    writes_sub (y := main_c_16) rfl (by decide),
    writes_sub (y := main_v105) rfl (by decide),
    writes_sub (y := main_v106) rfl (by decide),
    writes_sub (y := main_v107) rfl (by decide),
    writes_sub (y := main_v108) rfl (by decide),
    writes_sub (y := main_v109) rfl (by decide),
    writes_sub (y := main_v110) rfl (by decide),
    writes_sub (y := main_v111) rfl (by decide),
    writes_sub (y := main_c_17) rfl (by decide),
    writes_sub (y := main_v112) rfl (by decide),
    writes_sub (y := main_v113) rfl (by decide),
    writes_sub (y := main_c_18) rfl (by decide),
    writes_sub (y := main_v114) rfl (by decide),
    writes_sub (y := main_v115) rfl (by decide),
    writes_sub (y := main_v116) rfl (by decide),
    writes_sub (y := main_v117) rfl (by decide),
    writes_sub (y := main_v118) rfl (by decide),
    writes_sub (y := main_v119) rfl (by decide),
    writes_sub (y := main_v120) rfl (by decide),
    writes_sub (y := main_v121) rfl (by decide),
    writes_sub (y := main_v122) rfl (by decide),
    writes_sub (y := main_v123) rfl (by decide)⟩

/-- A buffer the line does not write keeps its contents. -/
theorem keep (V : Valuation τ sig (Elt F)) {r : Ref sig .tc} (hr : r ∉ written) :
    after ops V (Proc.devRef .tc r) = V (Proc.devRef .tc r) := by
  rw [after_ops, after_of_writes_sub ops2 _ ops2_writes hr, after_of_writes_sub ops1 _ ops1_writes hr,
    after_of_writes_sub ops0 _ ops0_writes hr]

theorem scopedRefs_eq : (Finset.univ.filter fun b : Ref sig .tc => b.isScoped) = ∅ := by decide
theorem scopedSems_eq : (Finset.univ.filter fun sm : SemLoc sig => sm.isScoped .tc) = ∅ := by decide

/-! ## What the result buffer holds -/

attribute [local irreducible] Host.gather Host.scatterAdd Host.reduceAdd in
set_option maxRecDepth 100000 in
set_option maxHeartbeats 1000000 in
/-- After the line the result buffer holds the composed network of the arguments: each operation's result is
    its function of the buffers it reads, and reading these back in turn from the last operation to the
    arguments gives, stage by stage, the specification's composition. The gathers, the scatter-sums, and the
    column sums are kept folded meanwhile: the equation never looks inside them. -/
theorem out_eq (V : Valuation τ sig (Elt Ideal)) :
    after (ops (F := Ideal)) V (Proc.devRef .tc main_v123) = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops]
  unfold ops0 ops1 ops2
  after_results_simp
  rfl

/-! ## The run -/

/-- From any memory with zero counters, every weakly fair execution of the reference terminates with the result
    buffer at the specification's network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v123) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v123).trans (out_eq _),
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide)),
      (h c main_arg9).trans (keep _ (by decide)),
      (h c main_arg10).trans (keep _ (by decide)),
      (h c main_arg11).trans (keep _ (by decide)),
      (h c main_arg12).trans (keep _ (by decide)),
      (h c main_arg13).trans (keep _ (by decide)),
      (h c main_arg14).trans (keep _ (by decide)),
      (h c main_arg15).trans (keep _ (by decide)),
      (h c main_arg16).trans (keep _ (by decide)),
      (h c main_arg17).trans (keep _ (by decide)),
      (h c main_arg18).trans (keep _ (by decide)),
      (h c main_arg19).trans (keep _ (by decide)),
      (h c main_arg20).trans (keep _ (by decide)),
      (h c main_arg21).trans (keep _ (by decide))⟩)
    (run_seq scopedRefs_eq scopedSems_eq defs main (fun _ => ops) main_eq
      (fun _ => List.forall_iff_forall_mem.2 (forall_ops ops0_sub ops1_sub ops2_sub)) m ρ
      (fun _ => forall_ops ops0_fresh ops1_fresh ops2_fresh))

/-- The arguments are unchanged by the run. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => (h c).2) (run m ρ)

end Cert.RefValue

end
-- ==== Proof.lean ====
/-
  The certificate: a graph network's link-prediction scores, computed by six tiled kernels among host
  gathers and scatter-adds, against the same network written with whole-array operations.

  Both programs compute, on the extended reals, the specification's function of the arguments
  (Proof/Spec.lean): the kernel's program because each host stretch is the specification's stage of what it
  reads and each region's output array is the specification's dense stage of its input arrays — a
  row-blocked matrix product with the whole contraction in every block is the whole product, row by row,
  and rounding a factor to a narrower format is the identity on the extended reals —, the reference because
  its operations composed in order are the specification's definitions unfolded.  No law of the extended
  reals beyond reindexing finite sums is used, so the finiteness of the inputs is never opened.  The ideal
  pass rewrote nothing, so the idealization is the kernel's own text.
-/
import proofs.«178183_j60533269069967_1_alg».proof.Defs
import proofs.«178183_j60533269069967_1_alg».proof.Proof.Gen.Kernel
import proofs.«178183_j60533269069967_1_alg».proof.Proof.Gen.Kernel.Frame
import proofs.«178183_j60533269069967_1_alg».proof.Proof.Gen.KernelIdeal
import proofs.«178183_j60533269069967_1_alg».proof.Proof.Gen.KernelIdeal.Frame
import proofs.«178183_j60533269069967_1_alg».proof.Proof.Gen.ReferenceIdeal
import proofs.«178183_j60533269069967_1_alg».proof.Proof.Gen.Pre_finite_inputs
import proofs.«178183_j60533269069967_1_alg».proof.Proof.KernelRun
import proofs.«178183_j60533269069967_1_alg».proof.Proof.KernelFold
import proofs.«178183_j60533269069967_1_alg».proof.Proof.Region0
import proofs.«178183_j60533269069967_1_alg».proof.Proof.Region1
import proofs.«178183_j60533269069967_1_alg».proof.Proof.Region2
import proofs.«178183_j60533269069967_1_alg».proof.Proof.Region3
import proofs.«178183_j60533269069967_1_alg».proof.Proof.Region4
import proofs.«178183_j60533269069967_1_alg».proof.Proof.Region5
import proofs.«178183_j60533269069967_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- The idealized kernel runs and leaves its arguments alone. -/
theorem frame_ki : Cert.frame_KernelIdeal := fun m ρ _ => Cert.KernelIdeal.Gen.frame m ρ

/-- The idealized reference runs and leaves its arguments alone: its run with the result dropped. -/
theorem frame_ri : Cert.frame_ReferenceIdeal := fun m ρ _ =>
  (θ_run Cert.ReferenceIdeal.defs _ _).mono (fun _ h c => (h c).2) (Cert.RefValue.run m ρ)

/-- From memories agreeing on the arguments both idealized programs end with the specification's scores of
    the kernel's arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KValue.result_eq m ρ c Cert.KValue.region0 Cert.KValue.region1 Cert.KValue.region2
        Cert.KValue.region3 Cert.KValue.region4 Cert.KValue.region5), (h c).2⟩)
      (Cert.KValue.run_result (F := Ideal) m ρ), ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
